-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S64 : Shape := ⟨1, ![64]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : FVec F S100000x64 .f32) (main_arg2 : FVec F S64 .f32) (main_arg3 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S100000x64 : Shape := ⟨2, ![100000, 64]⟩
abbrev S64 : Shape := ⟨1, ![64]⟩
abbrev S128x128 : Shape := ⟨2, ![128, 128]⟩
abbrev S64x1 : Shape := ⟨2, ![64, 1]⟩
abbrev S64x100000 : Shape := ⟨2, ![64, 100000]⟩
abbrev S12800x128 : Shape := ⟨2, ![12800, 128]⟩
abbrev S64x12800 : Shape := ⟨2, ![64, 12800]⟩
abbrev S64x128 : Shape := ⟨2, ![64, 128]⟩
abbrev S64x10400 : Shape := ⟨2, ![64, 10400]⟩
abbrev S10400x128 : Shape := ⟨2, ![10400, 128]⟩

abbrev nBuf : Space → Nat
  | .hbm => 7
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S64, .f32⟩
  | .hbm, ⟨3, _⟩ => ⟨S128x128, .f32⟩
  | .hbm, ⟨4, _⟩ => ⟨S64x1, .f32⟩
  | .hbm, ⟨5, _⟩ => ⟨S64x100000, .f32⟩
  | .hbm, ⟨6, _⟩ => ⟨S100000x128, .f32⟩
  | .local _ .vmem, ⟨0, _⟩ => ⟨S12800x128, .f32⟩
  | .local _ .vmem, ⟨1, _⟩ => ⟨S12800x128, .f32⟩
  | .local _ .vmem, ⟨2, _⟩ => ⟨S64x12800, .f32⟩
  | .local _ .vmem, ⟨3, _⟩ => ⟨S64x12800, .f32⟩
  | .local _ .vmem, ⟨4, _⟩ => ⟨S64x1, .f32⟩
  | .local _ .vmem, ⟨5, _⟩ => ⟨S128x128, .f32⟩
  | .local _ .vmem, ⟨6, _⟩ => ⟨S12800x128, .f32⟩
  | .local _ .vmem, ⟨7, _⟩ => ⟨S12800x128, .f32⟩
  | .local _ .vmem, ⟨8, _⟩ => ⟨S64x128, .f32⟩
  | .local _ .vmem, ⟨9, _⟩ => ⟨S64x128, .bf16⟩
  | .local _ .vmem, ⟨10, _⟩ => ⟨S128x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def k0_cond4 (i : grid0.Coords) : BitVec 1 :=
  let arg0 : BitVec 32 := BitVec.ofNat 32 (i 0).val
  let c1_i32 : BitVec 32 := 1#32
  let v15 : BitVec 1 := Scalar.cmpi .eq arg0 c1_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x12800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S12800x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S64_S64x1 : S64.ShapeCasts S64x1
  transposes_S100000x64_S64x100000_1_0 : S100000x64.Transposes [1, 0] S64x100000
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x12800_S64x12800_0_0 : ∀ a, (![0, 0] : Fin 2 → Nat) a + S64x12800.size a ≤ S64x12800.size a
  h_S64x12800 : 0 < S64x12800.numel
  shapeCasts_S64x12800_S64x12800 : S64x12800.ShapeCasts S64x12800
  bitsLt_bf16_f32 : FTy.bits .bf16 < FTy.bits .f32
  inb_S12800x128_S12800x128_0_0 : ∀ a, (![0, 0] : Fin 2 → Nat) a + S12800x128.size a ≤ S12800x128.size a
  h_S12800x128 : 0 < S12800x128.numel
  inb_S64x12800_S64x10400_0_0 : ∀ a, (![0, 0] : Fin 2 → Nat) a + S64x10400.size a ≤ S64x12800.size a
  h_S64x10400 : 0 < S64x10400.numel
  shapeCasts_S64x10400_S64x10400 : S64x10400.ShapeCasts S64x10400
  inb_S12800x128_S10400x128_0_0 : ∀ a, (![0, 0] : Fin 2 → Nat) a + S10400x128.size a ≤ S12800x128.size a
  h_S10400x128 : 0 < S10400x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x128_S128x128_0_0 : ∀ a, (![0, 0] : Fin 2 → Nat) a + S128x128.size a ≤ S128x128.size a
  h_S128x128 : 0 < S128x128.numel
  packedbf16_S64x128_S64x128_0_0 : (Rect.unit (s := S64x128) ![0, 0] S64x128.size inb_S64x128_S64x128_0_0).PackedRows (EltTy.packing .bf16)
  shapeCasts_S128x128_S128x128 : S128x128.ShapeCasts S128x128
  packedbf16_S128x128_S128x128_0_0 : (Rect.unit (s := S128x128) ![0, 0] S128x128.size inb_S128x128_S128x128_0_0).PackedRows (EltTy.packing .bf16)
  dot_S64x12800_S12800x128_S64x128_1_0_0_1_n_n_wf : DotDims.WF S64x12800 S12800x128 S64x128 [1] [0] [0] [1] [] []
  dot_S64x10400_S10400x128_S64x128_1_0_0_1_n_n_wf : DotDims.WF S64x10400 S10400x128 S64x128 [1] [0] [0] [1] [] []
  dot_S64x128_S128x128_S64x128_1_1_0_0_n_n_wf : DotDims.WF S64x128 S128x128 S64x128 [1] [1] [0] [0] [] []
  dot_S64x12800_S64x128_S12800x128_0_0_1_1_n_n_wf : DotDims.WF S64x12800 S64x128 S12800x128 [0] [0] [1] [1] [] []
  dot_S12800x128_S128x128_S12800x128_1_1_0_0_n_n_wf : DotDims.WF S12800x128 S128x128 S12800x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S12800x128.size a < S100000x128.size a
  hwx0_0 : ∀ i : grid0.Coords, EltTy.bits .f32 = 32 ∨ (Rect.unit (s := S100000x128) (fun a => cc0_transform_0 i a * S12800x128.size a) (fun a => (Pipeline.Clip.of (cc0_transform_0 i a) (S12800x128.size a) (S100000x128.size a)).extent (S12800x128.size a)) fun a => Pipeline.Clip.inb (Pipeline.Clip.ok_of (hstart0_0 i a))).WholeWords (EltTy.packing .f32)
  hwxs0_0 : ∀ i : grid0.Coords, EltTy.bits .f32 = 32 ∨ (Rect.unit (s := S12800x128) (fun _ => 0) (fun a => (Pipeline.Clip.of (cc0_transform_0 i a) (S12800x128.size a) (S100000x128.size a)).extent (S12800x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x12800.size a < S64x100000.size a
  hwx0_1 : ∀ i : grid0.Coords, EltTy.bits .f32 = 32 ∨ (Rect.unit (s := S64x100000) (fun a => cc0_transform_1 i a * S64x12800.size a) (fun a => (Pipeline.Clip.of (cc0_transform_1 i a) (S64x12800.size a) (S64x100000.size a)).extent (S64x12800.size a)) fun a => Pipeline.Clip.inb (Pipeline.Clip.ok_of (hstart0_1 i a))).WholeWords (EltTy.packing .f32)
  hwxs0_1 : ∀ i : grid0.Coords, EltTy.bits .f32 = 32 ∨ (Rect.unit (s := S64x12800) (fun _ => 0) (fun a => (Pipeline.Clip.of (cc0_transform_1 i a) (S64x12800.size a) (S64x100000.size a)).extent (S64x12800.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S12800x128.size a < S100000x128.size a
  hwx0_4 : ∀ i : grid0.Coords, EltTy.bits .f32 = 32 ∨ (Rect.unit (s := S100000x128) (fun a => cc0_transform_4 i a * S12800x128.size a) (fun a => (Pipeline.Clip.of (cc0_transform_4 i a) (S12800x128.size a) (S100000x128.size a)).extent (S12800x128.size a)) fun a => Pipeline.Clip.inb (Pipeline.Clip.ok_of (hstart0_4 i a))).WholeWords (EltTy.packing .f32)
  hwxs0_4 : ∀ i : grid0.Coords, EltTy.bits .f32 = 32 ∨ (Rect.unit (s := S12800x128) (fun _ => 0) (fun a => (Pipeline.Clip.of (cc0_transform_4 i a) (S12800x128.size a) (S100000x128.size a)).extent (S12800x128.size a)) fun a => (Nat.zero_add _).trans_le (Pipeline.Clip.extent_le (Pipeline.Clip.ok_of (hstart0_4 i a)))).WholeWords (EltTy.packing .f32)

variable [Facts₀]

def dot_S64x12800_S12800x128_S64x128_1_0_0_1_n_n : DotDims S64x12800 S12800x128 S64x128 where
  lhsContracting := [1]
  rhsContracting := [0]
  lhsNonContracting := [0]
  rhsNonContracting := [1]
  lhsBatch := []
  rhsBatch := []
  wf := dot_S64x12800_S12800x128_S64x128_1_0_0_1_n_n_wf
def dot_S64x10400_S10400x128_S64x128_1_0_0_1_n_n : DotDims S64x10400 S10400x128 S64x128 where
  lhsContracting := [1]
  rhsContracting := [0]
  lhsNonContracting := [0]
  rhsNonContracting := [1]
  lhsBatch := []
  rhsBatch := []
  wf := dot_S64x10400_S10400x128_S64x128_1_0_0_1_n_n_wf
def dot_S64x128_S128x128_S64x128_1_1_0_0_n_n : DotDims S64x128 S128x128 S64x128 where
  lhsContracting := [1]
  rhsContracting := [1]
  lhsNonContracting := [0]
  rhsNonContracting := [0]
  lhsBatch := []
  rhsBatch := []
  wf := dot_S64x128_S128x128_S64x128_1_1_0_0_n_n_wf
def dot_S64x12800_S64x128_S12800x128_0_0_1_1_n_n : DotDims S64x12800 S64x128 S12800x128 where
  lhsContracting := [0]
  rhsContracting := [0]
  lhsNonContracting := [1]
  rhsNonContracting := [1]
  lhsBatch := []
  rhsBatch := []
  wf := dot_S64x12800_S64x128_S12800x128_0_0_1_1_n_n_wf
def dot_S12800x128_S128x128_S12800x128_1_1_0_0_n_n : DotDims S12800x128 S128x128 S12800x128 where
  lhsContracting := [1]
  rhsContracting := [1]
  lhsNonContracting := [0]
  rhsNonContracting := [0]
  lhsBatch := []
  rhsBatch := []
  wf := dot_S12800x128_S128x128_S12800x128_1_1_0_0_n_n_wf

abbrev win0_0 : Pipeline.Window sig grid0 :=
  Pipeline.Window.ofSpecClip (Memref.whole main_arg0) S12800x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_call0_v1) S64x12800.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_call0_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S12800x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S100000x64 : Shape := ⟨2, ![100000, 64]⟩
abbrev S64 : Shape := ⟨1, ![64]⟩
abbrev S128x128 : Shape := ⟨2, ![128, 128]⟩
abbrev S_ : Shape := ⟨0, ![]⟩
abbrev S1x64 : Shape := ⟨2, ![1, 64]⟩
abbrev S64x100000 : Shape := ⟨2, ![64, 100000]⟩
abbrev S64x128 : Shape := ⟨2, ![64, 128]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x64, .f32⟩
  | .hbm, ⟨2, _⟩ => ⟨S64, .f32⟩
  | .hbm, ⟨3, _⟩ => ⟨S128x128, .f32⟩
  | .hbm, ⟨4, _⟩ => ⟨S128x128, .f32⟩
  | .hbm, ⟨5, _⟩ => ⟨S100000x128, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S64x100000, .f32⟩
  | .hbm, ⟨67, _⟩ => ⟨S64x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  transposes_S128x128_S128x128_1_0 : S128x128.Transposes [1, 0] S128x128
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S100000x64_S64x100000_1_0 : S100000x64.Transposes [1, 0] S64x100000
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  dot_S64x100000_S100000x128_S64x128_1_0_0_1_n_n_wf : DotDims.WF S64x100000 S100000x128 S64x128 [1] [0] [0] [1] [] []
  dot_S100000x64_S64x128_S100000x128_1_0_0_1_n_n_wf : DotDims.WF S100000x64 S64x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S64x100000_S100000x128_S64x128_1_0_0_1_n_n : DotDims S64x100000 S100000x128 S64x128 where
  lhsContracting := [1]
  rhsContracting := [0]
  lhsNonContracting := [0]
  rhsNonContracting := [1]
  lhsBatch := []
  rhsBatch := []
  wf := dot_S64x100000_S100000x128_S64x128_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.WordCases.lean ====
/-
  The four control cases of the fused kernel over its grid of 2 x 8 points, numbered t = 8 * phase + tile.
  The body has four conditionals on the coordinates: the accumulator S is zeroed at t = 0; a full tile's
  product U_tile^T x_tile is added to S at t < 7; at t = 7 the last, partial tile is added and the two small
  matrices G and alpha * W are formed; at t >= 8 (phase 1) a tile of the result is stored. Exactly one of four
  assignments of the conditions occurs at each point: t = 0, 1 <= t <= 6, t = 7, 8 <= t. Also here: the result
  window's staging buffer is idle (never written by the body, never written back) through phase 0, and the
  three scratch buffers as whole memrefs with the region invariant stated over them.
-/
import proofs.«120780_g1580547974323_cont_week2b_927_17_alg».proof.Proof.Gen.Kernel.Frame
import proofs.«120780_g1580547974323_cont_week2b_927_17_alg».proof.Proof.Gen.Kernel.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The conditions, from the grid coordinates, and where each holds -/

/-- "first point of phase 0": the accumulator is zeroed. -/
abbrev condZero (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondZero : ∀ t : Fin cfg0.N, condZero (grid0.coords t) ↔ t.val = 0 :=
  (by decide +kernel : ∀ t : Fin grid0.N, condZero (grid0.coords t) ↔ t.val = 0)

/-- "phase 0, a full tile": its product is added to the accumulator. -/
abbrev condFull (i : grid0.Coords) : Prop :=
  (Scalar.cmpi .ne (Scalar.extui (Scalar.andi (Scalar.cmpi .eq (BitVec.ofNat 32 (i 0).val) 0#32) (Scalar.cmpi .slt (BitVec.ofNat 32 (i 1).val) 7#32))) 0#32) = 1#1
theorem hcondFull : ∀ t : Fin cfg0.N, condFull (grid0.coords t) ↔ t.val < 7 :=
  (by decide +kernel : ∀ t : Fin grid0.N, condFull (grid0.coords t) ↔ t.val < 7)

/-- "phase 0, the last tile": the partial product is added and the small matrices are formed. -/
abbrev condLast (i : grid0.Coords) : Prop :=
  (Scalar.cmpi .ne (Scalar.extui (Scalar.andi (Scalar.cmpi .eq (BitVec.ofNat 32 (i 0).val) 0#32) (Scalar.cmpi .eq (BitVec.ofNat 32 (i 1).val) 7#32))) 0#32) = 1#1
theorem hcondLast : ∀ t : Fin cfg0.N, condLast (grid0.coords t) ↔ t.val = 7 :=
  (by decide +kernel : ∀ t : Fin grid0.N, condLast (grid0.coords t) ↔ t.val = 7)

/-- "phase 1": a tile of the result is stored. -/
abbrev condEmit (i : grid0.Coords) : Prop := k0_cond4 i = 1#1
theorem hcondEmit : ∀ t : Fin cfg0.N, condEmit (grid0.coords t) ↔ 8 ≤ t.val :=
  (by decide +kernel : ∀ t : Fin grid0.N, condEmit (grid0.coords t) ↔ 8 ≤ t.val)

theorem N16 : cfg0.N = 16 := N_0

/-! ## Where the windows are idle, and when the result's block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Through phase 0 the result's window is idle and not written back. -/
theorem idle4 : ∀ t : Fin cfg0.N, t.val < 8 → cfg0.idle 4 (grid0.coords t) = true :=
  (by decide +kernel : ∀ t : Fin grid0.N, t.val < 8 → cfg0.idle 4 (grid0.coords t) = true)
theorem noFlush4 : ∀ t : Fin cfg0.N, t.val < 8 → (cfg0.win 4).flush t = false :=
  (by decide +kernel : ∀ t : Fin grid0.N, t.val < 8 → win0_4.flush t = false)
/-- In phase 1 it is live and written back after every point. -/
theorem live4 : ∀ t : Fin cfg0.N, 8 ≤ t.val → cfg0.idle 4 (grid0.coords t) = false :=
  (by decide +kernel : ∀ t : Fin grid0.N, 8 ≤ t.val → cfg0.idle 4 (grid0.coords t) = false)
theorem flush4 : ∀ t : Fin cfg0.N, 8 ≤ t.val → (cfg0.win 4).flush t = true :=
  (by decide +kernel : ∀ t : Fin grid0.N, 8 ≤ t.val → win0_4.flush t = true)

/-! ## The memrefs the body is called with -/

abbrev ms0 (t : Fin cfg0.N) : Memref sig .tc .vmem S12800x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x12800 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S12800x128 .f32 := win0_4.stage (cfg0.slots t 4)
abbrev hs4 (t : Fin cfg0.N) : (ms4 t).IsWhole := hstage0_4 ((cfg0.slots t 4).cast nbuf0_4)
/-- The accumulator S (f32), G (bf16) and alpha * W (bf16): whole scoped buffers of the kernel's own. -/
abbrev scS : Memref sig .tc .vmem S64x128 .f32 := Memref.whole cc0_scratch0
abbrev scG : Memref sig .tc .vmem S64x128 .bf16 := Memref.whole cc0_scratch1
abbrev scA : Memref sig .tc .vmem S128x128 .bf16 := Memref.whole cc0_scratch2

/-- The class invariant over the scratch memrefs: each at some contents, and the generator register at some state. -/
theorem PhiA0_eq (c : Dev nD) :
    (Pipeline.ΦA spec0 c : sProp 𝕄)
      = iprop(iprop((∃ d, owns (c : Thread nD τ) scS fullShare d) ∗ (∃ d, owns (c : Thread nD τ) scG fullShare d) ∗ (∃ d, owns (c : Thread nD τ) scA fullShare d)) ∗ (∃ r, prngReg c r)) := by
  unfold Pipeline.ΦA; rw [scopedRest0_eq]; simp only [scS, scG, scA, owns_whole]; try rfl

end Cert.Kernel.Gen

end
-- ==== Proof.WordRunFirst.lean ====
/-
  The body at the first point (t = 0): the accumulator is zeroed, then the first full tile's product is added.
  The two input tiles are read, the accumulator's buffer (handed in at anything) ends with the two stores
  written; every other buffer is handed back as it came.
-/
import proofs.«120780_g1580547974323_cont_week2b_927_17_alg».proof.Proof.WordCases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S12800x128 .f32) (harg2 : arg2.IsWhole) (arg3 : Memref sig .tc .vmem S64x12800 .f32) (harg3 : arg3.IsWhole) (arg4 : Memref sig .tc .vmem S64x1 .f32) (harg4 : arg4.IsWhole) (arg5 : Memref sig .tc .vmem S128x128 .f32) (harg5 : arg5.IsWhole) (arg6 : Memref sig .tc .vmem S12800x128 .f32) (harg6 : arg6.IsWhole) (arg7 : Memref sig .tc .vmem S64x128 .f32) (harg7 : arg7.IsWhole) (arg8 : Memref sig .tc .vmem S64x128 .bf16) (harg8 : arg8.IsWhole) (arg9 : Memref sig .tc .vmem S128x128 .bf16) (harg9 : arg9.IsWhole)
    (hZ : condZero i) (hF : condFull i) (hL : ¬condLast i) (hE : ¬condEmit i)
    (x0 : Vec F S12800x128 .f32) (x1 : Vec F S64x12800 .f32) :
    { LS : List (View.Piece (Elt F) S64x128 .f32) //
      ∀ (y2 : Vec F S64x1 .f32) (y3 : Vec F S128x128 .f32) (y4 : Vec F S12800x128 .f32) (yG : Vec F S64x128 .bf16) (yA : Vec F S128x128 .bf16) (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare y3 ∗ owns (c : Thread nD τ) arg6 fullShare y4
            ∗ (∃ d, owns (c : Thread nD τ) arg7 fullShare d) ∗ owns (c : Thread nD τ) arg8 fullShare yG ∗ owns (c : Thread nD τ) arg9 fullShare yA
            ∗ (iprop(owns (c : Thread nD τ) arg2 fullShare x0 ∗ owns (c : Thread nD τ) arg3 fullShare x1 ∗ owns (c : Thread nD τ) arg4 fullShare y2 ∗ owns (c : Thread nD τ) arg5 fullShare y3 ∗ owns (c : Thread nD τ) arg6 fullShare y4
                ∗ (∃ f, arg7.view.loc (c : Thread nD τ) ↦[arg7.view.set]{fullShare} arg7.view.writes (Elt F) f LS) ∗ owns (c : Thread nD τ) arg8 fullShare yG ∗ owns (c : Thread nD τ) arg9 fullShare yA) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, fun y2 y3 y4 yG yA E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg8.eq_unread hf8
    obtain rfl := harg9.eq_unread hf9
    sl_exec (disch := first | exact hZ | exact hF | exact hL | exact hE)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    · iexists _; isplitr; · ipureintro; exact harg9.read_unread _
      iexact H9

end Cert.Kernel.Gen

end
-- ==== Proof.WordRunFull.lean ====
/-
  The body at a middle point of phase 0 (1 <= t <= 6): a full tile's product is added to the accumulator, which
  arrives holding what the point before left and ends with the one store written; every other buffer is handed
  back as it came.
-/
import proofs.«120780_g1580547974323_cont_week2b_927_17_alg».proof.Proof.WordRunFirst

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def runFull (c : Dev nD) (i : grid0.Coords) (arg2 : Memref sig .tc .vmem S12800x128 .f32) (harg2 : arg2.IsWhole) (arg3 : Memref sig .tc .vmem S64x12800 .f32) (harg3 : arg3.IsWhole) (arg4 : Memref sig .tc .vmem S64x1 .f32) (harg4 : arg4.IsWhole) (arg5 : Memref sig .tc .vmem S128x128 .f32) (harg5 : arg5.IsWhole) (arg6 : Memref sig .tc .vmem S12800x128 .f32) (harg6 : arg6.IsWhole) (arg7 : Memref sig .tc .vmem S64x128 .f32) (harg7 : arg7.IsWhole) (arg8 : Memref sig .tc .vmem S64x128 .bf16) (harg8 : arg8.IsWhole) (arg9 : Memref sig .tc .vmem S128x128 .bf16) (harg9 : arg9.IsWhole)
    (hZ : ¬condZero i) (hF : condFull i) (hL : ¬condLast i) (hE : ¬condEmit i)
    (x0 : Vec F S12800x128 .f32) (x1 : Vec F S64x12800 .f32) (xS : Vec F S64x128 .f32) :
    { LS : List (View.Piece (Elt F) S64x128 .f32) //
      ∀ (y2 : Vec F S64x1 .f32) (y3 : Vec F S128x128 .f32) (y4 : Vec F S12800x128 .f32) (yG : Vec F S64x128 .bf16) (yA : Vec F S128x128 .bf16) (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare y3 ∗ owns (c : Thread nD τ) arg6 fullShare y4
            ∗ owns (c : Thread nD τ) arg7 fullShare xS ∗ owns (c : Thread nD τ) arg8 fullShare yG ∗ owns (c : Thread nD τ) arg9 fullShare yA
            ∗ (iprop(owns (c : Thread nD τ) arg2 fullShare x0 ∗ owns (c : Thread nD τ) arg3 fullShare x1 ∗ owns (c : Thread nD τ) arg4 fullShare y2 ∗ owns (c : Thread nD τ) arg5 fullShare y3 ∗ owns (c : Thread nD τ) arg6 fullShare y4
                ∗ (∃ f, arg7.view.loc (c : Thread nD τ) ↦[arg7.view.set]{fullShare} arg7.view.writes (Elt F) f LS) ∗ owns (c : Thread nD τ) arg8 fullShare yG ∗ owns (c : Thread nD τ) arg9 fullShare yA) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, fun y2 y3 y4 yG yA E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9
    sl_exec (disch := first | exact hZ | exact hF | exact hL | exact hE)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    · iexists _; isplitr; · ipureintro; exact harg9.read_unread _
      iexact H9

end Cert.Kernel.Gen

end
-- ==== Proof.WordRunLast.lean ====
/-
  The body at the last point of phase 0 (t = 7): the partial tile's product (the 10400 rows inside the arrays) is
  added to the accumulator's contents, the eigenvalue polynomial is evaluated, and the two small matrices are
  stored: G into its scratch buffer and alpha * W into its. The accumulator's buffer is read, not written; the
  two small scratch buffers arrive at anything and end with one store each written.
-/
import proofs.«120780_g1580547974323_cont_week2b_927_17_alg».proof.Proof.WordRunFull

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
noncomputable def runLast (c : Dev nD) (i : grid0.Coords) (arg2 : Memref sig .tc .vmem S12800x128 .f32) (harg2 : arg2.IsWhole) (arg3 : Memref sig .tc .vmem S64x12800 .f32) (harg3 : arg3.IsWhole) (arg4 : Memref sig .tc .vmem S64x1 .f32) (harg4 : arg4.IsWhole) (arg5 : Memref sig .tc .vmem S128x128 .f32) (harg5 : arg5.IsWhole) (arg6 : Memref sig .tc .vmem S12800x128 .f32) (harg6 : arg6.IsWhole) (arg7 : Memref sig .tc .vmem S64x128 .f32) (harg7 : arg7.IsWhole) (arg8 : Memref sig .tc .vmem S64x128 .bf16) (harg8 : arg8.IsWhole) (arg9 : Memref sig .tc .vmem S128x128 .bf16) (harg9 : arg9.IsWhole)
    (hZ : ¬condZero i) (hF : ¬condFull i) (hL : condLast i) (hE : ¬condEmit i)
    (x0 : Vec F S12800x128 .f32) (x1 : Vec F S64x12800 .f32) (x2 : Vec F S64x1 .f32) (x3 : Vec F S128x128 .f32) (xS : Vec F S64x128 .f32) :
    Σ' (LG : List (View.Piece (Elt F) S64x128 .bf16)), { LA : List (View.Piece (Elt F) S128x128 .bf16) //
      ∀ (y4 : Vec F S12800x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
            ∗ owns (c : Thread nD τ) arg7 fullShare xS ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
                ∗ owns (c : Thread nD τ) arg7 fullShare xS ∗ (∃ f, arg8.view.loc (c : Thread nD τ) ↦[arg8.view.set]{fullShare} arg8.view.writes (Elt F) f LG) ∗ (∃ f, arg9.view.loc (c : Thread nD τ) ↦[arg9.view.set]{fullShare} arg9.view.writes (Elt F) f LA)) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, ?_, fun y4 E K => ?run⟩
  case run =>
    simp only [cc0__body_eq_skeleton, k0_part1_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hZ | exact hF | exact hL | exact hE)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

end Cert.Kernel.Gen

end
-- ==== Proof.WordRunEmit.lean ====
/-
  The body at a point of phase 1 (8 <= t): a tile of the result, U_tile G + x_tile (alpha W)^T, is stored whole
  into the result window's buffer, which arrives at anything; the two input tiles and the two small scratch
  buffers are read; every buffer but the result's is handed back as it came.
-/
import proofs.«120780_g1580547974323_cont_week2b_927_17_alg».proof.Proof.WordRunLast

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def runEmit (c : Dev nD) (i : grid0.Coords) (arg2 : Memref sig .tc .vmem S12800x128 .f32) (harg2 : arg2.IsWhole) (arg3 : Memref sig .tc .vmem S64x12800 .f32) (harg3 : arg3.IsWhole) (arg4 : Memref sig .tc .vmem S64x1 .f32) (harg4 : arg4.IsWhole) (arg5 : Memref sig .tc .vmem S128x128 .f32) (harg5 : arg5.IsWhole) (arg6 : Memref sig .tc .vmem S12800x128 .f32) (harg6 : arg6.IsWhole) (arg7 : Memref sig .tc .vmem S64x128 .f32) (harg7 : arg7.IsWhole) (arg8 : Memref sig .tc .vmem S64x128 .bf16) (harg8 : arg8.IsWhole) (arg9 : Memref sig .tc .vmem S128x128 .bf16) (harg9 : arg9.IsWhole)
    (hZ : ¬condZero i) (hF : ¬condFull i) (hL : ¬condLast i) (hE : condEmit i)
    (x0 : Vec F S12800x128 .f32) (x1 : Vec F S64x12800 .f32) (xG : Vec F S64x128 .bf16) (xA : Vec F S128x128 .bf16) :
    { LO : List (View.Piece (Elt F) S12800x128 .f32) //
      ∀ (y2 : Vec F S64x1 .f32) (y3 : Vec F S128x128 .f32) (yS : Vec F S64x128 .f32) (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare y3 ∗ (∃ d, owns (c : Thread nD τ) arg6 fullShare d)
            ∗ owns (c : Thread nD τ) arg7 fullShare yS ∗ owns (c : Thread nD τ) arg8 fullShare xG ∗ owns (c : Thread nD τ) arg9 fullShare xA
            ∗ (iprop(owns (c : Thread nD τ) arg2 fullShare x0 ∗ owns (c : Thread nD τ) arg3 fullShare x1 ∗ owns (c : Thread nD τ) arg4 fullShare y2 ∗ owns (c : Thread nD τ) arg5 fullShare y3 ∗ (∃ f, arg6.view.loc (c : Thread nD τ) ↦[arg6.view.set]{fullShare} arg6.view.writes (Elt F) f LO)
                ∗ owns (c : Thread nD τ) arg7 fullShare yS ∗ owns (c : Thread nD τ) arg8 fullShare xG ∗ owns (c : Thread nD τ) arg9 fullShare xA) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, fun y2 y3 yS E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4
    obtain rfl := harg5.eq_unread hf5; obtain rfl := harg7.eq_unread hf7
    obtain rfl := harg8.eq_unread hf8; obtain rfl := harg9.eq_unread hf9
    sl_exec (disch := first | exact hZ | exact hF | exact hL | exact hE)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    · iexists _; isplitr; · ipureintro; exact harg9.read_unread _
      iexact H9

end Cert.Kernel.Gen

end
-- ==== Proof.WordFrame.lean ====
/-
  The frame of the fused kernel: every weakly fair execution terminates, faults nowhere, and leaves x, U, V and W
  as they were. Nothing is said here of what the tiles' staging buffers or the result hold: the windows whose
  blocks overhang their arrays (the tiles of x and of U^T, and the result's) are handed to the body at anything
  and taken back at anything; only the two small inputs staged once (V as a column, W) are followed, since the
  body must leave them in place for the points that do not fetch them again. The three scratch buffers ride the
  region invariant at some contents. At each point exactly one of the four control cases applies.
-/
import proofs.«120780_g1580547974323_cont_week2b_927_17_alg».proof.Proof.WordRunEmit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is named: the two streamed inputs and the result. -/
def forgets : Fin 5 → Bool := fun w => w.val == 0 || w.val == 1 || w.val == 4

/-- Proof data: arrays as the region finds them; V's and W's staging buffers at their blocks after every point. -/
def fdats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]

/-- V's column and W are found at their blocks at every point, fetched there or not. -/
theorem fbefore2 (c : Dev nD) (t : Fin cfg0.N) (d) : (fdats m 0 c).before 2 t d = iblk m c 2 t :=
  before0_2_of m (fdats m 0 c) (fA_eq m c 2) (fafter2 m c) t d
theorem fbefore3 (c : Dev nD) (t : Fin cfg0.N) (d) : (fdats m 0 c).before 3 t d = iblk m c 3 t :=
  before0_3_of m (fdats m 0 c) (fA_eq m c 3) (fafter3 m c) t d

def fbodyPre (c : Dev nD) (t : Fin cfg0.N) : sProp 𝕄 :=
  iprop((fdats m 0 c).Φ t.castSucc ∗ (fdats m 0 c).owesAt () t.castSucc
    ∗ (∃ d, owns (c : Thread nD τ) (ms0 t) fullShare d)
    ∗ (∃ d, owns (c : Thread nD τ) (ms1 t) fullShare d)
    ∗ (∃ d, owns (c : Thread nD τ) (ms2 t) fullShare ((fdats m 0 c).before 2 t d))
    ∗ (∃ d, owns (c : Thread nD τ) (ms3 t) fullShare ((fdats m 0 c).before 3 t d))
    ∗ (∃ d, owns (c : Thread nD τ) (ms4 t) fullShare d))

def fbodyPost (c : Dev nD) (t : Fin cfg0.N) : sProp 𝕄 :=
  iprop((fdats m 0 c).Φ t.succ ∗ (fdats m 0 c).owesAt () t.succ
    ∗ (∃ d, owns (c : Thread nD τ) (ms0 t) fullShare d)
    ∗ (∃ d, owns (c : Thread nD τ) (ms1 t) fullShare d)
    ∗ (fdats m 0 c).leavesExact 2 t
    ∗ (fdats m 0 c).leavesExact 3 t
    ∗ (∃ d, owns (c : Thread nD τ) (ms4 t) fullShare d))

set_option maxHeartbeats 2000000 in
theorem fsound_first (c : Dev nD) (t : Fin cfg0.N) (hz : t.val = 0) :
    fbodyPre m c t ⊢ wp frame (wpE (defs₀ (F := F)) Variants.none c none) Set.univ (bodyAt0 t) (fun _ => fbodyPost m c t) := by
  have hN : t.val < 16 := lt_of_lt_of_eq t.isLt N16
  unfold fbodyPre fbodyPost bodyAt0
  simp only [fbefore2, fbefore3]
  rw [show (fdats m 0 c).Φ t.succ = Pipeline.ΦA spec0 c from rfl,
    show (fdats m 0 c).Φ t.castSucc = Pipeline.ΦA spec0 c from rfl,
    show (fdats m 0 c).owesAt () t.succ = (fdats m 0 c).owesAt () t.castSucc from rfl]
  rw [show (fdats m 0 c).leavesExact 2 t = owns (c : Thread nD τ) (ms2 t) fullShare ((fdats m 0 c).after 2 t) from by
    unfold Dat.leavesExact; rw [live2 t], fafter2]
  rw [show (fdats m 0 c).leavesExact 3 t = owns (c : Thread nD τ) (ms3 t) fullShare ((fdats m 0 c).after 3 t) from by
    unfold Dat.leavesExact; rw [live3 t], fafter3]
  rw [PhiA0_eq]
  iintro ⟨⟨⟨⟨%dS, HS⟩, ⟨%dG, HG⟩, ⟨%dA, HA⟩⟩, Hg⟩, Ho, ⟨%d0, H0⟩, ⟨%d1, H1⟩, ⟨%d2, H2⟩, ⟨%d3, H3⟩, ⟨%d4, H4⟩⟩
  iapply ((runFirst c (grid0.coords t) _ _ _ _ _ _ _ _ _ _ _ _ _ _ _ _ ((hcondZero t).mpr hz) ((hcondFull t).mpr (by omega))
    (fun h => by have := (hcondLast t).mp h; omega) (fun h => by have := (hcondEmit t).mp h; omega) d0 d1).2 _ _ _ _ _ Set.univ _)
  isplitl [H0]; · iexact H0
  isplitl [H1]; · iexact H1
  isplitl [H2]; · iexact H2
  isplitl [H3]; · iexact H3
  isplitl [H4]; · iexact H4
  isplitl [HS]; · iexists _; iexact HS
  isplitl [HG]; · iexact HG
  isplitl [HA]; · iexact HA
  iintro ⟨H0, H1, H2, H3, H4, ⟨%f7, HS⟩, HG, HA⟩
  isplitl [HS HG HA Hg]
  · isplitl [HS HG HA]
    · isplitl [HS]
      · iexists _; unfold owns; iexists _; isplitr; swap
        · iexact HS
        · ipureintro; rfl
      isplitl [HG]; · iexists _; iexact HG
      iexists _; iexact HA
    iexact Hg
  isplitl [Ho]; · iexact Ho
  isplitl [H0]; · iexists _; iexact H0
  isplitl [H1]; · iexists _; iexact H1
  isplitl [H2]; · iexact H2
  isplitl [H3]; · iexact H3
  iexists _; iexact H4

set_option maxHeartbeats 2000000 in
theorem fsound_full (c : Dev nD) (t : Fin cfg0.N) (hz : ¬t.val = 0) (hf : t.val < 7) :
    fbodyPre m c t ⊢ wp frame (wpE (defs₀ (F := F)) Variants.none c none) Set.univ (bodyAt0 t) (fun _ => fbodyPost m c t) := by
  have hN : t.val < 16 := lt_of_lt_of_eq t.isLt N16
  unfold fbodyPre fbodyPost bodyAt0
  simp only [fbefore2, fbefore3]
  rw [show (fdats m 0 c).Φ t.succ = Pipeline.ΦA spec0 c from rfl,
    show (fdats m 0 c).Φ t.castSucc = Pipeline.ΦA spec0 c from rfl,
    show (fdats m 0 c).owesAt () t.succ = (fdats m 0 c).owesAt () t.castSucc from rfl]
  rw [show (fdats m 0 c).leavesExact 2 t = owns (c : Thread nD τ) (ms2 t) fullShare ((fdats m 0 c).after 2 t) from by
    unfold Dat.leavesExact; rw [live2 t], fafter2]
  rw [show (fdats m 0 c).leavesExact 3 t = owns (c : Thread nD τ) (ms3 t) fullShare ((fdats m 0 c).after 3 t) from by
    unfold Dat.leavesExact; rw [live3 t], fafter3]
  rw [PhiA0_eq]
  iintro ⟨⟨⟨⟨%dS, HS⟩, ⟨%dG, HG⟩, ⟨%dA, HA⟩⟩, Hg⟩, Ho, ⟨%d0, H0⟩, ⟨%d1, H1⟩, ⟨%d2, H2⟩, ⟨%d3, H3⟩, ⟨%d4, H4⟩⟩
  iapply ((runFull c (grid0.coords t) _ _ _ _ _ _ _ _ _ _ _ _ _ _ _ _ (fun h => hz ((hcondZero t).mp h)) ((hcondFull t).mpr hf)
    (fun h => by have := (hcondLast t).mp h; omega) (fun h => by have := (hcondEmit t).mp h; omega) d0 d1 dS).2 _ _ _ _ _ Set.univ _)
  isplitl [H0]; · iexact H0
  isplitl [H1]; · iexact H1
  isplitl [H2]; · iexact H2
  isplitl [H3]; · iexact H3
  isplitl [H4]; · iexact H4
  isplitl [HS]; · iexact HS
  isplitl [HG]; · iexact HG
  isplitl [HA]; · iexact HA
  iintro ⟨H0, H1, H2, H3, H4, ⟨%f7, HS⟩, HG, HA⟩
  isplitl [HS HG HA Hg]
  · isplitl [HS HG HA]
    · isplitl [HS]
      · iexists _; unfold owns; iexists _; isplitr; swap
        · iexact HS
        · ipureintro; rfl
      isplitl [HG]; · iexists _; iexact HG
      iexists _; iexact HA
    iexact Hg
  isplitl [Ho]; · iexact Ho
  isplitl [H0]; · iexists _; iexact H0
  isplitl [H1]; · iexists _; iexact H1
  isplitl [H2]; · iexact H2
  isplitl [H3]; · iexact H3
  iexists _; iexact H4

set_option maxHeartbeats 2000000 in
theorem fsound_last (c : Dev nD) (t : Fin cfg0.N) (hl : t.val = 7) :
    fbodyPre m c t ⊢ wp frame (wpE (defs₀ (F := F)) Variants.none c none) Set.univ (bodyAt0 t) (fun _ => fbodyPost m c t) := by
  have hN : t.val < 16 := lt_of_lt_of_eq t.isLt N16
  unfold fbodyPre fbodyPost bodyAt0
  simp only [fbefore2, fbefore3]
  rw [show (fdats m 0 c).Φ t.succ = Pipeline.ΦA spec0 c from rfl,
    show (fdats m 0 c).Φ t.castSucc = Pipeline.ΦA spec0 c from rfl,
    show (fdats m 0 c).owesAt () t.succ = (fdats m 0 c).owesAt () t.castSucc from rfl]
  rw [show (fdats m 0 c).leavesExact 2 t = owns (c : Thread nD τ) (ms2 t) fullShare ((fdats m 0 c).after 2 t) from by
    unfold Dat.leavesExact; rw [live2 t], fafter2]
  rw [show (fdats m 0 c).leavesExact 3 t = owns (c : Thread nD τ) (ms3 t) fullShare ((fdats m 0 c).after 3 t) from by
    unfold Dat.leavesExact; rw [live3 t], fafter3]
  rw [PhiA0_eq]
  iintro ⟨⟨⟨⟨%dS, HS⟩, ⟨%dG, HG⟩, ⟨%dA, HA⟩⟩, Hg⟩, Ho, ⟨%d0, H0⟩, ⟨%d1, H1⟩, ⟨%d2, H2⟩, ⟨%d3, H3⟩, ⟨%d4, H4⟩⟩
  iapply ((runLast c (grid0.coords t) _ _ _ _ _ _ _ _ _ _ _ _ _ _ _ _ (fun h => by have := (hcondZero t).mp h; omega) (fun h => by have := (hcondFull t).mp h; omega)
    ((hcondLast t).mpr hl) (fun h => by have := (hcondEmit t).mp h; omega) d0 d1 (iblk m c 2 t) (iblk m c 3 t) dS).2.2 _ Set.univ _)
  isplitl [H0]; · iexact H0
  isplitl [H1]; · iexact H1
  isplitl [H2]; · iexact H2
  isplitl [H3]; · iexact H3
  isplitl [H4]; · iexact H4
  isplitl [HS]; · iexact HS
  isplitl [HG]; · iexists _; iexact HG
  isplitl [HA]; · iexists _; iexact HA
  iintro ⟨H0, H1, H2, H3, H4, HS, ⟨%f8, HG⟩, ⟨%f9, HA⟩⟩
  isplitl [HS HG HA Hg]
  · isplitl [HS HG HA]
    · isplitl [HS]; · iexists _; iexact HS
      isplitl [HG]
      · iexists _; unfold owns; iexists _; isplitr; swap
        · iexact HG
        · ipureintro; rfl
      iexists _; unfold owns; iexists _; isplitr; swap
      · iexact HA
      · ipureintro; rfl
    iexact Hg
  isplitl [Ho]; · iexact Ho
  isplitl [H0]; · iexists _; iexact H0
  isplitl [H1]; · iexists _; iexact H1
  isplitl [H2]; · iexact H2
  isplitl [H3]; · iexact H3
  iexists _; iexact H4

set_option maxHeartbeats 2000000 in
theorem fsound_emit (c : Dev nD) (t : Fin cfg0.N) (he : 8 ≤ t.val) :
    fbodyPre m c t ⊢ wp frame (wpE (defs₀ (F := F)) Variants.none c none) Set.univ (bodyAt0 t) (fun _ => fbodyPost m c t) := by
  have hN : t.val < 16 := lt_of_lt_of_eq t.isLt N16
  unfold fbodyPre fbodyPost bodyAt0
  simp only [fbefore2, fbefore3]
  rw [show (fdats m 0 c).Φ t.succ = Pipeline.ΦA spec0 c from rfl,
    show (fdats m 0 c).Φ t.castSucc = Pipeline.ΦA spec0 c from rfl,
    show (fdats m 0 c).owesAt () t.succ = (fdats m 0 c).owesAt () t.castSucc from rfl]
  rw [show (fdats m 0 c).leavesExact 2 t = owns (c : Thread nD τ) (ms2 t) fullShare ((fdats m 0 c).after 2 t) from by
    unfold Dat.leavesExact; rw [live2 t], fafter2]
  rw [show (fdats m 0 c).leavesExact 3 t = owns (c : Thread nD τ) (ms3 t) fullShare ((fdats m 0 c).after 3 t) from by
    unfold Dat.leavesExact; rw [live3 t], fafter3]
  rw [PhiA0_eq]
  iintro ⟨⟨⟨⟨%dS, HS⟩, ⟨%dG, HG⟩, ⟨%dA, HA⟩⟩, Hg⟩, Ho, ⟨%d0, H0⟩, ⟨%d1, H1⟩, ⟨%d2, H2⟩, ⟨%d3, H3⟩, ⟨%d4, H4⟩⟩
  iapply ((runEmit c (grid0.coords t) _ _ _ _ _ _ _ _ _ _ _ _ _ _ _ _ (fun h => by have := (hcondZero t).mp h; omega) (fun h => by have := (hcondFull t).mp h; omega)
    (fun h => by have := (hcondLast t).mp h; omega) ((hcondEmit t).mpr he) d0 d1 dG dA).2 _ _ _ Set.univ _)
  isplitl [H0]; · iexact H0
  isplitl [H1]; · iexact H1
  isplitl [H2]; · iexact H2
  isplitl [H3]; · iexact H3
  isplitl [H4]; · iexists _; iexact H4
  isplitl [HS]; · iexact HS
  isplitl [HG]; · iexact HG
  isplitl [HA]; · iexact HA
  iintro ⟨H0, H1, H2, H3, ⟨%f6, H4⟩, HS, HG, HA⟩
  isplitl [HS HG HA Hg]
  · isplitl [HS HG HA]
    · isplitl [HS]; · iexists _; iexact HS
      isplitl [HG]; · iexists _; iexact HG
      iexists _; iexact HA
    iexact Hg
  isplitl [Ho]; · iexact Ho
  isplitl [H0]; · iexists _; iexact H0
  isplitl [H1]; · iexists _; iexact H1
  isplitl [H2]; · iexact H2
  isplitl [H3]; · iexact H3
  iexists _; unfold owns; iexists _; isplitr; swap
  · iexact H4
  · ipureintro; rfl

theorem fsound_body (c : Dev nD) (t : Fin cfg0.N) :
    fbodyPre m c t ⊢ wp frame (wpE (defs₀ (F := F)) Variants.none c none) Set.univ (bodyAt0 t) (fun _ => fbodyPost m c t) := by
  by_cases hz : t.val = 0
  · exact fsound_first m c t hz
  by_cases hf : t.val < 7
  · exact fsound_full m c t hz hf
  by_cases hl : t.val = 7
  · exact fsound_last m c t hl
  · exact fsound_emit m c t (by omega)

/-- The library's body obligation, at every point, the streamed windows and the result's forgotten. -/
theorem fbody_obligation (c : Dev nD) : BodyObligation (fdats (F := F) m 0 c) (defs₀ (F := F)) Variants.none () Set.univ forgets := fun t => by
  rw [bigSep_W0, bigSep_W0]
  exact fsound_body m c t

set_option backward.isDefEq.respectTransparency.types false in
theorem frun_main : θ_run defs (onTc (τ := τ) (main (F := F))) (s₀ m ρ) (Pipeline.RDat.FramePost (cfgs 0) (fun c => (fdats m 0 c).toRForget forgets) (V m)) :=
  Pipeline.RDat.θ_run_frame cfgs (0 : Fin 1) launch0 defs₀ Variants.none (fun c => (fdats m 0 c).toRForget forgets) m ρ main
    (hbody := fun c => (fbody_obligation m c).toRForget) (hshare := fun c => ((fdats m 0 c).toRForget forgets).share_full fun _ => rfl)
    (howed := fun _ _ => rfl) (V := V m) (hmain := hmain m Variants.none) (hA := fA_eq m) (hΦ := fun _ _ => rfl)

/-- The frame: x and W (staged inputs, never written back) and U and V (which no window stages) end as they began. -/
theorem hand_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((fdats m 0 c).toRForget forgets).ArrAt_in 0 rfl _) _) ((h c).1 0)).trans ((fA_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Eq.mp (congrFun (((fdats m 0 c).toRForget forgets).ArrAt_in 3 rfl _) _) ((h c).1 3)).trans ((fA_eq m c 3).trans (V_main_arg3 m c))⟩)
    (frun_main m ρ)

end Cert.Kernel.Gen

end
-- ==== Proof.IdealCases.lean ====
/-
  The four control cases of the fused kernel over its grid of 2 x 8 points, numbered t = 8 * phase + tile.
  The body has four conditionals on the coordinates: the accumulator S is zeroed at t = 0; a full tile's
  product U_tile^T x_tile is added to S at t < 7; at t = 7 the last, partial tile is added and the two small
  matrices G and alpha * W are formed; at t >= 8 (phase 1) a tile of the result is stored. Exactly one of four
  assignments of the conditions occurs at each point: t = 0, 1 <= t <= 6, t = 7, 8 <= t. Also here: the result
  window's staging buffer is idle (never written by the body, never written back) through phase 0, and the
  three scratch buffers as whole memrefs with the region invariant stated over them.
-/
import proofs.«120780_g1580547974323_cont_week2b_927_17_alg».proof.Proof.Gen.KernelIdeal.Frame
import proofs.«120780_g1580547974323_cont_week2b_927_17_alg».proof.Proof.Gen.KernelIdeal.Skeleton
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The conditions, from the grid coordinates, and where each holds -/

/-- "first point of phase 0": the accumulator is zeroed. -/
abbrev condZero (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondZero : ∀ t : Fin cfg0.N, condZero (grid0.coords t) ↔ t.val = 0 :=
  (by decide +kernel : ∀ t : Fin grid0.N, condZero (grid0.coords t) ↔ t.val = 0)

/-- "phase 0, a full tile": its product is added to the accumulator. -/
abbrev condFull (i : grid0.Coords) : Prop :=
  (Scalar.cmpi .ne (Scalar.extui (Scalar.andi (Scalar.cmpi .eq (BitVec.ofNat 32 (i 0).val) 0#32) (Scalar.cmpi .slt (BitVec.ofNat 32 (i 1).val) 7#32))) 0#32) = 1#1
theorem hcondFull : ∀ t : Fin cfg0.N, condFull (grid0.coords t) ↔ t.val < 7 :=
  (by decide +kernel : ∀ t : Fin grid0.N, condFull (grid0.coords t) ↔ t.val < 7)

/-- "phase 0, the last tile": the partial product is added and the small matrices are formed. -/
abbrev condLast (i : grid0.Coords) : Prop :=
  (Scalar.cmpi .ne (Scalar.extui (Scalar.andi (Scalar.cmpi .eq (BitVec.ofNat 32 (i 0).val) 0#32) (Scalar.cmpi .eq (BitVec.ofNat 32 (i 1).val) 7#32))) 0#32) = 1#1
theorem hcondLast : ∀ t : Fin cfg0.N, condLast (grid0.coords t) ↔ t.val = 7 :=
  (by decide +kernel : ∀ t : Fin grid0.N, condLast (grid0.coords t) ↔ t.val = 7)

/-- "phase 1": a tile of the result is stored. -/
abbrev condEmit (i : grid0.Coords) : Prop := k0_cond4 i = 1#1
theorem hcondEmit : ∀ t : Fin cfg0.N, condEmit (grid0.coords t) ↔ 8 ≤ t.val :=
  (by decide +kernel : ∀ t : Fin grid0.N, condEmit (grid0.coords t) ↔ 8 ≤ t.val)

theorem N16 : cfg0.N = 16 := N_0

/-! ## Where the windows are idle, and when the result's block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Through phase 0 the result's window is idle and not written back. -/
theorem idle4 : ∀ t : Fin cfg0.N, t.val < 8 → cfg0.idle 4 (grid0.coords t) = true :=
  (by decide +kernel : ∀ t : Fin grid0.N, t.val < 8 → cfg0.idle 4 (grid0.coords t) = true)
theorem noFlush4 : ∀ t : Fin cfg0.N, t.val < 8 → (cfg0.win 4).flush t = false :=
  (by decide +kernel : ∀ t : Fin grid0.N, t.val < 8 → win0_4.flush t = false)
/-- In phase 1 it is live and written back after every point. -/
theorem live4 : ∀ t : Fin cfg0.N, 8 ≤ t.val → cfg0.idle 4 (grid0.coords t) = false :=
  (by decide +kernel : ∀ t : Fin grid0.N, 8 ≤ t.val → cfg0.idle 4 (grid0.coords t) = false)
theorem flush4 : ∀ t : Fin cfg0.N, 8 ≤ t.val → (cfg0.win 4).flush t = true :=
  (by decide +kernel : ∀ t : Fin grid0.N, 8 ≤ t.val → win0_4.flush t = true)

/-! ## The memrefs the body is called with -/

abbrev ms0 (t : Fin cfg0.N) : Memref sig .tc .vmem S12800x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x12800 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S12800x128 .f32 := win0_4.stage (cfg0.slots t 4)
abbrev hs4 (t : Fin cfg0.N) : (ms4 t).IsWhole := hstage0_4 ((cfg0.slots t 4).cast nbuf0_4)
/-- The accumulator S (f32), G (bf16) and alpha * W (bf16): whole scoped buffers of the kernel's own. -/
abbrev scS : Memref sig .tc .vmem S64x128 .f32 := Memref.whole cc0_scratch0
abbrev scG : Memref sig .tc .vmem S64x128 .bf16 := Memref.whole cc0_scratch1
abbrev scA : Memref sig .tc .vmem S128x128 .bf16 := Memref.whole cc0_scratch2

/-- The class invariant over the scratch memrefs: each at some contents, and the generator register at some state. -/
theorem PhiA0_eq (c : Dev nD) :
    (Pipeline.ΦA spec0 c : sProp 𝕄)
      = iprop(iprop((∃ d, owns (c : Thread nD τ) scS fullShare d) ∗ (∃ d, owns (c : Thread nD τ) scG fullShare d) ∗ (∃ d, owns (c : Thread nD τ) scA fullShare d)) ∗ (∃ r, prngReg c r)) := by
  unfold Pipeline.ΦA; rw [scopedRest0_eq]; simp only [scS, scG, scA, owns_whole]; try rfl

end Cert.KernelIdeal.Gen

end
-- ==== Proof.IdealRunFirst.lean ====
/-
  The body at the first point (t = 0): the accumulator is zeroed, then the first full tile's product is added.
  The two input tiles are read, the accumulator's buffer (handed in at anything) ends with the two stores
  written; every other buffer is handed back as it came.
-/
import proofs.«120780_g1580547974323_cont_week2b_927_17_alg».proof.Proof.IdealCases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def runFirst (c : Dev nD) (i : grid0.Coords) (arg2 : Memref sig .tc .vmem S12800x128 .f32) (harg2 : arg2.IsWhole) (arg3 : Memref sig .tc .vmem S64x12800 .f32) (harg3 : arg3.IsWhole) (arg4 : Memref sig .tc .vmem S64x1 .f32) (harg4 : arg4.IsWhole) (arg5 : Memref sig .tc .vmem S128x128 .f32) (harg5 : arg5.IsWhole) (arg6 : Memref sig .tc .vmem S12800x128 .f32) (harg6 : arg6.IsWhole) (arg7 : Memref sig .tc .vmem S64x128 .f32) (harg7 : arg7.IsWhole) (arg8 : Memref sig .tc .vmem S64x128 .bf16) (harg8 : arg8.IsWhole) (arg9 : Memref sig .tc .vmem S128x128 .bf16) (harg9 : arg9.IsWhole)
    (hZ : condZero i) (hF : condFull i) (hL : ¬condLast i) (hE : ¬condEmit i)
    (x0 : Vec F S12800x128 .f32) (x1 : Vec F S64x12800 .f32) :
    { LS : List (View.Piece (Elt F) S64x128 .f32) //
      ∀ (y2 : Vec F S64x1 .f32) (y3 : Vec F S128x128 .f32) (y4 : Vec F S12800x128 .f32) (yG : Vec F S64x128 .bf16) (yA : Vec F S128x128 .bf16) (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare y3 ∗ owns (c : Thread nD τ) arg6 fullShare y4
            ∗ (∃ d, owns (c : Thread nD τ) arg7 fullShare d) ∗ owns (c : Thread nD τ) arg8 fullShare yG ∗ owns (c : Thread nD τ) arg9 fullShare yA
            ∗ (iprop(owns (c : Thread nD τ) arg2 fullShare x0 ∗ owns (c : Thread nD τ) arg3 fullShare x1 ∗ owns (c : Thread nD τ) arg4 fullShare y2 ∗ owns (c : Thread nD τ) arg5 fullShare y3 ∗ owns (c : Thread nD τ) arg6 fullShare y4
                ∗ (∃ f, arg7.view.loc (c : Thread nD τ) ↦[arg7.view.set]{fullShare} arg7.view.writes (Elt F) f LS) ∗ owns (c : Thread nD τ) arg8 fullShare yG ∗ owns (c : Thread nD τ) arg9 fullShare yA) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, fun y2 y3 y4 yG yA E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg8.eq_unread hf8
    obtain rfl := harg9.eq_unread hf9
    sl_exec (disch := first | exact hZ | exact hF | exact hL | exact hE)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    · iexists _; isplitr; · ipureintro; exact harg9.read_unread _
      iexact H9

end Cert.KernelIdeal.Gen

end
-- ==== Proof.IdealRunFull.lean ====
/-
  The body at a middle point of phase 0 (1 <= t <= 6): a full tile's product is added to the accumulator, which
  arrives holding what the point before left and ends with the one store written; every other buffer is handed
  back as it came.
-/
import proofs.«120780_g1580547974323_cont_week2b_927_17_alg».proof.Proof.IdealRunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def runFull (c : Dev nD) (i : grid0.Coords) (arg2 : Memref sig .tc .vmem S12800x128 .f32) (harg2 : arg2.IsWhole) (arg3 : Memref sig .tc .vmem S64x12800 .f32) (harg3 : arg3.IsWhole) (arg4 : Memref sig .tc .vmem S64x1 .f32) (harg4 : arg4.IsWhole) (arg5 : Memref sig .tc .vmem S128x128 .f32) (harg5 : arg5.IsWhole) (arg6 : Memref sig .tc .vmem S12800x128 .f32) (harg6 : arg6.IsWhole) (arg7 : Memref sig .tc .vmem S64x128 .f32) (harg7 : arg7.IsWhole) (arg8 : Memref sig .tc .vmem S64x128 .bf16) (harg8 : arg8.IsWhole) (arg9 : Memref sig .tc .vmem S128x128 .bf16) (harg9 : arg9.IsWhole)
    (hZ : ¬condZero i) (hF : condFull i) (hL : ¬condLast i) (hE : ¬condEmit i)
    (x0 : Vec F S12800x128 .f32) (x1 : Vec F S64x12800 .f32) (xS : Vec F S64x128 .f32) :
    { LS : List (View.Piece (Elt F) S64x128 .f32) //
      ∀ (y2 : Vec F S64x1 .f32) (y3 : Vec F S128x128 .f32) (y4 : Vec F S12800x128 .f32) (yG : Vec F S64x128 .bf16) (yA : Vec F S128x128 .bf16) (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare y3 ∗ owns (c : Thread nD τ) arg6 fullShare y4
            ∗ owns (c : Thread nD τ) arg7 fullShare xS ∗ owns (c : Thread nD τ) arg8 fullShare yG ∗ owns (c : Thread nD τ) arg9 fullShare yA
            ∗ (iprop(owns (c : Thread nD τ) arg2 fullShare x0 ∗ owns (c : Thread nD τ) arg3 fullShare x1 ∗ owns (c : Thread nD τ) arg4 fullShare y2 ∗ owns (c : Thread nD τ) arg5 fullShare y3 ∗ owns (c : Thread nD τ) arg6 fullShare y4
                ∗ (∃ f, arg7.view.loc (c : Thread nD τ) ↦[arg7.view.set]{fullShare} arg7.view.writes (Elt F) f LS) ∗ owns (c : Thread nD τ) arg8 fullShare yG ∗ owns (c : Thread nD τ) arg9 fullShare yA) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, fun y2 y3 y4 yG yA E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9
    sl_exec (disch := first | exact hZ | exact hF | exact hL | exact hE)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]
    · iexists _; isplitr; · ipureintro; exact harg8.read_unread _
      iexact H8
    · iexists _; isplitr; · ipureintro; exact harg9.read_unread _
      iexact H9

end Cert.KernelIdeal.Gen

end
-- ==== Proof.IdealRunLast.lean ====
/-
  The body at the last point of phase 0 (t = 7): the partial tile's product (the 10400 rows inside the arrays) is
  added to the accumulator's contents, the eigenvalue polynomial is evaluated, and the two small matrices are
  stored: G into its scratch buffer and alpha * W into its. The accumulator's buffer is read, not written; the
  two small scratch buffers arrive at anything and end with one store each written.
-/
import proofs.«120780_g1580547974323_cont_week2b_927_17_alg».proof.Proof.IdealRunFull

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 8000000 in
noncomputable def runLast (c : Dev nD) (i : grid0.Coords) (arg2 : Memref sig .tc .vmem S12800x128 .f32) (harg2 : arg2.IsWhole) (arg3 : Memref sig .tc .vmem S64x12800 .f32) (harg3 : arg3.IsWhole) (arg4 : Memref sig .tc .vmem S64x1 .f32) (harg4 : arg4.IsWhole) (arg5 : Memref sig .tc .vmem S128x128 .f32) (harg5 : arg5.IsWhole) (arg6 : Memref sig .tc .vmem S12800x128 .f32) (harg6 : arg6.IsWhole) (arg7 : Memref sig .tc .vmem S64x128 .f32) (harg7 : arg7.IsWhole) (arg8 : Memref sig .tc .vmem S64x128 .bf16) (harg8 : arg8.IsWhole) (arg9 : Memref sig .tc .vmem S128x128 .bf16) (harg9 : arg9.IsWhole)
    (hZ : ¬condZero i) (hF : ¬condFull i) (hL : condLast i) (hE : ¬condEmit i)
    (x0 : Vec F S12800x128 .f32) (x1 : Vec F S64x12800 .f32) (x2 : Vec F S64x1 .f32) (x3 : Vec F S128x128 .f32) (xS : Vec F S64x128 .f32) :
    Σ' (LG : List (View.Piece (Elt F) S64x128 .bf16)), { LA : List (View.Piece (Elt F) S128x128 .bf16) //
      ∀ (y4 : Vec F S12800x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
            ∗ owns (c : Thread nD τ) arg7 fullShare xS ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
                ∗ owns (c : Thread nD τ) arg7 fullShare xS ∗ (∃ f, arg8.view.loc (c : Thread nD τ) ↦[arg8.view.set]{fullShare} arg8.view.writes (Elt F) f LG) ∗ (∃ f, arg9.view.loc (c : Thread nD τ) ↦[arg9.view.set]{fullShare} arg9.view.writes (Elt F) f LA)) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, ?_, fun y4 E K => ?run⟩
  case run =>
    simp only [cc0__body_eq_skeleton, k0_part1_eq_skeleton]; unfold cc0__body_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hZ | exact hF | exact hL | exact hE)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

end Cert.KernelIdeal.Gen

end
-- ==== Proof.IdealRunEmit.lean ====
/-
  The body at a point of phase 1 (8 <= t): a tile of the result, U_tile G + x_tile (alpha W)^T, is stored whole
  into the result window's buffer, which arrives at anything; the two input tiles and the two small scratch
  buffers are read; every buffer but the result's is handed back as it came.
-/
import proofs.«120780_g1580547974323_cont_week2b_927_17_alg».proof.Proof.IdealRunLast

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
noncomputable def runEmit (c : Dev nD) (i : grid0.Coords) (arg2 : Memref sig .tc .vmem S12800x128 .f32) (harg2 : arg2.IsWhole) (arg3 : Memref sig .tc .vmem S64x12800 .f32) (harg3 : arg3.IsWhole) (arg4 : Memref sig .tc .vmem S64x1 .f32) (harg4 : arg4.IsWhole) (arg5 : Memref sig .tc .vmem S128x128 .f32) (harg5 : arg5.IsWhole) (arg6 : Memref sig .tc .vmem S12800x128 .f32) (harg6 : arg6.IsWhole) (arg7 : Memref sig .tc .vmem S64x128 .f32) (harg7 : arg7.IsWhole) (arg8 : Memref sig .tc .vmem S64x128 .bf16) (harg8 : arg8.IsWhole) (arg9 : Memref sig .tc .vmem S128x128 .bf16) (harg9 : arg9.IsWhole)
    (hZ : ¬condZero i) (hF : ¬condFull i) (hL : ¬condLast i) (hE : condEmit i)
    (x0 : Vec F S12800x128 .f32) (x1 : Vec F S64x12800 .f32) (xG : Vec F S64x128 .bf16) (xA : Vec F S128x128 .bf16) :
    { LO : List (View.Piece (Elt F) S12800x128 .f32) //
      ∀ (y2 : Vec F S64x1 .f32) (y3 : Vec F S128x128 .f32) (yS : Vec F S64x128 .f32) (E : Set ℕ) (K : PUnit → sProp 𝕄),
        iprop(owns (c : Thread nD τ) arg2 fullShare x0 ∗ owns (c : Thread nD τ) arg3 fullShare x1 ∗ owns (c : Thread nD τ) arg4 fullShare y2 ∗ owns (c : Thread nD τ) arg5 fullShare y3 ∗ (∃ d, owns (c : Thread nD τ) arg6 fullShare d)
            ∗ owns (c : Thread nD τ) arg7 fullShare yS ∗ owns (c : Thread nD τ) arg8 fullShare xG ∗ owns (c : Thread nD τ) arg9 fullShare xA
            ∗ (iprop(owns (c : Thread nD τ) arg2 fullShare x0 ∗ owns (c : Thread nD τ) arg3 fullShare x1 ∗ owns (c : Thread nD τ) arg4 fullShare y2 ∗ owns (c : Thread nD τ) arg5 fullShare y3 ∗ (∃ f, arg6.view.loc (c : Thread nD τ) ↦[arg6.view.set]{fullShare} arg6.view.writes (Elt F) f LO)
                ∗ owns (c : Thread nD τ) arg7 fullShare yS ∗ owns (c : Thread nD τ) arg8 fullShare xG ∗ owns (c : Thread nD τ) arg9 fullShare xA) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, fun y2 y3 yS E K => ?run⟩
  case run =>
    simp only [cc0__body_eq_skeleton]; unfold cc0__body_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4
    obtain rfl := harg5.eq_unread hf5; obtain rfl := harg7.eq_unread hf7
    obtain rfl := harg8.eq_unread hf8; obtain rfl := harg9.eq_unread hf9
    sl_exec (disch := first | exact hZ | exact hF | exact hL | exact hE)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    isplitl [H8]
    · iexists _; isplitr; · ipureintro; exact harg8.read_unread _
      iexact H8
    · iexists _; isplitr; · ipureintro; exact harg9.read_unread _
      iexact H9

end Cert.KernelIdeal.Gen

end
-- ==== Proof.IdealFrame.lean ====
/-
  The frame of the fused kernel: every weakly fair execution terminates, faults nowhere, and leaves x, U, V and W
  as they were. Nothing is said here of what the tiles' staging buffers or the result hold: the windows whose
  blocks overhang their arrays (the tiles of x and of U^T, and the result's) are handed to the body at anything
  and taken back at anything; only the two small inputs staged once (V as a column, W) are followed, since the
  body must leave them in place for the points that do not fetch them again. The three scratch buffers ride the
  region invariant at some contents. At each point exactly one of the four control cases applies.
-/
import proofs.«120780_g1580547974323_cont_week2b_927_17_alg».proof.Proof.IdealRunEmit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is named: the two streamed inputs and the result. -/
def forgets : Fin 5 → Bool := fun w => w.val == 0 || w.val == 1 || w.val == 4

/-- Proof data: arrays as the region finds them; V's and W's staging buffers at their blocks after every point. -/
def fdats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem fA_eq (c : Dev nD) (w : Fin cfg0.W) : (fdats m 0 c).A w = V m c (Pipeline.arrRef spec0 w) := by
  dsimp only [fdats]

theorem fafter2 (c : Dev nD) (t : Fin cfg0.N) : (fdats m 0 c).after 2 t = iblk m c 2 t := by dsimp only [fdats]
theorem fafter3 (c : Dev nD) (t : Fin cfg0.N) : (fdats m 0 c).after 3 t = iblk m c 3 t := by dsimp only [fdats]

/-- V's column and W are found at their blocks at every point, fetched there or not. -/
theorem fbefore2 (c : Dev nD) (t : Fin cfg0.N) (d) : (fdats m 0 c).before 2 t d = iblk m c 2 t :=
  before0_2_of m (fdats m 0 c) (fA_eq m c 2) (fafter2 m c) t d
theorem fbefore3 (c : Dev nD) (t : Fin cfg0.N) (d) : (fdats m 0 c).before 3 t d = iblk m c 3 t :=
  before0_3_of m (fdats m 0 c) (fA_eq m c 3) (fafter3 m c) t d

def fbodyPre (c : Dev nD) (t : Fin cfg0.N) : sProp 𝕄 :=
  iprop((fdats m 0 c).Φ t.castSucc ∗ (fdats m 0 c).owesAt () t.castSucc
    ∗ (∃ d, owns (c : Thread nD τ) (ms0 t) fullShare d)
    ∗ (∃ d, owns (c : Thread nD τ) (ms1 t) fullShare d)
    ∗ (∃ d, owns (c : Thread nD τ) (ms2 t) fullShare ((fdats m 0 c).before 2 t d))
    ∗ (∃ d, owns (c : Thread nD τ) (ms3 t) fullShare ((fdats m 0 c).before 3 t d))
    ∗ (∃ d, owns (c : Thread nD τ) (ms4 t) fullShare d))

def fbodyPost (c : Dev nD) (t : Fin cfg0.N) : sProp 𝕄 :=
  iprop((fdats m 0 c).Φ t.succ ∗ (fdats m 0 c).owesAt () t.succ
    ∗ (∃ d, owns (c : Thread nD τ) (ms0 t) fullShare d)
    ∗ (∃ d, owns (c : Thread nD τ) (ms1 t) fullShare d)
    ∗ (fdats m 0 c).leavesExact 2 t
    ∗ (fdats m 0 c).leavesExact 3 t
    ∗ (∃ d, owns (c : Thread nD τ) (ms4 t) fullShare d))

set_option maxHeartbeats 2000000 in
theorem fsound_first (c : Dev nD) (t : Fin cfg0.N) (hz : t.val = 0) :
    fbodyPre m c t ⊢ wp frame (wpE (defs₀ (F := F)) Variants.none c none) Set.univ (bodyAt0 t) (fun _ => fbodyPost m c t) := by
  have hN : t.val < 16 := lt_of_lt_of_eq t.isLt N16
  unfold fbodyPre fbodyPost bodyAt0
  simp only [fbefore2, fbefore3]
  rw [show (fdats m 0 c).Φ t.succ = Pipeline.ΦA spec0 c from rfl,
    show (fdats m 0 c).Φ t.castSucc = Pipeline.ΦA spec0 c from rfl,
    show (fdats m 0 c).owesAt () t.succ = (fdats m 0 c).owesAt () t.castSucc from rfl]
  rw [show (fdats m 0 c).leavesExact 2 t = owns (c : Thread nD τ) (ms2 t) fullShare ((fdats m 0 c).after 2 t) from by
    unfold Dat.leavesExact; rw [live2 t], fafter2]
  rw [show (fdats m 0 c).leavesExact 3 t = owns (c : Thread nD τ) (ms3 t) fullShare ((fdats m 0 c).after 3 t) from by
    unfold Dat.leavesExact; rw [live3 t], fafter3]
  rw [PhiA0_eq]
  iintro ⟨⟨⟨⟨%dS, HS⟩, ⟨%dG, HG⟩, ⟨%dA, HA⟩⟩, Hg⟩, Ho, ⟨%d0, H0⟩, ⟨%d1, H1⟩, ⟨%d2, H2⟩, ⟨%d3, H3⟩, ⟨%d4, H4⟩⟩
  iapply ((runFirst c (grid0.coords t) _ _ _ _ _ _ _ _ _ _ _ _ _ _ _ _ ((hcondZero t).mpr hz) ((hcondFull t).mpr (by omega))
    (fun h => by have := (hcondLast t).mp h; omega) (fun h => by have := (hcondEmit t).mp h; omega) d0 d1).2 _ _ _ _ _ Set.univ _)
  isplitl [H0]; · iexact H0
  isplitl [H1]; · iexact H1
  isplitl [H2]; · iexact H2
  isplitl [H3]; · iexact H3
  isplitl [H4]; · iexact H4
  isplitl [HS]; · iexists _; iexact HS
  isplitl [HG]; · iexact HG
  isplitl [HA]; · iexact HA
  iintro ⟨H0, H1, H2, H3, H4, ⟨%f7, HS⟩, HG, HA⟩
  isplitl [HS HG HA Hg]
  · isplitl [HS HG HA]
    · isplitl [HS]
      · iexists _; unfold owns; iexists _; isplitr; swap
        · iexact HS
        · ipureintro; rfl
      isplitl [HG]; · iexists _; iexact HG
      iexists _; iexact HA
    iexact Hg
  isplitl [Ho]; · iexact Ho
  isplitl [H0]; · iexists _; iexact H0
  isplitl [H1]; · iexists _; iexact H1
  isplitl [H2]; · iexact H2
  isplitl [H3]; · iexact H3
  iexists _; iexact H4

set_option maxHeartbeats 2000000 in
theorem fsound_full (c : Dev nD) (t : Fin cfg0.N) (hz : ¬t.val = 0) (hf : t.val < 7) :
    fbodyPre m c t ⊢ wp frame (wpE (defs₀ (F := F)) Variants.none c none) Set.univ (bodyAt0 t) (fun _ => fbodyPost m c t) := by
  have hN : t.val < 16 := lt_of_lt_of_eq t.isLt N16
  unfold fbodyPre fbodyPost bodyAt0
  simp only [fbefore2, fbefore3]
  rw [show (fdats m 0 c).Φ t.succ = Pipeline.ΦA spec0 c from rfl,
    show (fdats m 0 c).Φ t.castSucc = Pipeline.ΦA spec0 c from rfl,
    show (fdats m 0 c).owesAt () t.succ = (fdats m 0 c).owesAt () t.castSucc from rfl]
  rw [show (fdats m 0 c).leavesExact 2 t = owns (c : Thread nD τ) (ms2 t) fullShare ((fdats m 0 c).after 2 t) from by
    unfold Dat.leavesExact; rw [live2 t], fafter2]
  rw [show (fdats m 0 c).leavesExact 3 t = owns (c : Thread nD τ) (ms3 t) fullShare ((fdats m 0 c).after 3 t) from by
    unfold Dat.leavesExact; rw [live3 t], fafter3]
  rw [PhiA0_eq]
  iintro ⟨⟨⟨⟨%dS, HS⟩, ⟨%dG, HG⟩, ⟨%dA, HA⟩⟩, Hg⟩, Ho, ⟨%d0, H0⟩, ⟨%d1, H1⟩, ⟨%d2, H2⟩, ⟨%d3, H3⟩, ⟨%d4, H4⟩⟩
  iapply ((runFull c (grid0.coords t) _ _ _ _ _ _ _ _ _ _ _ _ _ _ _ _ (fun h => hz ((hcondZero t).mp h)) ((hcondFull t).mpr hf)
    (fun h => by have := (hcondLast t).mp h; omega) (fun h => by have := (hcondEmit t).mp h; omega) d0 d1 dS).2 _ _ _ _ _ Set.univ _)
  isplitl [H0]; · iexact H0
  isplitl [H1]; · iexact H1
  isplitl [H2]; · iexact H2
  isplitl [H3]; · iexact H3
  isplitl [H4]; · iexact H4
  isplitl [HS]; · iexact HS
  isplitl [HG]; · iexact HG
  isplitl [HA]; · iexact HA
  iintro ⟨H0, H1, H2, H3, H4, ⟨%f7, HS⟩, HG, HA⟩
  isplitl [HS HG HA Hg]
  · isplitl [HS HG HA]
    · isplitl [HS]
      · iexists _; unfold owns; iexists _; isplitr; swap
        · iexact HS
        · ipureintro; rfl
      isplitl [HG]; · iexists _; iexact HG
      iexists _; iexact HA
    iexact Hg
  isplitl [Ho]; · iexact Ho
  isplitl [H0]; · iexists _; iexact H0
  isplitl [H1]; · iexists _; iexact H1
  isplitl [H2]; · iexact H2
  isplitl [H3]; · iexact H3
  iexists _; iexact H4

set_option maxHeartbeats 2000000 in
theorem fsound_last (c : Dev nD) (t : Fin cfg0.N) (hl : t.val = 7) :
    fbodyPre m c t ⊢ wp frame (wpE (defs₀ (F := F)) Variants.none c none) Set.univ (bodyAt0 t) (fun _ => fbodyPost m c t) := by
  have hN : t.val < 16 := lt_of_lt_of_eq t.isLt N16
  unfold fbodyPre fbodyPost bodyAt0
  simp only [fbefore2, fbefore3]
  rw [show (fdats m 0 c).Φ t.succ = Pipeline.ΦA spec0 c from rfl,
    show (fdats m 0 c).Φ t.castSucc = Pipeline.ΦA spec0 c from rfl,
    show (fdats m 0 c).owesAt () t.succ = (fdats m 0 c).owesAt () t.castSucc from rfl]
  rw [show (fdats m 0 c).leavesExact 2 t = owns (c : Thread nD τ) (ms2 t) fullShare ((fdats m 0 c).after 2 t) from by
    unfold Dat.leavesExact; rw [live2 t], fafter2]
  rw [show (fdats m 0 c).leavesExact 3 t = owns (c : Thread nD τ) (ms3 t) fullShare ((fdats m 0 c).after 3 t) from by
    unfold Dat.leavesExact; rw [live3 t], fafter3]
  rw [PhiA0_eq]
  iintro ⟨⟨⟨⟨%dS, HS⟩, ⟨%dG, HG⟩, ⟨%dA, HA⟩⟩, Hg⟩, Ho, ⟨%d0, H0⟩, ⟨%d1, H1⟩, ⟨%d2, H2⟩, ⟨%d3, H3⟩, ⟨%d4, H4⟩⟩
  iapply ((runLast c (grid0.coords t) _ _ _ _ _ _ _ _ _ _ _ _ _ _ _ _ (fun h => by have := (hcondZero t).mp h; omega) (fun h => by have := (hcondFull t).mp h; omega)
    ((hcondLast t).mpr hl) (fun h => by have := (hcondEmit t).mp h; omega) d0 d1 (iblk m c 2 t) (iblk m c 3 t) dS).2.2 _ Set.univ _)
  isplitl [H0]; · iexact H0
  isplitl [H1]; · iexact H1
  isplitl [H2]; · iexact H2
  isplitl [H3]; · iexact H3
  isplitl [H4]; · iexact H4
  isplitl [HS]; · iexact HS
  isplitl [HG]; · iexists _; iexact HG
  isplitl [HA]; · iexists _; iexact HA
  iintro ⟨H0, H1, H2, H3, H4, HS, ⟨%f8, HG⟩, ⟨%f9, HA⟩⟩
  isplitl [HS HG HA Hg]
  · isplitl [HS HG HA]
    · isplitl [HS]; · iexists _; iexact HS
      isplitl [HG]
      · iexists _; unfold owns; iexists _; isplitr; swap
        · iexact HG
        · ipureintro; rfl
      iexists _; unfold owns; iexists _; isplitr; swap
      · iexact HA
      · ipureintro; rfl
    iexact Hg
  isplitl [Ho]; · iexact Ho
  isplitl [H0]; · iexists _; iexact H0
  isplitl [H1]; · iexists _; iexact H1
  isplitl [H2]; · iexact H2
  isplitl [H3]; · iexact H3
  iexists _; iexact H4

set_option maxHeartbeats 2000000 in
theorem fsound_emit (c : Dev nD) (t : Fin cfg0.N) (he : 8 ≤ t.val) :
    fbodyPre m c t ⊢ wp frame (wpE (defs₀ (F := F)) Variants.none c none) Set.univ (bodyAt0 t) (fun _ => fbodyPost m c t) := by
  have hN : t.val < 16 := lt_of_lt_of_eq t.isLt N16
  unfold fbodyPre fbodyPost bodyAt0
  simp only [fbefore2, fbefore3]
  rw [show (fdats m 0 c).Φ t.succ = Pipeline.ΦA spec0 c from rfl,
    show (fdats m 0 c).Φ t.castSucc = Pipeline.ΦA spec0 c from rfl,
    show (fdats m 0 c).owesAt () t.succ = (fdats m 0 c).owesAt () t.castSucc from rfl]
  rw [show (fdats m 0 c).leavesExact 2 t = owns (c : Thread nD τ) (ms2 t) fullShare ((fdats m 0 c).after 2 t) from by
    unfold Dat.leavesExact; rw [live2 t], fafter2]
  rw [show (fdats m 0 c).leavesExact 3 t = owns (c : Thread nD τ) (ms3 t) fullShare ((fdats m 0 c).after 3 t) from by
    unfold Dat.leavesExact; rw [live3 t], fafter3]
  rw [PhiA0_eq]
  iintro ⟨⟨⟨⟨%dS, HS⟩, ⟨%dG, HG⟩, ⟨%dA, HA⟩⟩, Hg⟩, Ho, ⟨%d0, H0⟩, ⟨%d1, H1⟩, ⟨%d2, H2⟩, ⟨%d3, H3⟩, ⟨%d4, H4⟩⟩
  iapply ((runEmit c (grid0.coords t) _ _ _ _ _ _ _ _ _ _ _ _ _ _ _ _ (fun h => by have := (hcondZero t).mp h; omega) (fun h => by have := (hcondFull t).mp h; omega)
    (fun h => by have := (hcondLast t).mp h; omega) ((hcondEmit t).mpr he) d0 d1 dG dA).2 _ _ _ Set.univ _)
  isplitl [H0]; · iexact H0
  isplitl [H1]; · iexact H1
  isplitl [H2]; · iexact H2
  isplitl [H3]; · iexact H3
  isplitl [H4]; · iexists _; iexact H4
  isplitl [HS]; · iexact HS
  isplitl [HG]; · iexact HG
  isplitl [HA]; · iexact HA
  iintro ⟨H0, H1, H2, H3, ⟨%f6, H4⟩, HS, HG, HA⟩
  isplitl [HS HG HA Hg]
  · isplitl [HS HG HA]
    · isplitl [HS]; · iexists _; iexact HS
      isplitl [HG]; · iexists _; iexact HG
      iexists _; iexact HA
    iexact Hg
  isplitl [Ho]; · iexact Ho
  isplitl [H0]; · iexists _; iexact H0
  isplitl [H1]; · iexists _; iexact H1
  isplitl [H2]; · iexact H2
  isplitl [H3]; · iexact H3
  iexists _; unfold owns; iexists _; isplitr; swap
  · iexact H4
  · ipureintro; rfl

theorem fsound_body (c : Dev nD) (t : Fin cfg0.N) :
    fbodyPre m c t ⊢ wp frame (wpE (defs₀ (F := F)) Variants.none c none) Set.univ (bodyAt0 t) (fun _ => fbodyPost m c t) := by
  by_cases hz : t.val = 0
  · exact fsound_first m c t hz
  by_cases hf : t.val < 7
  · exact fsound_full m c t hz hf
  by_cases hl : t.val = 7
  · exact fsound_last m c t hl
  · exact fsound_emit m c t (by omega)

/-- The library's body obligation, at every point, the streamed windows and the result's forgotten. -/
theorem fbody_obligation (c : Dev nD) : BodyObligation (fdats (F := F) m 0 c) (defs₀ (F := F)) Variants.none () Set.univ forgets := fun t => by
  rw [bigSep_W0, bigSep_W0]
  exact fsound_body m c t

set_option backward.isDefEq.respectTransparency.types false in
theorem frun_main : θ_run defs (onTc (τ := τ) (main (F := F))) (s₀ m ρ) (Pipeline.RDat.FramePost (cfgs 0) (fun c => (fdats m 0 c).toRForget forgets) (V m)) :=
  Pipeline.RDat.θ_run_frame cfgs (0 : Fin 1) launch0 defs₀ Variants.none (fun c => (fdats m 0 c).toRForget forgets) m ρ main
    (hbody := fun c => (fbody_obligation m c).toRForget) (hshare := fun c => ((fdats m 0 c).toRForget forgets).share_full fun _ => rfl)
    (howed := fun _ _ => rfl) (V := V m) (hmain := hmain m Variants.none) (hA := fA_eq m) (hΦ := fun _ _ => rfl)

/-- The frame: x and W (staged inputs, never written back) and U and V (which no window stages) end as they began. -/
theorem hand_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((fdats m 0 c).toRForget forgets).ArrAt_in 0 rfl _) _) ((h c).1 0)).trans ((fA_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Eq.mp (congrFun (((fdats m 0 c).toRForget forgets).ArrAt_in 3 rfl _) _) ((h c).1 3)).trans ((fA_eq m c 3).trans (V_main_arg3 m c))⟩)
    (frun_main m ρ)

end Cert.KernelIdeal.Gen

end
-- ==== Proof.IdealPieces.lean ====
/-
  What the body's stores leave, read back, in each control case: the accumulator after the first point is the
  first tile's product added to the zero fill; after a middle point the tile's product added to what it held;
  at the last point of phase 0 the two small matrices are the payloads of the accumulator's contents plus the
  partial tile's product, of the eigenvalue column and of W; in phase 1 the result's buffer holds the payload of
  the two tiles and the two small matrices. Each store is of a whole buffer, so the last store alone decides.
-/
import proofs.«120780_g1580547974323_cont_week2b_927_17_alg».proof.Proof.IdealRunEmit
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section
variable (c : Dev nD) (i : grid0.Coords) (arg2 : Memref sig .tc .vmem S12800x128 .f32) (harg2 : arg2.IsWhole) (arg3 : Memref sig .tc .vmem S64x12800 .f32) (harg3 : arg3.IsWhole) (arg4 : Memref sig .tc .vmem S64x1 .f32) (harg4 : arg4.IsWhole) (arg5 : Memref sig .tc .vmem S128x128 .f32) (harg5 : arg5.IsWhole) (arg6 : Memref sig .tc .vmem S12800x128 .f32) (harg6 : arg6.IsWhole) (arg7 : Memref sig .tc .vmem S64x128 .f32) (harg7 : arg7.IsWhole) (arg8 : Memref sig .tc .vmem S64x128 .bf16) (harg8 : arg8.IsWhole) (arg9 : Memref sig .tc .vmem S128x128 .bf16) (harg9 : arg9.IsWhole)

theorem full_cover (hZ : ¬condZero i) (hF : condFull i) (hL : ¬condLast i) (hE : ¬condEmit i)
    (x0 : Vec F S12800x128 .f32) (x1 : Vec F S64x12800 .f32) (xS : Vec F S64x128 .f32) (y : S64x128.Idx) :
    ∃ pc ∈ (runFull c i arg2 harg2 arg3 harg3 arg4 harg4 arg5 harg5 arg6 harg6 arg7 harg7 arg8 harg8 arg9 harg9 hZ hF hL hE x0 x1 xS).1, y ∈ pc.1.set :=
  View.cover_of_tiledL (runFull c i arg2 harg2 arg3 harg3 arg4 harg4 arg5 harg5 arg6 harg6 arg7 harg7 arg8 harg8 arg9 harg9 hZ hF hL hE x0 x1 xS).1 S64x128.size (by sl_kernel_rfl) y

theorem full_reads (hZ : ¬condZero i) (hF : condFull i) (hL : ¬condLast i) (hE : ¬condEmit i)
    (x0 : Vec F S12800x128 .f32) (x1 : Vec F S64x12800 .f32) (xS : Vec F S64x128 .f32) (f : arg7.view.ty.Contents (Elt F)) :
    arg7.view.read (Elt F) (arg7.view.writes (Elt F) f (runFull c i arg2 harg2 arg3 harg3 arg4 harg4 arg5 harg5 arg6 harg6 arg7 harg7 arg8 harg8 arg9 harg9 hZ hF hL hE x0 x1 xS).1) = k0_pay2 xS x1 x0 := by
  rw [View.read_writes_eq_canon _ _ _ (full_cover c i arg2 harg2 arg3 harg3 arg4 harg4 arg5 harg5 arg6 harg6 arg7 harg7 arg8 harg8 arg9 harg9 hZ hF hL hE x0 x1 xS)]
  unfold runFull; dsimp only
  rw [View.canon_unit_zero hz2]
  simp only [View.readAt_eq_ld, harg7.read_unread, harg3.read_unread, harg2.read_unread, View.ld_unit_zero (S := S64x128) hz2, View.ld_unit_zero (S := S64x12800) hz2, View.ld_unit_zero (S := S12800x128) hz2]

theorem emit_cover (hZ : ¬condZero i) (hF : ¬condFull i) (hL : ¬condLast i) (hE : condEmit i)
    (x0 : Vec F S12800x128 .f32) (x1 : Vec F S64x12800 .f32) (xG : Vec F S64x128 .bf16) (xA : Vec F S128x128 .bf16) (y : S12800x128.Idx) :
    ∃ pc ∈ (runEmit c i arg2 harg2 arg3 harg3 arg4 harg4 arg5 harg5 arg6 harg6 arg7 harg7 arg8 harg8 arg9 harg9 hZ hF hL hE x0 x1 xG xA).1, y ∈ pc.1.set :=
  View.cover_of_tiledL (runEmit c i arg2 harg2 arg3 harg3 arg4 harg4 arg5 harg5 arg6 harg6 arg7 harg7 arg8 harg8 arg9 harg9 hZ hF hL hE x0 x1 xG xA).1 S12800x128.size (by sl_kernel_rfl) y

theorem emit_reads (hZ : ¬condZero i) (hF : ¬condFull i) (hL : ¬condLast i) (hE : condEmit i)
    (x0 : Vec F S12800x128 .f32) (x1 : Vec F S64x12800 .f32) (xG : Vec F S64x128 .bf16) (xA : Vec F S128x128 .bf16) (f : arg6.view.ty.Contents (Elt F)) :
    arg6.view.read (Elt F) (arg6.view.writes (Elt F) f (runEmit c i arg2 harg2 arg3 harg3 arg4 harg4 arg5 harg5 arg6 harg6 arg7 harg7 arg8 harg8 arg9 harg9 hZ hF hL hE x0 x1 xG xA).1) = k0_pay5 x1 xG x0 xA := by
  rw [View.read_writes_eq_canon _ _ _ (emit_cover c i arg2 harg2 arg3 harg3 arg4 harg4 arg5 harg5 arg6 harg6 arg7 harg7 arg8 harg8 arg9 harg9 hZ hF hL hE x0 x1 xG xA)]
  unfold runEmit; dsimp only
  rw [View.canon_unit_zero hz2]
  simp only [View.readAt_eq_ld, harg8.read_unread, harg9.read_unread, harg3.read_unread, harg2.read_unread, View.ld_unit_zero (S := S64x128) hz2, View.ld_unit_zero (S := S128x128) hz2, View.ld_unit_zero (S := S64x12800) hz2, View.ld_unit_zero (S := S12800x128) hz2]

theorem first_cover (hZ : condZero i) (hF : condFull i) (hL : ¬condLast i) (hE : ¬condEmit i)
    (x0 : Vec F S12800x128 .f32) (x1 : Vec F S64x12800 .f32) (y : S64x128.Idx) :
    ∃ pc ∈ (runFirst c i arg2 harg2 arg3 harg3 arg4 harg4 arg5 harg5 arg6 harg6 arg7 harg7 arg8 harg8 arg9 harg9 hZ hF hL hE x0 x1).1, y ∈ pc.1.set :=
  View.cover_of_tiledL (runFirst c i arg2 harg2 arg3 harg3 arg4 harg4 arg5 harg5 arg6 harg6 arg7 harg7 arg8 harg8 arg9 harg9 hZ hF hL hE x0 x1).1 S64x128.size (by sl_kernel_rfl) y

theorem first_reads (hZ : condZero i) (hF : condFull i) (hL : ¬condLast i) (hE : ¬condEmit i)
    (x0 : Vec F S12800x128 .f32) (x1 : Vec F S64x12800 .f32) (f : arg7.view.ty.Contents (Elt F)) :
    arg7.view.read (Elt F) (arg7.view.writes (Elt F) f (runFirst c i arg2 harg2 arg3 harg3 arg4 harg4 arg5 harg5 arg6 harg6 arg7 harg7 arg8 harg8 arg9 harg9 hZ hF hL hE x0 x1).1) = k0_pay2 (k0_pay1 (F := F)) x1 x0 := by
  rw [View.read_writes_eq_canon _ _ _ (first_cover c i arg2 harg2 arg3 harg3 arg4 harg4 arg5 harg5 arg6 harg6 arg7 harg7 arg8 harg8 arg9 harg9 hZ hF hL hE x0 x1)]
  unfold runFirst; dsimp only
  sl_unfold_words
  rw [View.canon_cons_unit_zero hz2, View.readCov_unit_zero _ hz2]
  simp only [View.readAt_eq_ld, harg3.read_unread, harg2.read_unread, View.ld_unit_zero (S := S64x12800) hz2, View.ld_unit_zero (S := S12800x128) hz2]

theorem lastG_cover (hZ : ¬condZero i) (hF : ¬condFull i) (hL : condLast i) (hE : ¬condEmit i)
    (x0 : Vec F S12800x128 .f32) (x1 : Vec F S64x12800 .f32) (x2 : Vec F S64x1 .f32) (x3 : Vec F S128x128 .f32) (xS : Vec F S64x128 .f32) (y : S64x128.Idx) :
    ∃ pc ∈ (runLast c i arg2 harg2 arg3 harg3 arg4 harg4 arg5 harg5 arg6 harg6 arg7 harg7 arg8 harg8 arg9 harg9 hZ hF hL hE x0 x1 x2 x3 xS).1, y ∈ pc.1.set :=
  View.cover_of_tiledL (runLast c i arg2 harg2 arg3 harg3 arg4 harg4 arg5 harg5 arg6 harg6 arg7 harg7 arg8 harg8 arg9 harg9 hZ hF hL hE x0 x1 x2 x3 xS).1 S64x128.size (by sl_kernel_rfl) y

theorem lastA_cover (hZ : ¬condZero i) (hF : ¬condFull i) (hL : condLast i) (hE : ¬condEmit i)
    (x0 : Vec F S12800x128 .f32) (x1 : Vec F S64x12800 .f32) (x2 : Vec F S64x1 .f32) (x3 : Vec F S128x128 .f32) (xS : Vec F S64x128 .f32) (y : S128x128.Idx) :
    ∃ pc ∈ (runLast c i arg2 harg2 arg3 harg3 arg4 harg4 arg5 harg5 arg6 harg6 arg7 harg7 arg8 harg8 arg9 harg9 hZ hF hL hE x0 x1 x2 x3 xS).2.1, y ∈ pc.1.set :=
  View.cover_of_tiledL (runLast c i arg2 harg2 arg3 harg3 arg4 harg4 arg5 harg5 arg6 harg6 arg7 harg7 arg8 harg8 arg9 harg9 hZ hF hL hE x0 x1 x2 x3 xS).2.1 S128x128.size (by sl_kernel_rfl) y

theorem lastA_reads (hZ : ¬condZero i) (hF : ¬condFull i) (hL : condLast i) (hE : ¬condEmit i)
    (x0 : Vec F S12800x128 .f32) (x1 : Vec F S64x12800 .f32) (x2 : Vec F S64x1 .f32) (x3 : Vec F S128x128 .f32) (xS : Vec F S64x128 .f32) (f : arg9.view.ty.Contents (Elt F)) :
    arg9.view.read (Elt F) (arg9.view.writes (Elt F) f (runLast c i arg2 harg2 arg3 harg3 arg4 harg4 arg5 harg5 arg6 harg6 arg7 harg7 arg8 harg8 arg9 harg9 hZ hF hL hE x0 x1 x2 x3 xS).2.1) = k0_pay4 x3 := by
  rw [View.read_writes_eq_canon _ _ _ (lastA_cover c i arg2 harg2 arg3 harg3 arg4 harg4 arg5 harg5 arg6 harg6 arg7 harg7 arg8 harg8 arg9 harg9 hZ hF hL hE x0 x1 x2 x3 xS)]
  unfold runLast; dsimp only
  rw [View.canon_unit_zero hz2]
  simp only [View.readAt_eq_ld, harg5.read_unread, View.ld_unit_zero (S := S128x128) hz2]

theorem lastG_reads (hZ : ¬condZero i) (hF : ¬condFull i) (hL : condLast i) (hE : ¬condEmit i)
    (x0 : Vec F S12800x128 .f32) (x1 : Vec F S64x12800 .f32) (x2 : Vec F S64x1 .f32) (x3 : Vec F S128x128 .f32) (xS : Vec F S64x128 .f32) (f : arg8.view.ty.Contents (Elt F)) :
    arg8.view.read (Elt F) (arg8.view.writes (Elt F) f (runLast c i arg2 harg2 arg3 harg3 arg4 harg4 arg5 harg5 arg6 harg6 arg7 harg7 arg8 harg8 arg9 harg9 hZ hF hL hE x0 x1 x2 x3 xS).1)
      = k0_pay3 (k0_pay6 xS (View.ld x1 (Rect.unit (s := S64x12800) ![0, 0] S64x10400.size inb_S64x12800_S64x10400_0_0))
          (View.ld x0 (Rect.unit (s := S12800x128) ![0, 0] S10400x128.size inb_S12800x128_S10400x128_0_0)))
        (k0_pay7 x2) (k0_pay15 x2) (k0_pay16 x2) (Scalar.ofBits .f32 0x3F666666#32) x3 := by
  rw [View.read_writes_eq_canon _ _ _ (lastG_cover c i arg2 harg2 arg3 harg3 arg4 harg4 arg5 harg5 arg6 harg6 arg7 harg7 arg8 harg8 arg9 harg9 hZ hF hL hE x0 x1 x2 x3 xS)]
  unfold runLast; dsimp only
  sl_unfold_words
  rw [View.canon_unit_zero hz2]
  simp only [View.readAt_eq_ld, harg5.read_unread, harg7.read_unread, harg4.read_unread, harg3.read_unread, harg2.read_unread, View.ld_unit_zero (S := S128x128) hz2, View.ld_unit_zero (S := S64x128) hz2, View.ld_unit_zero (S := S64x1) hz2]

end

end Cert.KernelIdeal.Gen

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.LibTransposedProduct.lean ====
/-
  A matrix product with the right factor transposed, read at one entry.

  For matrices `A : [M, K]` and `B : [N, K]` the contraction of the LAST axis of both — `A · Bᵀ`, the einsum
  `mk,nk->mn` — has entry `(i, j)` equal to `∑ k < K, A (i, k) * B (j, k)`.  At the ideal instance both the matrix
  unit's product into a zero accumulator and the host's `dot_general` are that sum, for ANY record of dimension
  numbers whose six axis lists are those of `A · Bᵀ` (contracting `[1]` and `[1]`, free `[0]` and `[0]`, no batch
  axis), at any extents `M`, `K`, `N` and any two float formats of the factors; `abt A B` names the whole product as
  one array, which both operations are.
-/
import Idealize.ShloMosaic.Lib.ValueIdx
import Idealize.ShloMosaic.PureOps.Ideal.Laws

noncomputable section

namespace Idealize.ShloMosaic.TransposedProduct

open Idealize.ShloMosaic Idealize.ShloMosaic.ValueIdx

variable {M K N : Nat}

/-- The axis lists of `A · Bᵀ`: both factors contracted on their last axis, their first axes free, no batch axis. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![M, K]⟩ ⟨2, ![N, K]⟩ ⟨2, ![M, N]⟩}

/-- The contracted shape has one axis … -/
theorem IsABt.rank_contr (h : IsABt d) : d.contr.rank = 1 := by
  rw [d.rank_contr, h.lc]; rfl

/-- … of extent `K`. -/
theorem IsABt.size_contr (h : IsABt d) : d.contr.size ⟨0, by rw [h.rank_contr]; exact Nat.one_pos⟩ = K := by
  have e := d.size_contr 0 (by rw [h.lc]; exact Nat.one_pos)
  rw [e]
  have : d.lhsContracting[0]'(by rw [h.lc]; exact Nat.one_pos) = (1 : Fin 2) := by
    simp [h.lc]
  rw [this]; rfl

/-- The left factor is read at row `i` of the entry … -/
theorem IsABt.lhs_row (h : IsABt d) (j : (⟨2, ![M, N]⟩ : Shape).Idx) (q : d.contr.Idx) :
    (d.lhsIdx j q 0).val = (j 0).val := by
  obtain ⟨lc, rc, ln, rn, lb, rb, wf⟩ := d
  obtain ⟨h1, h2, h3, h4, h5, h6⟩ := h
  simp only at h1 h2 h3 h4 h5 h6
  subst h1 h2 h3 h4 h5 h6
  unfold DotDims.lhsIdx
  rw [dif_neg List.not_mem_nil, dif_pos (List.mem_singleton.mpr rfl)]
  rfl

/-- … and at the contraction's position along its columns. -/
theorem IsABt.lhs_col (h : IsABt d) (j : (⟨2, ![M, N]⟩ : Shape).Idx) (q : d.contr.Idx) :
    (d.lhsIdx j q 1).val = (q ⟨0, by rw [h.rank_contr]; exact Nat.one_pos⟩).val :=
  d.lhsIdx_val_of_single h.lc j q

/-- The right factor is read at the row the entry's COLUMN names … -/
theorem IsABt.rhs_row (h : IsABt d) (j : (⟨2, ![M, N]⟩ : Shape).Idx) (q : d.contr.Idx) :
    (d.rhsIdx j q 0).val = (j 1).val := by
  obtain ⟨lc, rc, ln, rn, lb, rb, wf⟩ := d
  obtain ⟨h1, h2, h3, h4, h5, h6⟩ := h
  simp only at h1 h2 h3 h4 h5 h6
  subst h1 h2 h3 h4 h5 h6
  unfold DotDims.rhsIdx
  rw [dif_neg List.not_mem_nil, dif_pos (List.mem_singleton.mpr rfl)]
  rfl

/-- … and at the contraction's position along its columns. -/
theorem IsABt.rhs_col (h : IsABt d) (j : (⟨2, ![M, N]⟩ : Shape).Idx) (q : d.contr.Idx) :
    (d.rhsIdx j q 1).val = (q ⟨0, by rw [h.rank_contr]; exact Nat.one_pos⟩).val :=
  d.rhsIdx_val_of_single h.rc j q

/-- The contraction's sum over its one axis is the sum over `k < K` of the products of row `i` of `A` with row `j`
    of `B`. -/
theorem IsABt.sum_contr {φ₁ φ₂ : FTy} (h : IsABt d) (A : FVec Ideal ⟨2, ![M, K]⟩ φ₁) (B : FVec Ideal ⟨2, ![N, K]⟩ φ₂)
    (i : Fin M) (j : Fin N) :
    (∑ q : d.contr.Idx, A (d.lhsIdx (ix2 i j) q) * B (d.rhsIdx (ix2 i j) q) : EReal)
      = ∑ k : Fin K, A (ix2 i k) * B (ix2 j k) := by
  rw [← Equiv.sum_comp (contrEquiv1 d K h.rank_contr h.size_contr).symm]
  refine Finset.sum_congr rfl fun k _ => ?_
  have hk := contrEquiv1_symm_val d K h.rank_contr h.size_contr k
  have el : d.lhsIdx (ix2 i j) ((contrEquiv1 d K h.rank_contr h.size_contr).symm k) = ix2 i k :=
    funext fun a => Fin.ext (by
      match a with
      | ⟨0, _⟩ => exact h.lhs_row _ _
      | ⟨1, _⟩ => exact (h.lhs_col _ _).trans hk)
  have er : d.rhsIdx (ix2 i j) ((contrEquiv1 d K h.rank_contr h.size_contr).symm k) = ix2 j k :=
    funext fun a => Fin.ext (by
      match a with
      | ⟨0, _⟩ => exact h.rhs_row _ _
      | ⟨1, _⟩ => exact (h.rhs_col _ _).trans hk)
  rw [el, er]

/-- THE MATRIX UNIT's product into the zero accumulator, at entry `(i, j)`. -/
theorem matmul_zero_apply {φ₁ φ₂ : FTy} (h : IsABt d) (prec : Option ContractPrecision)
    (A : FVec Ideal ⟨2, ![M, K]⟩ φ₁) (B : FVec Ideal ⟨2, ![N, K]⟩ φ₂) (i : Fin M) (j : Fin N) :
    matmul d prec A B (constant (F := Ideal) ⟨2, ![M, N]⟩ .f32 0x00000000#32) (ix2 i j)
      = ∑ k : Fin K, A (ix2 i k) * B (ix2 j k) :=
  (Ideal.matmul_constant_zero_apply d prec A B (ix2 i j)).trans (h.sum_contr A B i j)

/-- THE HOST's `dot_general`, at entry `(i, j)`. -/
theorem dotGeneral_apply {φ₁ φ₂ : FTy} (h : IsABt d) (prec : Option ContractPrecision)
    (A : FVec Ideal ⟨2, ![M, K]⟩ φ₁) (B : FVec Ideal ⟨2, ![N, K]⟩ φ₂) (i : Fin M) (j : Fin N) :
    Host.dotGeneral d prec A B (ix2 i j) = ∑ k : Fin K, A (ix2 i k) * B (ix2 j k) := by
  simp only [Host.dotGeneral]
  exact (Ideal.dotGeneral_apply d prec _ A B (ix2 i j)).trans (h.sum_contr A B i j)

/-! ## The whole product as one array -/

/-- `A · Bᵀ` as a function of the two matrices: entry `(i, j)` is `∑ k < K, A (i, k) * B (j, k)`. -/
def abt (A : (⟨2, ![M, K]⟩ : Shape).Idx → EReal) (B : (⟨2, ![N, K]⟩ : Shape).Idx → EReal) :
    (⟨2, ![M, N]⟩ : Shape).Idx → EReal :=
  fun j => ∑ k : Fin K, A (ix2 (j 0) k) * B (ix2 (j 1) k)

theorem abt_apply (A : (⟨2, ![M, K]⟩ : Shape).Idx → EReal) (B : (⟨2, ![N, K]⟩ : Shape).Idx → EReal) (i : Fin M) (j : Fin N) :
    abt A B (ix2 i j) = ∑ k : Fin K, A (ix2 i k) * B (ix2 j k) := rfl

/-- The matrix unit's product into the zero accumulator IS that array … -/
theorem matmul_zero_eq_abt {φ₁ φ₂ : FTy} (h : IsABt d) (prec : Option ContractPrecision)
    (A : FVec Ideal ⟨2, ![M, K]⟩ φ₁) (B : FVec Ideal ⟨2, ![N, K]⟩ φ₂) :
    matmul d prec A B (constant (F := Ideal) ⟨2, ![M, N]⟩ .f32 0x00000000#32) = abt A B := by
  funext j
  obtain ⟨p, q, rfl⟩ : ∃ (p : Fin M) (q : Fin N), j = ix2 p q := ⟨j 0, j 1, eq_ix2 j⟩
  exact matmul_zero_apply h prec A B p q

/-- … and so is the host's `dot_general`. -/
theorem dotGeneral_eq_abt {φ₁ φ₂ : FTy} (h : IsABt d) (prec : Option ContractPrecision)
    (A : FVec Ideal ⟨2, ![M, K]⟩ φ₁) (B : FVec Ideal ⟨2, ![N, K]⟩ φ₂) :
    Host.dotGeneral d prec A B = abt A B := by
  funext j
  obtain ⟨p, q, rfl⟩ : ∃ (p : Fin M) (q : Fin N), j = ix2 p q := ⟨j 0, j 1, eq_ix2 j⟩
  exact dotGeneral_apply h prec A B p q

end Idealize.ShloMosaic.TransposedProduct

end
-- ==== Proof.LibGramProduct.lean ====
/-
  A matrix product with the LEFT factor transposed, read at one entry.

  For matrices A : [K, M] and B : [K, N] the contraction of the FIRST axis of both — Aᵀ · B, the einsum km,kn->mn —
  has entry (i, j) equal to the sum over k < K of A (k, i) * B (k, j).  On the extended reals the matrix unit's product
  into a zero accumulator is that sum, for any record of dimension numbers whose six axis lists are those of Aᵀ · B
  (contracting [0] and [0], free [1] and [1], no batch axis), at any extents and any two float formats of the factors.
-/
import Idealize.ShloMosaic.Lib.ValueIdx
import Idealize.ShloMosaic.PureOps.Ideal.Laws

noncomputable section

namespace Cert.Lib.GramProduct

open Idealize.ShloMosaic Idealize.ShloMosaic.ValueIdx

variable {M K N : Nat}

/-- The axis lists of Aᵀ · B: both factors contracted on their first axis, their last axes free, no batch axis. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

variable {d : DotDims ⟨2, ![K, M]⟩ ⟨2, ![K, N]⟩ ⟨2, ![M, N]⟩}

/-- The contracted shape has one axis … -/
theorem IsAtB.rank_contr (h : IsAtB d) : d.contr.rank = 1 := by
  rw [d.rank_contr, h.lc]; rfl

/-- … of extent K. -/
theorem IsAtB.size_contr (h : IsAtB d) : d.contr.size ⟨0, by rw [h.rank_contr]; exact Nat.one_pos⟩ = K := by
  have e := d.size_contr 0 (by rw [h.lc]; exact Nat.one_pos)
  rw [e]
  have : d.lhsContracting[0]'(by rw [h.lc]; exact Nat.one_pos) = (0 : Fin 2) := by
    simp [h.lc]
  rw [this]; rfl

/-- The left factor is read at the column the entry's ROW names … -/
theorem IsAtB.lhs_free (h : IsAtB d) (j : (⟨2, ![M, N]⟩ : Shape).Idx) (q : d.contr.Idx) :
    (d.lhsIdx j q 1).val = (j 0).val := by
  obtain ⟨lc, rc, ln, rn, lb, rb, wf⟩ := d
  obtain ⟨h1, h2, h3, h4, h5, h6⟩ := h
  simp only at h1 h2 h3 h4 h5 h6
  subst h1 h2 h3 h4 h5 h6
  unfold DotDims.lhsIdx
  rw [dif_neg List.not_mem_nil, dif_pos (List.mem_singleton.mpr rfl)]
  rfl

/-- … and at the contraction's position down its rows. -/
theorem IsAtB.lhs_contr (h : IsAtB d) (j : (⟨2, ![M, N]⟩ : Shape).Idx) (q : d.contr.Idx) :
    (d.lhsIdx j q 0).val = (q ⟨0, by rw [h.rank_contr]; exact Nat.one_pos⟩).val :=
  d.lhsIdx_val_of_single h.lc j q

/-- The right factor is read at the entry's column … -/
theorem IsAtB.rhs_free (h : IsAtB d) (j : (⟨2, ![M, N]⟩ : Shape).Idx) (q : d.contr.Idx) :
    (d.rhsIdx j q 1).val = (j 1).val := by
  obtain ⟨lc, rc, ln, rn, lb, rb, wf⟩ := d
  obtain ⟨h1, h2, h3, h4, h5, h6⟩ := h
  simp only at h1 h2 h3 h4 h5 h6
  subst h1 h2 h3 h4 h5 h6
  unfold DotDims.rhsIdx
  rw [dif_neg List.not_mem_nil, dif_pos (List.mem_singleton.mpr rfl)]
  rfl

/-- … and at the contraction's position down its rows. -/
theorem IsAtB.rhs_contr (h : IsAtB d) (j : (⟨2, ![M, N]⟩ : Shape).Idx) (q : d.contr.Idx) :
    (d.rhsIdx j q 0).val = (q ⟨0, by rw [h.rank_contr]; exact Nat.one_pos⟩).val :=
  d.rhsIdx_val_of_single h.rc j q

/-- The contraction's sum over its one axis is the sum over k < K of the products of column i of A with column j
    of B. -/
theorem IsAtB.sum_contr {φ₁ φ₂ : FTy} (h : IsAtB d) (A : FVec Ideal ⟨2, ![K, M]⟩ φ₁) (B : FVec Ideal ⟨2, ![K, N]⟩ φ₂)
    (i : Fin M) (j : Fin N) :
    (∑ q : d.contr.Idx, A (d.lhsIdx (ix2 i j) q) * B (d.rhsIdx (ix2 i j) q) : EReal)
      = ∑ k : Fin K, A (ix2 k i) * B (ix2 k j) := by
  rw [← Equiv.sum_comp (contrEquiv1 d K h.rank_contr h.size_contr).symm]
  refine Finset.sum_congr rfl fun k _ => ?_
  have hk := contrEquiv1_symm_val d K h.rank_contr h.size_contr k
  have el : d.lhsIdx (ix2 i j) ((contrEquiv1 d K h.rank_contr h.size_contr).symm k) = ix2 k i :=
    funext fun a => Fin.ext (by
      match a with
      | ⟨0, _⟩ => exact (h.lhs_contr _ _).trans hk
      | ⟨1, _⟩ => exact h.lhs_free _ _)
  have er : d.rhsIdx (ix2 i j) ((contrEquiv1 d K h.rank_contr h.size_contr).symm k) = ix2 k j :=
    funext fun a => Fin.ext (by
      match a with
      | ⟨0, _⟩ => exact (h.rhs_contr _ _).trans hk
      | ⟨1, _⟩ => exact h.rhs_free _ _)
  rw [el, er]

/-- The matrix unit's product into the zero accumulator, at entry (i, j). -/
theorem matmul_zero_apply {φ₁ φ₂ : FTy} (h : IsAtB d) (prec : Option ContractPrecision)
    (A : FVec Ideal ⟨2, ![K, M]⟩ φ₁) (B : FVec Ideal ⟨2, ![K, N]⟩ φ₂) (i : Fin M) (j : Fin N) :
    matmul d prec A B (constant (F := Ideal) ⟨2, ![M, N]⟩ .f32 0x00000000#32) (ix2 i j)
      = ∑ k : Fin K, A (ix2 k i) * B (ix2 k j) :=
  (Ideal.matmul_constant_zero_apply d prec A B (ix2 i j)).trans (h.sum_contr A B i j)

end Cert.Lib.GramProduct

end
-- ==== Proof.LibFloatLiteral.lean ====
/-
  Float literals at the exact instance. A finite binary32 word (exponent field not all ones) denotes a real number,
  a dyadic rational; `lit w` names that real, so that arithmetic on such literals can be carried out in the reals.
  The words of 0 and of the integers 1, …, 9 denote those integers.
-/
import Idealize.ShloMosaic.PureOps.Ideal

noncomputable section

namespace Cert.Lib.FloatLiteral

open Idealize.ShloMosaic

/-- The real number a finite binary32 word denotes (the real part of what the word denotes on the extended reals). -/
def lit (w : BitVec 32) : ℝ := (Ideal.ofBits .f32 w).toReal

/-- A word whose exponent field is not all ones denotes a real: a subnormal ±T·2^(-149) or a normal
    ±(2^23 + T)·2^(E-150), never an infinity or a NaN. -/
theorem ofBits_eq_lit (w : BitVec 32) (h : (w.extractLsb' 23 8).toNat ≠ 255) :
    Ideal.ofBits .f32 w = ((lit w : ℝ) : EReal) := by
  have h' : ¬ (w.extractLsb' 23 8).toNat = 2 ^ 8 - 1 := by simpa using h
  unfold lit
  simp only [Ideal.ofBits, Ideal.ieee]
  rw [if_neg h']
  split_ifs <;> simp only [EReal.toReal_coe]

/-- The zero word denotes 0. -/
theorem lit_zero : lit 0x00000000#32 = 0 := by
  simp [lit, Ideal.ofBits, Ideal.ieee]

/-- The word of 1.0 denotes 1. -/
theorem lit_1 : lit 0x3F800000#32 = 1 := by
  simp [lit, Ideal.ofBits, Ideal.ieee, -EReal.coe_mul]; norm_num

/-- The word of 2.0 denotes 2. -/
theorem lit_2 : lit 0x40000000#32 = 2 := by
  simp [lit, Ideal.ofBits, Ideal.ieee, -EReal.coe_mul]; norm_num

/-- The word of 3.0 denotes 3. -/
theorem lit_3 : lit 0x40400000#32 = 3 := by
  simp [lit, Ideal.ofBits, Ideal.ieee, -EReal.coe_mul]; norm_num

/-- The word of 4.0 denotes 4. -/
theorem lit_4 : lit 0x40800000#32 = 4 := by
  simp [lit, Ideal.ofBits, Ideal.ieee, -EReal.coe_mul]; norm_num

/-- The word of 5.0 denotes 5. -/
theorem lit_5 : lit 0x40A00000#32 = 5 := by
  simp [lit, Ideal.ofBits, Ideal.ieee, -EReal.coe_mul]; norm_num

/-- The word of 6.0 denotes 6. -/
theorem lit_6 : lit 0x40C00000#32 = 6 := by
  simp [lit, Ideal.ofBits, Ideal.ieee, -EReal.coe_mul]; norm_num

/-- The word of 7.0 denotes 7. -/
theorem lit_7 : lit 0x40E00000#32 = 7 := by
  simp [lit, Ideal.ofBits, Ideal.ieee, -EReal.coe_mul]; norm_num

/-- The word of 8.0 denotes 8. -/
theorem lit_8 : lit 0x41000000#32 = 8 := by
  simp [lit, Ideal.ofBits, Ideal.ieee, -EReal.coe_mul]; norm_num

/-- The word of 9.0 denotes 9. -/
theorem lit_9 : lit 0x41100000#32 = 9 := by
  simp [lit, Ideal.ofBits, Ideal.ieee, -EReal.coe_mul]; norm_num

/-- The quotient of a real by a nonzero real literal, on the extended reals, is the real quotient. -/
theorem div_coe_coe (x y : ℝ) (hy : y ≠ 0) : Ideal.div (x : EReal) (y : EReal) = ((x / y : ℝ) : EReal) := by
  rw [Ideal.div_coe hy, ← EReal.coe_mul]; congr 1; ring

end Cert.Lib.FloatLiteral

end
-- ==== Proof.FilterPoly.lean ====
/-
  The eigenvalue filter both programs compute: p(v) = (sum_{j=1..10} c * v^j) / 10 with c the binary32 nearest 0.9,
  evaluated as the programs do: powers by repeated multiplication starting from 1 * v, the running sum starting
  from 0 + c * v, then one division by the binary32 word of 10. The words are kept as words: both sides carry the
  same ones. At a real eigenvalue the filter is a real number: every literal is finite and the divisor is not zero.
-/
import Idealize.ShloMosaic.PureOps.Ideal
import proofs.«120780_g1580547974323_cont_week2b_927_17_alg».proof.Proof.LibFloatLiteral

noncomputable section

namespace Cert.SpectralFilter

open Idealize.ShloMosaic Cert.Lib.FloatLiteral

abbrev wOne : EReal := Ideal.ofBits .f32 0x3F800000#32
abbrev wZero : EReal := Ideal.ofBits .f32 0x00000000#32
abbrev wC : EReal := Ideal.ofBits .f32 0x3F666666#32
abbrev wTen : EReal := Ideal.ofBits .f32 0x41200000#32
/-- The residual weight alpha, the binary32 nearest 0.1. -/
abbrev wAlpha : EReal := Ideal.ofBits .f32 0x3DCCCCCD#32

/-- v^(n+1), as the programs multiply it out. -/
def pw : ℕ → EReal → EReal
  | 0, v => wOne * v
  | n + 1, v => pw n v * v

/-- The running sum after n + 1 terms. -/
def ac : ℕ → EReal → EReal
  | 0, v => wZero + wC * pw 0 v
  | n + 1, v => ac n v + wC * pw (n + 1) v

/-- The filter. -/
def filt (v : EReal) : EReal := Ideal.div (ac 9 v) wTen

theorem wOne_real : wOne = ((lit 0x3F800000#32 : ℝ) : EReal) := ofBits_eq_lit _ (by decide)
theorem wZero_real : wZero = ((lit 0x00000000#32 : ℝ) : EReal) := ofBits_eq_lit _ (by decide)
theorem wC_real : wC = ((lit 0x3F666666#32 : ℝ) : EReal) := ofBits_eq_lit _ (by decide)
theorem wTen_real : wTen = ((lit 0x41200000#32 : ℝ) : EReal) := ofBits_eq_lit _ (by decide)
theorem wAlpha_real : wAlpha = ((lit 0x3DCCCCCD#32 : ℝ) : EReal) := ofBits_eq_lit _ (by decide)

/-- The word of 10.0 denotes 10. -/
theorem lit_ten : lit 0x41200000#32 = 10 := by
  simp [lit, Ideal.ofBits, Ideal.ieee, -EReal.coe_mul]; norm_num

theorem pw_real (n : ℕ) (r : ℝ) : ∃ q : ℝ, pw n (r : EReal) = (q : EReal) := by
  induction n with
  | zero => exact ⟨lit 0x3F800000#32 * r, by rw [pw, wOne_real, ← EReal.coe_mul]⟩
  | succ n ih => obtain ⟨q, hq⟩ := ih; exact ⟨q * r, by rw [pw, hq, ← EReal.coe_mul]⟩

theorem ac_real (n : ℕ) (r : ℝ) : ∃ q : ℝ, ac n (r : EReal) = (q : EReal) := by
  induction n with
  | zero =>
    obtain ⟨p, hp⟩ := pw_real 0 r
    exact ⟨lit 0x00000000#32 + lit 0x3F666666#32 * p, by rw [ac, hp, wZero_real, wC_real, ← EReal.coe_mul, ← EReal.coe_add]⟩
  | succ n ih =>
    obtain ⟨q, hq⟩ := ih; obtain ⟨p, hp⟩ := pw_real (n + 1) r
    exact ⟨q + lit 0x3F666666#32 * p, by rw [ac, hq, hp, wC_real, ← EReal.coe_mul, ← EReal.coe_add]⟩

/-- At a real eigenvalue the filter is real. -/
theorem filt_real (r : ℝ) : ∃ q : ℝ, filt (r : EReal) = (q : EReal) := by
  obtain ⟨a, ha⟩ := ac_real 9 r
  exact ⟨a / lit 0x41200000#32, by rw [filt, ha, wTen_real, div_coe_coe _ _ (by rw [lit_ten]; norm_num)]⟩

end Cert.SpectralFilter

end
-- ==== Proof.IdealPayloads.lean ====
/-
  The kernel's stored values read at one entry, at the exact values, over any contents of the buffers they load:
    the accumulator step      S'(k,d) = S(k,d) + sum_{r < 12800} Ut(k,r) * x(r,d)      (a full tile)
    the last, partial tile    S'(k,d) = S(k,d) + sum_{r < 10400} Ut(k,r) * x(r,d)
    the small matrix G        G(k,e)  = sum_{d < 128} (p(v_k) * S(k,d)) * W(e,d)       (p the eigenvalue filter)
    the scaled weights        A(e,d)  = alpha * W(e,d)
    a tile of the result      O(r,e)  = sum_{k < 64} Ut(k,r) * G(k,e) + sum_{d < 128} x(r,d) * A(e,d).
  A change of float format is the identity at the exact values, a product into a zero accumulator is the plain sum,
  and a row r of a result tile reads column r of Ut and row r of x only.
-/
import proofs.«120780_g1580547974323_cont_week2b_927_17_alg».proof.Proof.Gen.KernelIdeal.Skeleton
import proofs.«120780_g1580547974323_cont_week2b_927_17_alg».proof.Proof.LibPlainProduct
import proofs.«120780_g1580547974323_cont_week2b_927_17_alg».proof.Proof.LibTransposedProduct
import proofs.«120780_g1580547974323_cont_week2b_927_17_alg».proof.Proof.LibGramProduct
import proofs.«120780_g1580547974323_cont_week2b_927_17_alg».proof.Proof.FilterPoly
import Idealize.ShloMosaic.Lib.Pipeline.Value
import Idealize.ShloMosaic.Lib.ValueIdx
import Idealize.ShloMosaic.PureOps.Ideal.Laws

set_option maxRecDepth 16384

noncomputable section

namespace Cert.KernelIdeal.Payloads

open Cert.KernelIdeal Cert.KernelIdeal.Gen Idealize.ShloMosaic Idealize.ShloMosaic.ValueIdx Cert.SpectralFilter

theorem plain_full : Cert.Lib.PlainProduct.IsPlain dot_S64x12800_S12800x128_S64x128_1_0_0_1_n_n := ⟨rfl, rfl, rfl, rfl, rfl, rfl⟩
theorem plain_edge : Cert.Lib.PlainProduct.IsPlain dot_S64x10400_S10400x128_S64x128_1_0_0_1_n_n := ⟨rfl, rfl, rfl, rfl, rfl, rfl⟩
theorem abt_small : Idealize.ShloMosaic.TransposedProduct.IsABt dot_S64x128_S128x128_S64x128_1_1_0_0_n_n := ⟨rfl, rfl, rfl, rfl, rfl, rfl⟩
theorem abt_tile : Idealize.ShloMosaic.TransposedProduct.IsABt dot_S12800x128_S128x128_S12800x128_1_1_0_0_n_n := ⟨rfl, rfl, rfl, rfl, rfl, rfl⟩
theorem atb_tile : Cert.Lib.GramProduct.IsAtB dot_S64x12800_S64x128_S12800x128_0_0_1_1_n_n := ⟨rfl, rfl, rfl, rfl, rfl, rfl⟩

/-- The zero fill. -/
theorem pay1_apply (j : S64x128.Idx) : k0_pay1 (F := Ideal) j = wZero := by
  unfold k0_pay1
  rw [shapeCast_self]
  rfl

/-- A full tile's product added to the accumulator. -/
theorem pay2_apply (xS : Vec Ideal S64x128 .f32) (x1 : Vec Ideal S64x12800 .f32) (x0 : Vec Ideal S12800x128 .f32) (k : Fin 64) (d : Fin 128) :
    k0_pay2 (F := Ideal) xS x1 x0 (ix2 k d) = xS (ix2 k d) + ∑ r : Fin 12800, x1 (ix2 k r) * x0 (ix2 r d) := by
  unfold k0_pay2
  rw [shapeCast_self, shapeCast_self]
  exact congrArg (xS (ix2 k d) + ·) (Cert.Lib.PlainProduct.matmul_zero_apply plain_full rfl rfl none _ _ k d)

/-- The last, partial tile's product added to the accumulator. -/
theorem pay6_apply (xS : Vec Ideal S64x128 .f32) (x1 : Vec Ideal S64x10400 .f32) (x0 : Vec Ideal S10400x128 .f32) (k : Fin 64) (d : Fin 128) :
    k0_pay6 (F := Ideal) xS x1 x0 (ix2 k d) = xS (ix2 k d) + ∑ r : Fin 10400, x1 (ix2 k r) * x0 (ix2 r d) := by
  unfold k0_pay6
  rw [shapeCast_self]
  exact congrArg (xS (ix2 k d) + ·) (Cert.Lib.PlainProduct.matmul_zero_apply plain_edge rfl rfl none _ _ k d)

/-- The scaled weights. -/
theorem pay4_apply (w : Vec Ideal S128x128 .f32) (j : S128x128.Idx) : k0_pay4 (F := Ideal) w j = wAlpha * w j := by
  unfold k0_pay4
  rw [shapeCast_self]
  rfl

theorem pay7_eq (v : Vec Ideal S64x1 .f32) : k0_pay7 (F := Ideal) v = v := shapeCast_self v _

/-- The filter of the eigenvalue column, entry by entry: the ten powers and the running sum as the skeleton names them. -/
theorem filter_column (v : Vec Ideal S64x1 .f32) (j : S64x1.Idx) :
    divf (addf (addf (addf (k0_pay15 (F := Ideal) v) (mulf (broadcast S64x1 (Scalar.ofBits .f32 0x3F666666#32)) (k0_pay16 v)))
        (mulf (broadcast S64x1 (Scalar.ofBits .f32 0x3F666666#32)) (mulf (k0_pay16 v) (k0_pay7 v))))
        (mulf (broadcast S64x1 (Scalar.ofBits .f32 0x3F666666#32)) (mulf (mulf (k0_pay16 v) (k0_pay7 v)) (k0_pay7 v))))
      (broadcast S64x1 (Scalar.ofBits .f32 0x41200000#32)) j = filt (v j) := by
  unfold k0_pay15 k0_pay16 k0_pay14 k0_pay13 k0_pay12 k0_pay11 k0_pay10 k0_pay9 k0_pay8
  rw [pay7_eq]
  rfl

/-- The small matrix G. -/
theorem pay3_apply (S7 : Vec Ideal S64x128 .f32) (v : Vec Ideal S64x1 .f32) (w : Vec Ideal S128x128 .f32) (k : Fin 64) (e : Fin 128) :
    k0_pay3 (F := Ideal) S7 (k0_pay7 v) (k0_pay15 v) (k0_pay16 v) (Scalar.ofBits .f32 0x3F666666#32) w (ix2 k e)
      = ∑ d : Fin 128, (filt (v (ix2 k 0)) * S7 (ix2 k d)) * w (ix2 e d) := by
  unfold k0_pay3
  rw [shapeCast_self]
  rw [truncf_apply]
  refine (Idealize.ShloMosaic.TransposedProduct.matmul_zero_apply (φ₁ := .f32) (φ₂ := .f32) abt_small none _ w k e).trans ?_
  refine Finset.sum_congr rfl fun d _ => ?_
  refine congrArg (· * w (ix2 e d)) ?_
  show broadcastTo S64x128 _ broadcasts_S64x1_S64x128 (ix2 k d) * S7 (ix2 k d) = _
  rw [broadcastTo_apply _ broadcasts_S64x1_S64x128 (ix2 k d) (ix2 k 0) (fun a => by
    match a with
    | ⟨0, _⟩ => rfl
    | ⟨1, _⟩ => rfl)]
  rw [filter_column]

/-- A tile of the result. -/
theorem pay5_apply (x1 : Vec Ideal S64x12800 .f32) (g : Vec Ideal S64x128 .bf16) (x0 : Vec Ideal S12800x128 .f32) (a : Vec Ideal S128x128 .bf16)
    (r : Fin 12800) (e : Fin 128) :
    k0_pay5 (F := Ideal) x1 g x0 a (ix2 r e) = (∑ k : Fin 64, x1 (ix2 k r) * g (ix2 k e)) + ∑ d : Fin 128, x0 (ix2 r d) * a (ix2 e d) := by
  unfold k0_pay5
  rw [shapeCast_self]
  exact congrArg₂ (· + ·) (Cert.Lib.GramProduct.matmul_zero_apply atb_tile none _ _ r e)
    (Idealize.ShloMosaic.TransposedProduct.matmul_zero_apply abt_tile none _ _ r e)

end Cert.KernelIdeal.Payloads

end
-- ==== Proof.IdealFill.lean ====
/-
  What the words past an array's end cannot touch. The tiles of x and of U^T and the result's tile overhang their
  arrays at the last tile (rows 89600 .. 99999 are 10400 of a tile's 12800): there a staging buffer holds the block
  on its first 10400 rows (lanes, for U^T) and words nothing names beyond. Three facts: at any other tile the
  buffer is the block whatever the filler; at the last tile the two loads of the first 10400 rows / lanes read the
  block only; and in phase 1 the rows of the result's tile inside the array are computed from rows and lanes inside
  the arrays only, since row r of the tile reads lane r of U^T's tile and row r of x's tile.
-/
import proofs.«120780_g1580547974323_cont_week2b_927_17_alg».proof.Proof.IdealCases
import proofs.«120780_g1580547974323_cont_week2b_927_17_alg».proof.Proof.IdealPayloads

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx Cert.KernelIdeal.Payloads

/-! ## Full tiles -/

theorem noclip0 : ∀ t : Fin cfg0.N, t.val % 8 ≠ 7 → ∀ a, (cfg0.win 0).clip (grid0.coords t) a = none :=
  (by decide +kernel : ∀ t : Fin grid0.N, t.val % 8 ≠ 7 → ∀ a, win0_0.clip (grid0.coords t) a = none)
theorem noclip1 : ∀ t : Fin cfg0.N, t.val % 8 ≠ 7 → ∀ a, (cfg0.win 1).clip (grid0.coords t) a = none :=
  (by decide +kernel : ∀ t : Fin grid0.N, t.val % 8 ≠ 7 → ∀ a, win0_1.clip (grid0.coords t) a = none)

theorem fill_full0 {α : Type} (t : Fin cfg0.N) (h : t.val % 8 ≠ 7) (d d' : win0_0.block.Idx → α) (g : (win0_0.xblock (grid0.coords t)).Idx → α) :
    win0_0.fill (grid0.coords t) d g = win0_0.fill (grid0.coords t) d' g :=
  Pipeline.fill_of_clip_none (cfg := cfg0) 0 (grid0.coords t) (noclip0 t h) d d' g
theorem fill_full1 {α : Type} (t : Fin cfg0.N) (h : t.val % 8 ≠ 7) (d d' : win0_1.block.Idx → α) (g : (win0_1.xblock (grid0.coords t)).Idx → α) :
    win0_1.fill (grid0.coords t) d g = win0_1.fill (grid0.coords t) d' g :=
  Pipeline.fill_of_clip_none (cfg := cfg0) 1 (grid0.coords t) (noclip1 t h) d d' g

/-! ## The extents of the part inside the arrays -/

/-- x's tile: its first xsize rows, all 128 lanes; U^T's tile: all 64 rows, its first xsize lanes; the extents agree
    with the result's tile in phase 1, and are at least 10400 everywhere. -/
theorem extents : ∀ t : Fin cfg0.N,
    win0_0.xsize (grid0.coords t) 1 = 128 ∧ win0_1.xsize (grid0.coords t) 0 = 64
      ∧ 10400 ≤ win0_0.xsize (grid0.coords t) 0 ∧ 10400 ≤ win0_1.xsize (grid0.coords t) 1
      ∧ (8 ≤ t.val → win0_4.xsize (grid0.coords t) 0 = win0_0.xsize (grid0.coords t) 0
          ∧ win0_4.xsize (grid0.coords t) 0 = win0_1.xsize (grid0.coords t) 1) :=
  (by decide +kernel : ∀ t : Fin grid0.N,
    win0_0.xsize (grid0.coords t) 1 = 128 ∧ win0_1.xsize (grid0.coords t) 0 = 64
      ∧ 10400 ≤ win0_0.xsize (grid0.coords t) 0 ∧ 10400 ≤ win0_1.xsize (grid0.coords t) 1
      ∧ (8 ≤ t.val → win0_4.xsize (grid0.coords t) 0 = win0_0.xsize (grid0.coords t) 0
          ∧ win0_4.xsize (grid0.coords t) 0 = win0_1.xsize (grid0.coords t) 1))

/-- An entry of x's tile inside the array is the block's, whatever the filler. -/
theorem fill0_inside {α : Type} (t : Fin cfg0.N) (d d' : win0_0.block.Idx → α) (g : (win0_0.xblock (grid0.coords t)).Idx → α)
    (r : Fin 12800) (q : Fin 128) (hr : r.val < win0_0.xsize (grid0.coords t) 0) :
    win0_0.fill (grid0.coords t) d g (ix2 r q) = win0_0.fill (grid0.coords t) d' g (ix2 r q) := by
  have hm : win0_0.moved (grid0.coords t) (ix2 r q) = true := (win0_0.moved_iff _ _).mpr fun a => by
    match a with
    | ⟨0, _⟩ => exact hr
    | ⟨1, _⟩ => show q.val < win0_0.xsize (grid0.coords t) 1; rw [(extents t).1]; exact q.isLt
  unfold Pipeline.Window.fill; rw [dif_pos hm, dif_pos hm]

/-- An entry of U^T's tile inside the array is the block's, whatever the filler. -/
theorem fill1_inside {α : Type} (t : Fin cfg0.N) (d d' : win0_1.block.Idx → α) (g : (win0_1.xblock (grid0.coords t)).Idx → α)
    (k : Fin 64) (r : Fin 12800) (hr : r.val < win0_1.xsize (grid0.coords t) 1) :
    win0_1.fill (grid0.coords t) d g (ix2 k r) = win0_1.fill (grid0.coords t) d' g (ix2 k r) := by
  have hm : win0_1.moved (grid0.coords t) (ix2 k r) = true := (win0_1.moved_iff _ _).mpr fun a => by
    match a with
    | ⟨0, _⟩ => show k.val < win0_1.xsize (grid0.coords t) 0; rw [(extents t).2.1]; exact k.isLt
    | ⟨1, _⟩ => exact hr
  unfold Pipeline.Window.fill; rw [dif_pos hm, dif_pos hm]

/-! ## The last tile's two loads -/

theorem ld_edge0 (t : Fin cfg0.N) (d d' : win0_0.block.Idx → Elt Ideal .f32) (g : (win0_0.xblock (grid0.coords t)).Idx → Elt Ideal .f32) :
    View.ld (Val := Elt Ideal) (e' := .f32) (win0_0.fill (grid0.coords t) d g) (Rect.unit (s := S12800x128) ![0, 0] S10400x128.size inb_S12800x128_S10400x128_0_0)
      = View.ld (Val := Elt Ideal) (e' := .f32) (win0_0.fill (grid0.coords t) d' g) (Rect.unit (s := S12800x128) ![0, 0] S10400x128.size inb_S12800x128_S10400x128_0_0) := by
  funext y
  obtain ⟨r, q, rfl⟩ : ∃ (r : Fin 10400) (q : Fin 128), y = ix2 r q := ⟨y 0, y 1, eq_ix2 y⟩
  have e : (Rect.unit (s := S12800x128) ![0, 0] S10400x128.size inb_S12800x128_S10400x128_0_0).idx (ix2 r q)
      = ix2 (⟨r.val, by have := r.isLt; omega⟩ : Fin 12800) q := funext fun a => Fin.ext (by
    match a with
    | ⟨0, _⟩ => show 0 + 1 * r.val = r.val; omega
    | ⟨1, _⟩ => show 0 + 1 * q.val = q.val; omega)
  show win0_0.fill (grid0.coords t) d g _ = win0_0.fill (grid0.coords t) d' g _
  rw [e]
  exact fill0_inside t d d' g _ q (by have := (extents t).2.2.1; have := r.isLt; show r.val < _; omega)

theorem ld_edge1 (t : Fin cfg0.N) (d d' : win0_1.block.Idx → Elt Ideal .f32) (g : (win0_1.xblock (grid0.coords t)).Idx → Elt Ideal .f32) :
    View.ld (Val := Elt Ideal) (e' := .f32) (win0_1.fill (grid0.coords t) d g) (Rect.unit (s := S64x12800) ![0, 0] S64x10400.size inb_S64x12800_S64x10400_0_0)
      = View.ld (Val := Elt Ideal) (e' := .f32) (win0_1.fill (grid0.coords t) d' g) (Rect.unit (s := S64x12800) ![0, 0] S64x10400.size inb_S64x12800_S64x10400_0_0) := by
  funext y
  obtain ⟨k, r, rfl⟩ : ∃ (k : Fin 64) (r : Fin 10400), y = ix2 k r := ⟨y 0, y 1, eq_ix2 y⟩
  have e : (Rect.unit (s := S64x12800) ![0, 0] S64x10400.size inb_S64x12800_S64x10400_0_0).idx (ix2 k r)
      = ix2 k (⟨r.val, by have := r.isLt; omega⟩ : Fin 12800) := funext fun a => Fin.ext (by
    match a with
    | ⟨0, _⟩ => show 0 + 1 * k.val = k.val; omega
    | ⟨1, _⟩ => show 0 + 1 * r.val = r.val; omega)
  show win0_1.fill (grid0.coords t) d g _ = win0_1.fill (grid0.coords t) d' g _
  rw [e]
  exact fill1_inside t d d' g k _ (by have := (extents t).2.2.2.1; have := r.isLt; show r.val < _; omega)

/-! ## Phase 1: the rows of the result inside the array -/

theorem emit_cut (t : Fin cfg0.N) (ht : 8 ≤ t.val) (d0 d0' : win0_0.block.Idx → EReal) (d1 d1' : win0_1.block.Idx → EReal)
    (g0 : (win0_0.xblock (grid0.coords t)).Idx → EReal) (g1 : (win0_1.xblock (grid0.coords t)).Idx → EReal)
    (G : Vec Ideal S64x128 .bf16) (A : Vec Ideal S128x128 .bf16) :
    win0_4.cut (grid0.coords t) (k0_pay5 (F := Ideal) (win0_1.fill (grid0.coords t) d1 g1) G (win0_0.fill (grid0.coords t) d0 g0) A)
      = win0_4.cut (grid0.coords t) (k0_pay5 (F := Ideal) (win0_1.fill (grid0.coords t) d1' g1) G (win0_0.fill (grid0.coords t) d0' g0) A) := by
  funext y
  have hy0 : (y 0).val < win0_4.xsize (grid0.coords t) 0 := (y 0).isLt
  have hy1 : (y 1).val < 128 := lt_of_lt_of_le (y 1).isLt (win0_4.xsize_le (grid0.coords t) 1)
  have hle : win0_4.xsize (grid0.coords t) 0 ≤ 12800 := win0_4.xsize_le (grid0.coords t) 0
  have e : win0_4.xinj (grid0.coords t) y = ix2 (⟨(y 0).val, by omega⟩ : Fin 12800) (⟨(y 1).val, hy1⟩ : Fin 128) :=
    funext fun a => Fin.ext (by
      match a with
      | ⟨0, _⟩ => rfl
      | ⟨1, _⟩ => rfl)
  show k0_pay5 _ G _ A (win0_4.xinj (grid0.coords t) y) = k0_pay5 _ G _ A (win0_4.xinj (grid0.coords t) y)
  rw [e, pay5_apply, pay5_apply]
  obtain ⟨e0, e1⟩ := (extents t).2.2.2.2 ht
  congr 1
  · exact Finset.sum_congr rfl fun k _ => by rw [fill1_inside t d1 d1' g1 k _ (by show (y 0).val < _; omega)]
  · exact Finset.sum_congr rfl fun q _ => by rw [fill0_inside t d0 d0' g0 _ q (by show (y 0).val < _; omega)]

end Cert.KernelIdeal.Gen

end
-- ==== Proof.IdealData.lean ====
/-
  What the fused kernel computes, point by point, at the exact values.
  The tiles of x and U^T as staged are named with zeros past the arrays' end (x-tile t, ut-tile t); the accumulator
  after point n of phase 0 is acc n: the zero fill plus tile 0's product, then one full tile's product more at each
  of the points 1..6; at point 7 the small matrix gmat is formed from acc 6 plus the partial tile's product, the
  filtered eigenvalue column and W, and amat = alpha * W; in phase 1 each result tile is the payload of its two
  tiles, gmat and amat. The region invariant carries the three scratch buffers at these contents. The tiles that
  overhang the arrays are stated on their rows inside the arrays only; the three filler facts show nothing else
  is read where it matters.
-/
import proofs.«120780_g1580547974323_cont_week2b_927_17_alg».proof.Proof.IdealPieces
import proofs.«120780_g1580547974323_cont_week2b_927_17_alg».proof.Proof.IdealFill

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

local notation "𝕀" => MT nD τ sig Unit (Elt Ideal) ℕ (UR sig nD τ) ℕ

variable (m : (ℓ : Loc nD τ sig) → Buf (Elt Ideal) ℓ) (ρ : Dev nD → PrngReg)

/-- Point number n of the grid (numbers past the grid wrap: never used there). -/
def pt (n : ℕ) : Fin cfg0.N := ⟨n % 16, by rw [N16]; exact Nat.mod_lt _ (by norm_num)⟩
theorem pt_val (t : Fin cfg0.N) : pt t.val = t := Fin.ext (Nat.mod_eq_of_lt (lt_of_lt_of_eq t.isLt N16))

/-- The zero word at the exact values. -/
abbrev zf : Elt Ideal .f32 := FloatOps.ofBits (F := Ideal) .f32 0#32

/-- Tile t of x as staged, zero past the array's end; and of U^T. -/
def xT (c : Dev nD) (t : Fin cfg0.N) : Vec Ideal S12800x128 .f32 :=
  win0_0.fill (grid0.coords t) (fun _ => zf) (iblk m c 0 t)
def uT (c : Dev nD) (t : Fin cfg0.N) : Vec Ideal S64x12800 .f32 :=
  win0_1.fill (grid0.coords t) (fun _ => zf) (iblk m c 1 t)

/-- The accumulator after point n of phase 0 (n ≤ 6). -/
def acc (c : Dev nD) : ℕ → Vec Ideal S64x128 .f32
  | 0 => k0_pay2 (k0_pay1 (F := Ideal)) (uT m c (pt 0)) (xT m c (pt 0))
  | n + 1 => k0_pay2 (acc c n) (uT m c (pt (n + 1))) (xT m c (pt (n + 1)))

theorem acc_pos (c : Dev nD) (n : ℕ) (h : n ≠ 0) : acc m c n = k0_pay2 (acc m c (n - 1)) (uT m c (pt n)) (xT m c (pt n)) := by
  cases n with
  | zero => exact absurd rfl h
  | succ n => rfl

/-- The eigenvalue column and W as the last point of phase 0 finds them. -/
def vcol (c : Dev nD) : Vec Ideal S64x1 .f32 := iblk m c 2 (pt 7)
def wmat (c : Dev nD) : Vec Ideal S128x128 .f32 := iblk m c 3 (pt 7)

/-- G and alpha * W. -/
def gmat (c : Dev nD) : Vec Ideal S64x128 .bf16 :=
  k0_pay3 (k0_pay6 (acc m c 6) (View.ld (uT m c (pt 7)) (Rect.unit (s := S64x12800) ![0, 0] S64x10400.size inb_S64x12800_S64x10400_0_0))
      (View.ld (xT m c (pt 7)) (Rect.unit (s := S12800x128) ![0, 0] S10400x128.size inb_S12800x128_S10400x128_0_0)))
    (k0_pay7 (vcol m c)) (k0_pay15 (vcol m c)) (k0_pay16 (vcol m c)) (FloatOps.ofBits (F := Ideal) .f32 0x3F666666#32) (wmat m c)
def amat (c : Dev nD) : Vec Ideal S128x128 .bf16 := k0_pay4 (wmat m c)

/-- Tile t of the result as the body stores it. -/
def outTile (c : Dev nD) (t : Fin cfg0.N) : Vec Ideal S12800x128 .f32 := k0_pay5 (uT m c t) (gmat m c) (xT m c t) (amat m c)

/-- The invariant before point n: the class's before the first; then the accumulator at acc, the small matrices at
    anything until formed and at gmat, amat after. -/
def PhiV (c : Dev nD) : ℕ → sProp 𝕀
  | 0 => Pipeline.ΦA spec0 c
  | n + 1 =>
    if n < 7 then
      iprop(iprop(owns (c : Thread nD τ) scS fullShare (acc m c n) ∗ (∃ d, owns (c : Thread nD τ) scG fullShare d) ∗ (∃ d, owns (c : Thread nD τ) scA fullShare d)) ∗ (∃ r, prngReg c r))
    else
      iprop(iprop(owns (c : Thread nD τ) scS fullShare (acc m c 6) ∗ owns (c : Thread nD τ) scG fullShare (gmat m c) ∗ owns (c : Thread nD τ) scA fullShare (amat m c)) ∗ (∃ r, prngReg c r))

theorem PhiV_lo (c : Dev nD) (n : ℕ) (h0 : n ≠ 0) (h : n ≤ 7) :
    PhiV m c n = iprop(iprop(owns (c : Thread nD τ) scS fullShare (acc m c (n - 1)) ∗ (∃ d, owns (c : Thread nD τ) scG fullShare d) ∗ (∃ d, owns (c : Thread nD τ) scA fullShare d)) ∗ (∃ r, prngReg c r)) := by
  cases n with
  | zero => exact absurd rfl h0
  | succ n => exact if_pos (by omega)

theorem PhiV_hi (c : Dev nD) (n : ℕ) (h : 8 ≤ n) :
    PhiV m c n = iprop(iprop(owns (c : Thread nD τ) scS fullShare (acc m c 6) ∗ owns (c : Thread nD τ) scG fullShare (gmat m c) ∗ owns (c : Thread nD τ) scA fullShare (amat m c)) ∗ (∃ r, prngReg c r)) := by
  cases n with
  | zero => omega
  | succ n => exact if_neg (by omega)

/-- The proof data. -/
def vdats (_ : Fin 1) (c : Dev nD) : Dat τ (Elt Ideal) Unit ℕ (UR sig nD τ) ℕ cfg0 c where
  A w := V m c (Pipeline.arrRef spec0 w)
  after w t := match w with
    | ⟨0, _⟩ => xT m c t
    | ⟨1, _⟩ => uT m c t
    | ⟨2, _⟩ => iblk m c 2 t
    | ⟨3, _⟩ => iblk m c 3 t
    | ⟨4, _⟩ => outTile m c t
  Φ t := PhiV m c t.val
  q _ := fullShare
  owed _ := 0

theorem vA_eq (c : Dev nD) (w : Fin cfg0.W) : (vdats m 0 c).A w = V m c (Pipeline.arrRef spec0 w) := by
  dsimp only [vdats]

theorem vafter0 (c : Dev nD) (t : Fin cfg0.N) : (vdats m 0 c).after 0 t = xT m c t := by dsimp only [vdats]
theorem vafter1 (c : Dev nD) (t : Fin cfg0.N) : (vdats m 0 c).after 1 t = uT m c t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = outTile m c t := by dsimp only [vdats]

/-- The streamed tiles are fetched at every point: the block inside the array, the filler past it. -/
theorem vbefore0 (c : Dev nD) (t : Fin cfg0.N) (d) : (vdats m 0 c).before 0 t d = win0_0.fill (grid0.coords t) d (iblk m c 0 t) := by
  unfold Dat.before; rw [if_pos (fetch0_0 t)]; rfl
theorem vbefore1 (c : Dev nD) (t : Fin cfg0.N) (d) : (vdats m 0 c).before 1 t d = win0_1.fill (grid0.coords t) d (iblk m c 1 t) := by
  unfold Dat.before; rw [if_pos (fetch0_1 t)]; rfl
theorem vbefore2 (c : Dev nD) (t : Fin cfg0.N) (d) : (vdats m 0 c).before 2 t d = iblk m c 2 t :=
  before0_2_of m (vdats m 0 c) (vA_eq m c 2) (vafter2 m c) t d
theorem vbefore3 (c : Dev nD) (t : Fin cfg0.N) (d) : (vdats m 0 c).before 3 t d = iblk m c 3 t :=
  before0_3_of m (vdats m 0 c) (vA_eq m c 3) (vafter3 m c) t d

def vbodyPre (c : Dev nD) (t : Fin cfg0.N) : sProp 𝕀 :=
  iprop((vdats m 0 c).Φ t.castSucc ∗ (vdats m 0 c).owesAt () t.castSucc
    ∗ (∃ d, owns (c : Thread nD τ) (ms0 t) fullShare ((vdats m 0 c).before 0 t d))
    ∗ (∃ d, owns (c : Thread nD τ) (ms1 t) fullShare ((vdats m 0 c).before 1 t d))
    ∗ (∃ d, owns (c : Thread nD τ) (ms2 t) fullShare ((vdats m 0 c).before 2 t d))
    ∗ (∃ d, owns (c : Thread nD τ) (ms3 t) fullShare ((vdats m 0 c).before 3 t d))
    ∗ (∃ d, owns (c : Thread nD τ) (ms4 t) fullShare ((vdats m 0 c).before 4 t d)))

def vbodyPost (c : Dev nD) (t : Fin cfg0.N) : sProp 𝕀 :=
  iprop((vdats m 0 c).Φ t.succ ∗ (vdats m 0 c).owesAt () t.succ
    ∗ (vdats m 0 c).leaves 0 t ∗ (vdats m 0 c).leaves 1 t ∗ (vdats m 0 c).leaves 2 t ∗ (vdats m 0 c).leaves 3 t ∗ (vdats m 0 c).leaves 4 t)

/-! ## The tracked contents, case by case -/

theorem acc_first (c : Dev nD) (t : Fin cfg0.N) (hz : t.val = 0) (d0 : win0_0.block.Idx → EReal) (d1 : win0_1.block.Idx → EReal) :
    k0_pay2 (k0_pay1 (F := Ideal)) (win0_1.fill (grid0.coords t) d1 (iblk m c 1 t)) (win0_0.fill (grid0.coords t) d0 (iblk m c 0 t)) = acc m c t.val := by
  have e : t = pt 0 := (pt_val t).symm.trans (congrArg pt hz)
  subst e
  show _ = k0_pay2 (k0_pay1 (F := Ideal)) (uT m c (pt 0)) (xT m c (pt 0))
  unfold uT xT
  rw [fill_full0 (pt 0) (by decide) d0 (fun _ => zf), fill_full1 (pt 0) (by decide) d1 (fun _ => zf)]

theorem acc_full (c : Dev nD) (t : Fin cfg0.N) (h0 : t.val ≠ 0) (h7 : t.val < 7) (d0 : win0_0.block.Idx → EReal) (d1 : win0_1.block.Idx → EReal) :
    k0_pay2 (acc m c (t.val - 1)) (win0_1.fill (grid0.coords t) d1 (iblk m c 1 t)) (win0_0.fill (grid0.coords t) d0 (iblk m c 0 t)) = acc m c t.val := by
  rw [acc_pos m c t.val h0, pt_val]
  unfold uT xT
  rw [fill_full0 t (by omega) d0 (fun _ => zf), fill_full1 t (by omega) d1 (fun _ => zf)]

theorem gmat_last (c : Dev nD) (t : Fin cfg0.N) (hl : t.val = 7) (d0 : win0_0.block.Idx → EReal) (d1 : win0_1.block.Idx → EReal) :
    k0_pay3 (k0_pay6 (acc m c 6) (View.ld (win0_1.fill (grid0.coords t) d1 (iblk m c 1 t)) (Rect.unit (s := S64x12800) ![0, 0] S64x10400.size inb_S64x12800_S64x10400_0_0))
        (View.ld (win0_0.fill (grid0.coords t) d0 (iblk m c 0 t)) (Rect.unit (s := S12800x128) ![0, 0] S10400x128.size inb_S12800x128_S10400x128_0_0)))
      (k0_pay7 (iblk m c 2 t)) (k0_pay15 (iblk m c 2 t)) (k0_pay16 (iblk m c 2 t)) (FloatOps.ofBits (F := Ideal) .f32 0x3F666666#32) (iblk m c 3 t) = gmat m c := by
  have e : t = pt 7 := (pt_val t).symm.trans (congrArg pt hl)
  subst e
  unfold gmat vcol wmat uT xT
  rw [ld_edge0 (pt 7) d0 (fun _ => zf), ld_edge1 (pt 7) d1 (fun _ => zf)]
  try rfl

theorem amat_last (c : Dev nD) (t : Fin cfg0.N) (hl : t.val = 7) : k0_pay4 (iblk m c 3 t) = amat m c := by
  have e : t = pt 7 := (pt_val t).symm.trans (congrArg pt hl)
  subst e
  rfl

/-! ## The body obligation, case by case -/

set_option maxHeartbeats 2000000 in
theorem vsound_first (c : Dev nD) (t : Fin cfg0.N) (hz : t.val = 0) :
    vbodyPre m c t ⊢ wp frame (wpE (defs₀ (F := Ideal)) Variants.none c none) Set.univ (bodyAt0 t) (fun _ => vbodyPost m c t) := by
  have hN : t.val < 16 := lt_of_lt_of_eq t.isLt N16
  unfold vbodyPre vbodyPost bodyAt0
  simp only [vbefore0, vbefore1, vbefore2, vbefore3]
  rw [show (vdats m 0 c).owesAt () t.succ = (vdats m 0 c).owesAt () t.castSucc from rfl]
  rw [show (vdats m 0 c).Φ t.succ = PhiV m c (t.val + 1) from rfl, show (vdats m 0 c).Φ t.castSucc = PhiV m c t.val from rfl]
  rw [show (vdats m 0 c).leaves 0 t = iprop(∃ d, owns (c : Thread nD τ) (ms0 t) fullShare (win0_0.fill (grid0.coords t) d (win0_0.cut (grid0.coords t) ((vdats m 0 c).after 0 t)))) from by
    unfold Dat.leaves; rw [live0 t]; try rfl]
  rw [show (vdats m 0 c).leaves 1 t = iprop(∃ d, owns (c : Thread nD τ) (ms1 t) fullShare (win0_1.fill (grid0.coords t) d (win0_1.cut (grid0.coords t) ((vdats m 0 c).after 1 t)))) from by
    unfold Dat.leaves; rw [live1 t]; try rfl]
  rw [show (vdats m 0 c).leaves 2 t = owns (c : Thread nD τ) (ms2 t) fullShare ((vdats m 0 c).after 2 t) from by
    unfold Dat.leaves; rw [live2 t]; try rfl]
  rw [show (vdats m 0 c).leaves 3 t = owns (c : Thread nD τ) (ms3 t) fullShare ((vdats m 0 c).after 3 t) from by
    unfold Dat.leaves; rw [live3 t]; try rfl]
  rw [vafter0, vafter1, vafter2, vafter3]
  rw [show win0_0.cut (grid0.coords t) (xT m c t) = iblk m c 0 t from win0_0.cut_fill _ _ _,
    show win0_1.cut (grid0.coords t) (uT m c t) = iblk m c 1 t from win0_1.cut_fill _ _ _]
  rw [show (vdats m 0 c).leaves 4 t = iprop(∃ d, owns (c : Thread nD τ) (ms4 t) fullShare ((vdats m 0 c).before 4 t d)) from by
    unfold Dat.leaves; rw [idle4 t (by omega), noFlush4 t (by omega)]; try rfl]
  rw [show PhiV m c t.val = Pipeline.ΦA spec0 c from by rw [hz]; rfl, PhiA0_eq, show PhiV m c (t.val + 1) = _ from if_pos (show t.val < 7 by omega)]
  iintro ⟨⟨⟨⟨%dS, HS⟩, ⟨%dG, HG⟩, ⟨%dA, HA⟩⟩, Hg⟩, Ho, ⟨%d0, H0⟩, ⟨%d1, H1⟩, ⟨%d2, H2⟩, ⟨%d3, H3⟩, ⟨%d4, H4⟩⟩
  iapply ((runFirst c (grid0.coords t) _ _ _ _ _ _ _ _ _ _ _ _ _ _ _ _ ((hcondZero t).mpr hz) ((hcondFull t).mpr (by omega))
    (fun h => by have := (hcondLast t).mp h; omega) (fun h => by have := (hcondEmit t).mp h; omega) (win0_0.fill (grid0.coords t) d0 (iblk m c 0 t)) (win0_1.fill (grid0.coords t) d1 (iblk m c 1 t))).2 _ _ _ _ _ Set.univ _)
  isplitl [H0]; · iexact H0
  isplitl [H1]; · iexact H1
  isplitl [H2]; · iexact H2
  isplitl [H3]; · iexact H3
  isplitl [H4]; · iexact H4
  isplitl [HS]; · iexists _; iexact HS
  isplitl [HG]; · iexact HG
  isplitl [HA]; · iexact HA
  iintro ⟨H0, H1, H2, H3, H4, ⟨%f7, HS⟩, HG, HA⟩
  isplitl [HS HG HA Hg]
  · isplitl [HS HG HA]
    · isplitl [HS]
      · unfold owns; iexists _; isplitr; swap
        · iexact HS
        · ipureintro
          exact (first_reads c _ _ _ _ _ _ _ _ _ _ _ _ _ _ _ _ _ _ _ _ _ _ _ _).trans (acc_first m c t hz d0 d1)
      isplitl [HG]; · iexists _; iexact HG
      iexists _; iexact HA
    iexact Hg
  isplitl [Ho]; · iexact Ho
  isplitl [H0]; · iexists _; iexact H0
  isplitl [H1]; · iexists _; iexact H1
  isplitl [H2]; · iexact H2
  isplitl [H3]; · iexact H3
  iexists _; iexact H4

set_option maxHeartbeats 2000000 in
theorem vsound_full (c : Dev nD) (t : Fin cfg0.N) (hz : ¬t.val = 0) (hf : t.val < 7) :
    vbodyPre m c t ⊢ wp frame (wpE (defs₀ (F := Ideal)) Variants.none c none) Set.univ (bodyAt0 t) (fun _ => vbodyPost m c t) := by
  have hN : t.val < 16 := lt_of_lt_of_eq t.isLt N16
  unfold vbodyPre vbodyPost bodyAt0
  simp only [vbefore0, vbefore1, vbefore2, vbefore3]
  rw [show (vdats m 0 c).owesAt () t.succ = (vdats m 0 c).owesAt () t.castSucc from rfl]
  rw [show (vdats m 0 c).Φ t.succ = PhiV m c (t.val + 1) from rfl, show (vdats m 0 c).Φ t.castSucc = PhiV m c t.val from rfl]
  rw [show (vdats m 0 c).leaves 0 t = iprop(∃ d, owns (c : Thread nD τ) (ms0 t) fullShare (win0_0.fill (grid0.coords t) d (win0_0.cut (grid0.coords t) ((vdats m 0 c).after 0 t)))) from by
    unfold Dat.leaves; rw [live0 t]; try rfl]
  rw [show (vdats m 0 c).leaves 1 t = iprop(∃ d, owns (c : Thread nD τ) (ms1 t) fullShare (win0_1.fill (grid0.coords t) d (win0_1.cut (grid0.coords t) ((vdats m 0 c).after 1 t)))) from by
    unfold Dat.leaves; rw [live1 t]; try rfl]
  rw [show (vdats m 0 c).leaves 2 t = owns (c : Thread nD τ) (ms2 t) fullShare ((vdats m 0 c).after 2 t) from by
    unfold Dat.leaves; rw [live2 t]; try rfl]
  rw [show (vdats m 0 c).leaves 3 t = owns (c : Thread nD τ) (ms3 t) fullShare ((vdats m 0 c).after 3 t) from by
    unfold Dat.leaves; rw [live3 t]; try rfl]
  rw [vafter0, vafter1, vafter2, vafter3]
  rw [show win0_0.cut (grid0.coords t) (xT m c t) = iblk m c 0 t from win0_0.cut_fill _ _ _,
    show win0_1.cut (grid0.coords t) (uT m c t) = iblk m c 1 t from win0_1.cut_fill _ _ _]
  rw [show (vdats m 0 c).leaves 4 t = iprop(∃ d, owns (c : Thread nD τ) (ms4 t) fullShare ((vdats m 0 c).before 4 t d)) from by
    unfold Dat.leaves; rw [idle4 t (by omega), noFlush4 t (by omega)]; try rfl]
  rw [PhiV_lo m c t.val hz (by omega), show PhiV m c (t.val + 1) = _ from if_pos hf]
  iintro ⟨⟨⟨HS, ⟨%dG, HG⟩, ⟨%dA, HA⟩⟩, Hg⟩, Ho, ⟨%d0, H0⟩, ⟨%d1, H1⟩, ⟨%d2, H2⟩, ⟨%d3, H3⟩, ⟨%d4, H4⟩⟩
  iapply ((runFull c (grid0.coords t) _ _ _ _ _ _ _ _ _ _ _ _ _ _ _ _ (fun h => hz ((hcondZero t).mp h)) ((hcondFull t).mpr hf)
    (fun h => by have := (hcondLast t).mp h; omega) (fun h => by have := (hcondEmit t).mp h; omega) (win0_0.fill (grid0.coords t) d0 (iblk m c 0 t)) (win0_1.fill (grid0.coords t) d1 (iblk m c 1 t)) (acc m c (t.val - 1))).2 _ _ _ _ _ Set.univ _)
  isplitl [H0]; · iexact H0
  isplitl [H1]; · iexact H1
  isplitl [H2]; · iexact H2
  isplitl [H3]; · iexact H3
  isplitl [H4]; · iexact H4
  isplitl [HS]; · iexact HS
  isplitl [HG]; · iexact HG
  isplitl [HA]; · iexact HA
  iintro ⟨H0, H1, H2, H3, H4, ⟨%f7, HS⟩, HG, HA⟩
  isplitl [HS HG HA Hg]
  · isplitl [HS HG HA]
    · isplitl [HS]
      · unfold owns; iexists _; isplitr; swap
        · iexact HS
        · ipureintro
          exact (full_reads c _ _ _ _ _ _ _ _ _ _ _ _ _ _ _ _ _ _ _ _ _ _ _ _ _).trans (acc_full m c t hz hf d0 d1)
      isplitl [HG]; · iexists _; iexact HG
      iexists _; iexact HA
    iexact Hg
  isplitl [Ho]; · iexact Ho
  isplitl [H0]; · iexists _; iexact H0
  isplitl [H1]; · iexists _; iexact H1
  isplitl [H2]; · iexact H2
  isplitl [H3]; · iexact H3
  iexists _; iexact H4

set_option maxHeartbeats 2000000 in
theorem vsound_last (c : Dev nD) (t : Fin cfg0.N) (hl : t.val = 7) :
    vbodyPre m c t ⊢ wp frame (wpE (defs₀ (F := Ideal)) Variants.none c none) Set.univ (bodyAt0 t) (fun _ => vbodyPost m c t) := by
  have hN : t.val < 16 := lt_of_lt_of_eq t.isLt N16
  unfold vbodyPre vbodyPost bodyAt0
  simp only [vbefore0, vbefore1, vbefore2, vbefore3]
  rw [show (vdats m 0 c).owesAt () t.succ = (vdats m 0 c).owesAt () t.castSucc from rfl]
  rw [show (vdats m 0 c).Φ t.succ = PhiV m c (t.val + 1) from rfl, show (vdats m 0 c).Φ t.castSucc = PhiV m c t.val from rfl]
  rw [show (vdats m 0 c).leaves 0 t = iprop(∃ d, owns (c : Thread nD τ) (ms0 t) fullShare (win0_0.fill (grid0.coords t) d (win0_0.cut (grid0.coords t) ((vdats m 0 c).after 0 t)))) from by
    unfold Dat.leaves; rw [live0 t]; try rfl]
  rw [show (vdats m 0 c).leaves 1 t = iprop(∃ d, owns (c : Thread nD τ) (ms1 t) fullShare (win0_1.fill (grid0.coords t) d (win0_1.cut (grid0.coords t) ((vdats m 0 c).after 1 t)))) from by
    unfold Dat.leaves; rw [live1 t]; try rfl]
  rw [show (vdats m 0 c).leaves 2 t = owns (c : Thread nD τ) (ms2 t) fullShare ((vdats m 0 c).after 2 t) from by
    unfold Dat.leaves; rw [live2 t]; try rfl]
  rw [show (vdats m 0 c).leaves 3 t = owns (c : Thread nD τ) (ms3 t) fullShare ((vdats m 0 c).after 3 t) from by
    unfold Dat.leaves; rw [live3 t]; try rfl]
  rw [vafter0, vafter1, vafter2, vafter3]
  rw [show win0_0.cut (grid0.coords t) (xT m c t) = iblk m c 0 t from win0_0.cut_fill _ _ _,
    show win0_1.cut (grid0.coords t) (uT m c t) = iblk m c 1 t from win0_1.cut_fill _ _ _]
  rw [show (vdats m 0 c).leaves 4 t = iprop(∃ d, owns (c : Thread nD τ) (ms4 t) fullShare ((vdats m 0 c).before 4 t d)) from by
    unfold Dat.leaves; rw [idle4 t (by omega), noFlush4 t (by omega)]; try rfl]
  rw [PhiV_lo m c t.val (by omega) (by omega), show t.val - 1 = 6 from by omega, show PhiV m c (t.val + 1) = _ from if_neg (show ¬t.val < 7 by omega)]
  iintro ⟨⟨⟨HS, ⟨%dG, HG⟩, ⟨%dA, HA⟩⟩, Hg⟩, Ho, ⟨%d0, H0⟩, ⟨%d1, H1⟩, ⟨%d2, H2⟩, ⟨%d3, H3⟩, ⟨%d4, H4⟩⟩
  iapply ((runLast c (grid0.coords t) _ _ _ _ _ _ _ _ _ _ _ _ _ _ _ _ (fun h => by have := (hcondZero t).mp h; omega) (fun h => by have := (hcondFull t).mp h; omega)
    ((hcondLast t).mpr hl) (fun h => by have := (hcondEmit t).mp h; omega) (win0_0.fill (grid0.coords t) d0 (iblk m c 0 t)) (win0_1.fill (grid0.coords t) d1 (iblk m c 1 t)) (iblk m c 2 t) (iblk m c 3 t) (acc m c 6)).2.2 _ Set.univ _)
  isplitl [H0]; · iexact H0
  isplitl [H1]; · iexact H1
  isplitl [H2]; · iexact H2
  isplitl [H3]; · iexact H3
  isplitl [H4]; · iexact H4
  isplitl [HS]; · iexact HS
  isplitl [HG]; · iexists _; iexact HG
  isplitl [HA]; · iexists _; iexact HA
  iintro ⟨H0, H1, H2, H3, H4, HS, ⟨%f8, HG⟩, ⟨%f9, HA⟩⟩
  isplitl [HS HG HA Hg]
  · isplitl [HS HG HA]
    · isplitl [HS]; · iexact HS
      isplitl [HG]
      · unfold owns; iexists _; isplitr; swap
        · iexact HG
        · ipureintro
          exact (lastG_reads c _ _ _ _ _ _ _ _ _ _ _ _ _ _ _ _ _ _ _ _ _ _ _ _ _ _ _).trans (gmat_last m c t hl d0 d1)
      unfold owns; iexists _; isplitr; swap
      · iexact HA
      · ipureintro
        exact (lastA_reads c _ _ _ _ _ _ _ _ _ _ _ _ _ _ _ _ _ _ _ _ _ _ _ _ _ _ _).trans (amat_last m c t hl)
    iexact Hg
  isplitl [Ho]; · iexact Ho
  isplitl [H0]; · iexists _; iexact H0
  isplitl [H1]; · iexists _; iexact H1
  isplitl [H2]; · iexact H2
  isplitl [H3]; · iexact H3
  iexists _; iexact H4

set_option maxHeartbeats 2000000 in
theorem vsound_emit (c : Dev nD) (t : Fin cfg0.N) (he : 8 ≤ t.val) :
    vbodyPre m c t ⊢ wp frame (wpE (defs₀ (F := Ideal)) Variants.none c none) Set.univ (bodyAt0 t) (fun _ => vbodyPost m c t) := by
  have hN : t.val < 16 := lt_of_lt_of_eq t.isLt N16
  unfold vbodyPre vbodyPost bodyAt0
  simp only [vbefore0, vbefore1, vbefore2, vbefore3]
  rw [show (vdats m 0 c).owesAt () t.succ = (vdats m 0 c).owesAt () t.castSucc from rfl]
  rw [show (vdats m 0 c).Φ t.succ = PhiV m c (t.val + 1) from rfl, show (vdats m 0 c).Φ t.castSucc = PhiV m c t.val from rfl]
  rw [show (vdats m 0 c).leaves 0 t = iprop(∃ d, owns (c : Thread nD τ) (ms0 t) fullShare (win0_0.fill (grid0.coords t) d (win0_0.cut (grid0.coords t) ((vdats m 0 c).after 0 t)))) from by
    unfold Dat.leaves; rw [live0 t]; try rfl]
  rw [show (vdats m 0 c).leaves 1 t = iprop(∃ d, owns (c : Thread nD τ) (ms1 t) fullShare (win0_1.fill (grid0.coords t) d (win0_1.cut (grid0.coords t) ((vdats m 0 c).after 1 t)))) from by
    unfold Dat.leaves; rw [live1 t]; try rfl]
  rw [show (vdats m 0 c).leaves 2 t = owns (c : Thread nD τ) (ms2 t) fullShare ((vdats m 0 c).after 2 t) from by
    unfold Dat.leaves; rw [live2 t]; try rfl]
  rw [show (vdats m 0 c).leaves 3 t = owns (c : Thread nD τ) (ms3 t) fullShare ((vdats m 0 c).after 3 t) from by
    unfold Dat.leaves; rw [live3 t]; try rfl]
  rw [vafter0, vafter1, vafter2, vafter3]
  rw [show win0_0.cut (grid0.coords t) (xT m c t) = iblk m c 0 t from win0_0.cut_fill _ _ _,
    show win0_1.cut (grid0.coords t) (uT m c t) = iblk m c 1 t from win0_1.cut_fill _ _ _]
  rw [show (vdats m 0 c).leaves 4 t = iprop(∃ d, owns (c : Thread nD τ) (ms4 t) fullShare (win0_4.fill (grid0.coords t) d (win0_4.cut (grid0.coords t) ((vdats m 0 c).after 4 t)))) from by
    unfold Dat.leaves; rw [live4 t he]; try rfl, vafter4]
  rw [PhiV_hi m c t.val he, PhiV_hi m c (t.val + 1) (by omega)]
  iintro ⟨⟨⟨HS, HG, HA⟩, Hg⟩, Ho, ⟨%d0, H0⟩, ⟨%d1, H1⟩, ⟨%d2, H2⟩, ⟨%d3, H3⟩, ⟨%d4, H4⟩⟩
  iapply ((runEmit c (grid0.coords t) _ _ _ _ _ _ _ _ _ _ _ _ _ _ _ _ (fun h => by have := (hcondZero t).mp h; omega) (fun h => by have := (hcondFull t).mp h; omega)
    (fun h => by have := (hcondLast t).mp h; omega) ((hcondEmit t).mpr he) (win0_0.fill (grid0.coords t) d0 (iblk m c 0 t)) (win0_1.fill (grid0.coords t) d1 (iblk m c 1 t)) (gmat m c) (amat m c)).2 _ _ _ Set.univ _)
  isplitl [H0]; · iexact H0
  isplitl [H1]; · iexact H1
  isplitl [H2]; · iexact H2
  isplitl [H3]; · iexact H3
  isplitl [H4]; · iexists _; iexact H4
  isplitl [HS]; · iexact HS
  isplitl [HG]; · iexact HG
  isplitl [HA]; · iexact HA
  iintro ⟨H0, H1, H2, H3, ⟨%f6, H4⟩, HS, HG, HA⟩
  isplitl [HS HG HA Hg]
  · isplitl [HS HG HA]
    · isplitl [HS]; · iexact HS
      isplitl [HG]; · iexact HG
      iexact HA
    iexact Hg
  isplitl [Ho]; · iexact Ho
  isplitl [H0]; · iexists _; iexact H0
  isplitl [H1]; · iexists _; iexact H1
  isplitl [H2]; · iexact H2
  isplitl [H3]; · iexact H3
  iexists (k0_pay5 (F := Ideal) (win0_1.fill (grid0.coords t) d1 (iblk m c 1 t)) (gmat m c) (win0_0.fill (grid0.coords t) d0 (iblk m c 0 t)) (amat m c))
  unfold owns; iexists _; isplitr; swap
  · iexact H4
  · ipureintro
    refine (emit_reads c _ _ _ _ _ _ _ _ _ _ _ _ _ _ _ _ _ _ _ _ _ _ _ _ _ _).trans ?_
    exact (win0_4.fill_congr_cut (grid0.coords t) (emit_cut t he d0 (fun _ => zf) d1 (fun _ => zf) (iblk m c 0 t) (iblk m c 1 t) (gmat m c) (amat m c))).symm

theorem vsound_body (c : Dev nD) (t : Fin cfg0.N) :
    vbodyPre m c t ⊢ wp frame (wpE (defs₀ (F := Ideal)) Variants.none c none) Set.univ (bodyAt0 t) (fun _ => vbodyPost m c t) := by
  by_cases hz : t.val = 0
  · exact vsound_first m c t hz
  by_cases hf : t.val < 7
  · exact vsound_full m c t hz hf
  by_cases hl : t.val = 7
  · exact vsound_last m c t hl
  · exact vsound_emit m c t (by omega)

theorem vbody_obligation (c : Dev nD) : BodyObligationLoose (vdats m 0 c) (defs₀ (F := Ideal)) Variants.none () Set.univ := fun t => by
  rw [bigSep_W0, bigSep_W0]
  exact vsound_body m c t

theorem vhin (c : Dev nD) : Pipeline.ΦA spec0 c ⊢ (vdats m 0 c).Φ 0 := Idealize.SL.BI.Entails.refl _

theorem vhout (c : Dev nD) : (vdats m 0 c).Φ (Fin.last cfg0.N) ⊢ Pipeline.ΦA spec0 c := by
  rw [show (vdats m 0 c).Φ (Fin.last cfg0.N) = PhiV m c 16 from rfl, PhiV_hi m c 16 (by omega), PhiA0_eq]
  iintro ⟨⟨HS, HG, HA⟩, Hg⟩
  isplitl [HS HG HA]
  · isplitl [HS]; · iexists _; iexact HS
    isplitl [HG]; · iexists _; iexact HG
    iexists _; iexact HA
  iexact Hg

set_option backward.isDefEq.respectTransparency.types false in
/-- The run: every array of the pipeline ends at what the proof data compute, every other buffer as the region found it. -/
theorem vrun_main : θ_run defs (onTc (τ := τ) (main (F := Ideal))) (s₀ m ρ) (Pipeline.FramePost cfgs (vdats m) 0 (V m)) :=
  Pipeline.θ_run_frame_track cfgs (vdats m) (0 : Fin 1) launch0 defs₀ Variants.none m ρ main
    (hbody := fun c => vbody_obligation m c) (hshare := fun c => (vdats m 0 c).share_full fun _ => rfl)
    (howed := fun _ _ => rfl) (V := V m) (hmain := hmain m Variants.none) (hA := vA_eq m) (hin := vhin m) (hout := vhout m)

end Cert.KernelIdeal.Gen

end
-- ==== Proof.ConvSpec.lean ====
/-
  The spectral graph convolution as one function of the four arrays, at the exact values, in the reference's
  arrangement: with h = x W^T and p the eigenvalue filter,
    out(n,e) = sum_k (U(n,k) * p(V_k)) * (sum_n' U(n',k) * h(n',e)) + alpha * h(n,e).
-/
import proofs.«120780_g1580547974323_cont_week2b_927_17_alg».proof.Proof.FilterPoly
import Idealize.ShloMosaic.Lib.ValueIdx

noncomputable section

namespace Cert.SpectralConv

open Idealize.ShloMosaic Idealize.ShloMosaic.ValueIdx Cert.SpectralFilter

abbrev Sx : Shape := ⟨2, ![100000, 128]⟩
abbrev Su : Shape := ⟨2, ![100000, 64]⟩
abbrev Sv : Shape := ⟨1, ![64]⟩
abbrev Sw : Shape := ⟨2, ![128, 128]⟩

/-- h = x W^T at (n, e). -/
def mix (x : Sx.Idx → EReal) (w : Sw.Idx → EReal) (n : Fin 100000) (e : Fin 128) : EReal :=
  ∑ d : Fin 128, x (ix2 n d) * w (ix2 e d)

/-- The convolution at entry (n, e), in the reference's arrangement. -/
def refAt (x : Sx.Idx → EReal) (u : Su.Idx → EReal) (v : Sv.Idx → EReal) (w : Sw.Idx → EReal) (n : Fin 100000) (e : Fin 128) : EReal :=
  (∑ k : Fin 64, (u (ix2 n k) * filt (v (ix1 k))) * (∑ n' : Fin 100000, u (ix2 n' k) * mix x w n' e))
    + wAlpha * mix x w n e

/-- The convolution as an array. -/
def refOut (x : Sx.Idx → EReal) (u : Su.Idx → EReal) (v : Sv.Idx → EReal) (w : Sw.Idx → EReal) : Sx.Idx → EReal := fun j =>
  refAt x u v w (j 0) (j 1)

end Cert.SpectralConv

end
-- ==== Proof.LibSpectralCommute.lean ====
/-
  The algebra that joins a spectral graph convolution to its fused form, over the reals, for any finite index types
  of nodes, eigenvectors and features:
    sum_k U(n,k) * (sum_d (p_k * S(k,d)) * W(e,d)) + sum_d x(n,d) * (a * W(e,d))
      = sum_k (U(n,k) * p_k) * (sum_n' U(n',k) * h(n',e)) + a * h(n,e),
  where S(k,d) = sum_n' U(n',k) * x(n',d) and h(n,e) = sum_d x(n,d) * W(e,d): the feature product commutes past the
  node projection (an exchange of two finite sums) and the scale a moves into W (distributivity). Also: a sum over
  the first m + n naturals is the sum over the first m plus the sum over the next n, and a sum over Fin n is the sum
  over the first n naturals of any extension of the summand.
-/
import Mathlib.Algebra.BigOperators.Ring.Finset
import Mathlib.Algebra.BigOperators.Fin
import Mathlib.Data.Real.Basic
import Mathlib.Tactic.Ring

namespace Cert.Lib.SpectralCommute

open Finset

variable {N K D : Type*} [Fintype N] [Fintype K] [Fintype D]

/-- The filtered projection followed by the feature product is the feature product followed by the filtered projection. -/
theorem project_then_mix (x : N → D → ℝ) (U : N → K → ℝ) (p : K → ℝ) (W : D → D → ℝ) (k : K) (e : D) :
    (∑ d, (p k * (∑ n', U n' k * x n' d)) * W e d) = p k * (∑ n', U n' k * (∑ d, x n' d * W e d)) := by
  simp only [Finset.mul_sum, Finset.sum_mul]
  rw [Finset.sum_comm]
  refine Finset.sum_congr rfl fun n' _ => Finset.sum_congr rfl fun d _ => ?_
  ring

/-- The fused form equals the reference form, entry by entry. -/
theorem fused_eq (x : N → D → ℝ) (U : N → K → ℝ) (p : K → ℝ) (W : D → D → ℝ) (a : ℝ) (n : N) (e : D) :
    (∑ k, U n k * (∑ d, (p k * (∑ n', U n' k * x n' d)) * W e d)) + ∑ d, x n d * (a * W e d)
      = (∑ k, (U n k * p k) * (∑ n', U n' k * (∑ d, x n' d * W e d))) + a * (∑ d, x n d * W e d) := by
  congr 1
  · refine Finset.sum_congr rfl fun k _ => ?_
    rw [project_then_mix, mul_assoc]
  · rw [Finset.mul_sum]
    refine Finset.sum_congr rfl fun d _ => ?_
    ring

/-- A sum over Fin n of a summand given on the naturals is the sum over the first n naturals. -/
theorem sum_fin_eq_range (n : ℕ) (g : ℕ → ℝ) : (∑ r : Fin n, g r.val) = ∑ r ∈ range n, g r :=
  Fin.sum_univ_eq_sum_range g n

/-- One more tile: the first m naturals, then the next n. -/
theorem range_add_tile (m n : ℕ) (g : ℕ → ℝ) :
    (∑ r ∈ range m, g r) + (∑ r : Fin n, g (m + r.val)) = ∑ r ∈ range (m + n), g r := by
  rw [sum_fin_eq_range n (fun r => g (m + r)), Finset.sum_range_add]

/-- The running sum over tiles of T rows each. -/
def tiled (g : ℕ → ℝ) (T : ℕ) : ℕ → ℝ
  | 0 => ∑ r : Fin T, g (T * 0 + r.val)
  | n + 1 => tiled g T n + ∑ r : Fin T, g (T * (n + 1) + r.val)

/-- After n + 1 tiles it is the sum over the first T * (n + 1) naturals. -/
theorem tiled_eq (g : ℕ → ℝ) (T : ℕ) (n : ℕ) : tiled g T n = ∑ j ∈ range (T * (n + 1)), g j := by
  induction n with
  | zero =>
    rw [tiled, Nat.mul_zero, Nat.zero_add, Nat.mul_one]
    simp only [Nat.zero_add]
    exact sum_fin_eq_range T g
  | succ n ih =>
    rw [tiled, ih, Nat.mul_succ T (n + 1)]
    exact range_add_tile (T * (n + 1)) T g

/-- Seven full tiles and a last one of L rows make the whole sum when T * 7 + L = N. -/
theorem tiled_all (g : ℕ → ℝ) (T L N : ℕ) (h : T * 7 + L = N) :
    tiled g T 6 + ∑ r : Fin L, g (T * 7 + r.val) = ∑ j ∈ range N, g j := by
  rw [tiled_eq, ← h]
  exact range_add_tile (T * 7) L g

end Cert.Lib.SpectralCommute
-- ==== Proof.LibCoeSum.lean ====
/-
  A finite sum of reals, coerced into the extended reals, is the sum of the coercions.
-/
import Mathlib.Data.EReal.Basic
import Mathlib.Algebra.BigOperators.Group.Finset.Basic

namespace Cert.Lib.CoeSum

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Lib.CoeSum
-- ==== Proof.FusedSpec.lean ====
/-
  The fused arrangement of the convolution as a function of the arrays, and its equality with the reference's
  arrangement when every entry is a real number.
  Rows past the arrays' end read as zero (xz, uz), so every tile is a sum over a fixed number of rows:
    tile T i len (k,d) = sum_{r < len} U(T i + r, k) * x(T i + r, d),
    S = ((((((0 + tile 0) + tile 1) + ... + tile 6) + last tile (L rows),   7 T + L = 100000,
    G(k,e) = sum_d (p(V_k) * S(k,d)) * W(e,d),
    out(n,e) = sum_k U(n,k) * G(k,e) + sum_d x(n,d) * (alpha * W(e,d)).
  Over the reals S(k,d) is the whole sum over the 100000 rows, and the rest is the exchange of two finite sums and
  distributivity.
-/
import proofs.«120780_g1580547974323_cont_week2b_927_17_alg».proof.Proof.ConvSpec
import proofs.«120780_g1580547974323_cont_week2b_927_17_alg».proof.Proof.LibSpectralCommute
import proofs.«120780_g1580547974323_cont_week2b_927_17_alg».proof.Proof.LibCoeSum

noncomputable section

namespace Cert.SpectralConv

open Idealize.ShloMosaic Idealize.ShloMosaic.ValueIdx Cert.SpectralFilter Cert.Lib.SpectralCommute Cert.Lib.CoeSum Cert.Lib.FloatLiteral

abbrev Sut : Shape := ⟨2, ![64, 100000]⟩
abbrev Svc : Shape := ⟨2, ![64, 1]⟩

/-- Row n of x, zero past the end; row n of U (a lane of U^T), zero past the end. -/
def xz (X : Sx.Idx → EReal) (n : ℕ) (q : Fin 128) : EReal := if h : n < 100000 then X (ix2 ⟨n, h⟩ q) else 0
def uz (UT : Sut.Idx → EReal) (n : ℕ) (k : Fin 64) : EReal := if h : n < 100000 then UT (ix2 k ⟨n, h⟩) else 0

/-- One tile's product: len rows from row T * i on. -/
def tile (X : Sx.Idx → EReal) (UT : Sut.Idx → EReal) (T i len : ℕ) (k : Fin 64) (d : Fin 128) : EReal :=
  ∑ r : Fin len, uz UT (T * i + r.val) k * xz X (T * i + r.val) d

/-- The accumulator after n + 1 full tiles, started from the zero word. -/
def accS (X : Sx.Idx → EReal) (UT : Sut.Idx → EReal) (T : ℕ) : ℕ → Fin 64 → Fin 128 → EReal
  | 0, k, d => wZero + tile X UT T 0 T k d
  | n + 1, k, d => accS X UT T n k d + tile X UT T (n + 1) T k d

/-- S = U^T x, as accumulated: seven full tiles and a last one of L rows. -/
def sAll (X : Sx.Idx → EReal) (UT : Sut.Idx → EReal) (T L : ℕ) (k : Fin 64) (d : Fin 128) : EReal :=
  accS X UT T 6 k d + tile X UT T 7 L k d

/-- G = diag(p(V)) S W^T. -/
def gOf (X : Sx.Idx → EReal) (UT : Sut.Idx → EReal) (VC : Svc.Idx → EReal) (W : Sw.Idx → EReal) (k : Fin 64) (e : Fin 128) : EReal :=
  ∑ d : Fin 128, (filt (VC (ix2 k 0)) * sAll X UT 12800 10400 k d) * W (ix2 e d)

/-- The fused arrangement at entry (n, e). -/
def fusedAt (X : Sx.Idx → EReal) (UT : Sut.Idx → EReal) (VC : Svc.Idx → EReal) (W : Sw.Idx → EReal) (n : Fin 100000) (e : Fin 128) : EReal :=
  (∑ k : Fin 64, UT (ix2 k n) * gOf X UT VC W k e) + ∑ d : Fin 128, X (ix2 n d) * (wAlpha * W (ix2 e d))

/-- The fused arrangement as an array. -/
def fusedOut (X : Sx.Idx → EReal) (UT : Sut.Idx → EReal) (VC : Svc.Idx → EReal) (W : Sw.Idx → EReal) : Sx.Idx → EReal := fun j =>
  fusedAt X UT VC W (j 0) (j 1)

section Real

variable (x : Sx.Idx → ℝ) (u : Su.Idx → ℝ) (v : Sv.Idx → ℝ) (w : Sw.Idx → ℝ)
variable (X : Sx.Idx → EReal) (U : Su.Idx → EReal) (V : Sv.Idx → EReal) (W : Sw.Idx → EReal) (UT : Sut.Idx → EReal) (VC : Svc.Idx → EReal)
variable (hX : ∀ j, X j = (x j : EReal)) (hU : ∀ j, U j = (u j : EReal)) (hV : ∀ j, V j = (v j : EReal)) (hW : ∀ j, W j = (w j : EReal))
variable (hUT : ∀ (k : Fin 64) (n : Fin 100000), UT (ix2 k n) = U (ix2 n k)) (hVC : ∀ k : Fin 64, VC (ix2 k 0) = V (ix1 k))

/-- The real rows, zero past the end. -/
def xr (n : ℕ) (q : Fin 128) : ℝ := if h : n < 100000 then x (ix2 ⟨n, h⟩ q) else 0
def ur (n : ℕ) (k : Fin 64) : ℝ := if h : n < 100000 then u (ix2 ⟨n, h⟩ k) else 0

include hX in
theorem xz_real (n : ℕ) (q : Fin 128) : xz X n q = (xr x n q : EReal) := by
  unfold xz xr; split
  · exact hX _
  · exact EReal.coe_zero.symm

include hU hUT in
theorem uz_real (n : ℕ) (k : Fin 64) : uz UT n k = (ur u n k : EReal) := by
  unfold uz ur; split
  · rw [hUT, hU]
  · exact EReal.coe_zero.symm

include hX hU hUT in
theorem tile_real (T i len : ℕ) (k : Fin 64) (d : Fin 128) :
    tile X UT T i len k d = ((∑ r : Fin len, ur u (T * i + r.val) k * xr x (T * i + r.val) d : ℝ) : EReal) := by
  unfold tile
  rw [coe_sum]
  exact Finset.sum_congr rfl fun r _ => by rw [uz_real u U UT hU hUT, xz_real x X hX, ← EReal.coe_mul]

include hX hU hUT in
theorem accS_real (T n : ℕ) (k : Fin 64) (d : Fin 128) :
    accS X UT T n k d = ((tiled (fun j => ur u j k * xr x j d) T n : ℝ) : EReal) := by
  induction n with
  | zero => rw [accS, tiled, tile_real x u X U UT hX hU hUT, wZero_real, lit_zero, ← EReal.coe_add, zero_add]
  | succ n ih => rw [accS, tiled, ih, tile_real x u X U UT hX hU hUT, ← EReal.coe_add]

include hX hU hUT in
/-- S is the whole sum over the 100000 rows. -/
theorem sAll_real (T L : ℕ) (hN : T * 7 + L = 100000) (k : Fin 64) (d : Fin 128) :
    sAll X UT T L k d = ((∑ n : Fin 100000, u (ix2 n k) * x (ix2 n d) : ℝ) : EReal) := by
  unfold sAll
  rw [accS_real x u X U UT hX hU hUT, tile_real x u X U UT hX hU hUT, ← EReal.coe_add]
  refine congrArg (fun r : ℝ => (r : EReal)) ?_
  refine (tiled_all (fun j => ur u j k * xr x j d) T L 100000 hN).trans ?_
  refine (sum_fin_eq_range 100000 (fun j => ur u j k * xr x j d)).symm.trans ?_
  exact Finset.sum_congr rfl fun n _ => by
    show ur u n.val k * xr x n.val d = _
    unfold ur xr; rw [dif_pos n.isLt, dif_pos n.isLt]

include hX hU hV hW hUT hVC in
/-- Over real entries the fused arrangement is the reference's, entry by entry. -/
theorem fused_at_eq (n0 : Fin 100000) (e0 : Fin 128) : fusedAt X UT VC W n0 e0 = refAt X U V W n0 e0 := by
  have hp : ∀ k : Fin 64, ∃ q : ℝ, filt (V (ix1 k)) = (q : EReal) := fun k => by rw [hV]; exact filt_real _
  choose p hp using hp
  have hS := sAll_real x u X U UT hX hU hUT 12800 10400 (by norm_num)
  unfold fusedAt refAt gOf mix
  simp only [hUT, hVC, hp, hS, hU, hX, hW, wAlpha_real, ← EReal.coe_mul, ← coe_sum, ← EReal.coe_add]
  exact congrArg (fun r : ℝ => (r : EReal))
    (fused_eq (fun n d => x (ix2 n d)) (fun n k => u (ix2 n k)) p (fun e d => w (ix2 e d)) (lit 0x3DCCCCCD#32) n0 e0)

include hX hU hV hW hUT hVC in
/-- Over real entries the fused arrangement is the reference's. -/
theorem fused_eq_ref : fusedOut X UT VC W = refOut X U V W :=
  funext fun j => fused_at_eq x u v w X U V W UT VC hX hU hV hW hUT hVC (j 0) (j 1)

end Real

end Cert.SpectralConv

end
-- ==== Proof.IdealArray.lean ====
/-
  The result array after the run, as a function of the program's arguments. The staged tiles are rows of x and of U
  (zero past the arrays' end), so the accumulator is the tile-by-tile sum of products of rows, G and alpha * W are those of the fused arrangement, and what
  each point of phase 1 writes back is its block of ONE array: the fused arrangement of the convolution. The eight
  blocks of phase 1 (seven of 12800 rows and one of 10400) cover the 100000 rows, so the array ends holding it.
  U^T and the eigenvalue column are what a transposition and a reshape left before the region.
-/
import proofs.«120780_g1580547974323_cont_week2b_927_17_alg».proof.Proof.IdealData
import proofs.«120780_g1580547974323_cont_week2b_927_17_alg».proof.Proof.FusedSpec
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx Cert.KernelIdeal.Payloads Cert.SpectralConv Cert.SpectralFilter

variable (m : (ℓ : Loc nD τ sig) → Buf (Elt Ideal) ℓ) (ρ : Dev nD → PrngReg)

/-- The arrays as the region finds them: x, U^T, the eigenvalue column, W. -/
def Xa (c : Dev nD) : Sx.Idx → EReal := V m c (Pipeline.arrRef spec0 0)
def Ua (c : Dev nD) : Sut.Idx → EReal := V m c (Pipeline.arrRef spec0 1)
def Vc (c : Dev nD) : Svc.Idx → EReal := V m c (Pipeline.arrRef spec0 2)
def Wa (c : Dev nD) : Sw.Idx → EReal := V m c (Pipeline.arrRef spec0 3)

/-- Where the tiles sit: tile t covers rows 12800 * (t mod 8) on, all lanes; its part inside the arrays is 10400 rows
    at the last tile and 12800 elsewhere. -/
theorem geom : ∀ t : Fin cfg0.N,
    win0_0.index t 0 = t.val % 8 ∧ win0_0.index t 1 = 0 ∧ win0_1.index t 0 = 0 ∧ win0_1.index t 1 = t.val % 8
      ∧ win0_0.xsize (grid0.coords t) 0 = (if t.val % 8 = 7 then 10400 else 12800)
      ∧ win0_1.xsize (grid0.coords t) 1 = (if t.val % 8 = 7 then 10400 else 12800) :=
  (by decide +kernel : ∀ t : Fin grid0.N,
    win0_0.index t 0 = t.val % 8 ∧ win0_0.index t 1 = 0 ∧ win0_1.index t 0 = 0 ∧ win0_1.index t 1 = t.val % 8
      ∧ win0_0.xsize (grid0.coords t) 0 = (if t.val % 8 = 7 then 10400 else 12800)
      ∧ win0_1.xsize (grid0.coords t) 1 = (if t.val % 8 = 7 then 10400 else 12800))

theorem zf_zero : zf = (0 : EReal) := Ideal.ofBits_zero_f32

/-- Row r of x's tile t is row 12800 * (t mod 8) + r of x, zero past the end. -/
theorem xT_at (c : Dev nD) (t : Fin cfg0.N) (r : Fin 12800) (q : Fin 128) :
    xT m c t (ix2 r q) = xz (Xa m c) (12800 * (t.val % 8) + r.val) q := by
  obtain ⟨g0, g1, -, -, gx, -⟩ := geom t
  have h8 : t.val % 8 < 8 := Nat.mod_lt _ (by norm_num)
  by_cases hr : r.val < win0_0.xsize (grid0.coords t) 0
  · have hm : win0_0.moved (grid0.coords t) (ix2 r q) = true := (win0_0.moved_iff _ _).mpr fun a => by
      match a with
      | ⟨0, _⟩ => exact hr
      | ⟨1, _⟩ => show q.val < win0_0.xsize (grid0.coords t) 1; rw [(extents t).1]; exact q.isLt
    have hb : 12800 * (t.val % 8) + r.val < 100000 := by
      rw [gx] at hr; have := r.isLt; split at hr <;> omega
    unfold xT Pipeline.Window.fill xz
    rw [dif_pos hm, dif_pos hb]
    unfold iblk Xa
    rw [View.read_apply]
    refine congrArg (V m c (Pipeline.arrRef spec0 0)) (funext fun a => Fin.ext ?_)
    match a with
    | ⟨0, _⟩ => show win0_0.index t 0 * 12800 + 1 * r.val = 12800 * (t.val % 8) + r.val; rw [g0]; ring
    | ⟨1, _⟩ => show win0_0.index t 1 * 128 + 1 * q.val = q.val; rw [g1]; ring
  · have hm : ¬win0_0.moved (grid0.coords t) (ix2 r q) = true := fun h => hr ((win0_0.moved_iff _ _).mp h 0)
    have hb : ¬12800 * (t.val % 8) + r.val < 100000 := by
      rw [gx] at hr; have := r.isLt; split at hr <;> omega
    unfold xT xz
    rw [win0_0.fill_of_not_moved _ _ _ hm, dif_neg hb]
    exact zf_zero

/-- Lane r of U^T's tile t is row 12800 * (t mod 8) + r of U, zero past the end. -/
theorem uT_at (c : Dev nD) (t : Fin cfg0.N) (k : Fin 64) (r : Fin 12800) :
    uT m c t (ix2 k r) = uz (Ua m c) (12800 * (t.val % 8) + r.val) k := by
  obtain ⟨-, -, g0, g1, -, gx⟩ := geom t
  have h8 : t.val % 8 < 8 := Nat.mod_lt _ (by norm_num)
  by_cases hr : r.val < win0_1.xsize (grid0.coords t) 1
  · have hm : win0_1.moved (grid0.coords t) (ix2 k r) = true := (win0_1.moved_iff _ _).mpr fun a => by
      match a with
      | ⟨0, _⟩ => show k.val < win0_1.xsize (grid0.coords t) 0; rw [(extents t).2.1]; exact k.isLt
      | ⟨1, _⟩ => exact hr
    have hb : 12800 * (t.val % 8) + r.val < 100000 := by
      rw [gx] at hr; have := r.isLt; split at hr <;> omega
    unfold uT Pipeline.Window.fill uz
    rw [dif_pos hm, dif_pos hb]
    unfold iblk Ua
    rw [View.read_apply]
    refine congrArg (V m c (Pipeline.arrRef spec0 1)) (funext fun a => Fin.ext ?_)
    match a with
    | ⟨0, _⟩ => show win0_1.index t 0 * 64 + 1 * k.val = k.val; rw [g0]; ring
    | ⟨1, _⟩ => show win0_1.index t 1 * 12800 + 1 * r.val = 12800 * (t.val % 8) + r.val; rw [g1]; ring
  · have hm : ¬win0_1.moved (grid0.coords t) (ix2 k r) = true := fun h => hr ((win0_1.moved_iff _ _).mp h 1)
    have hb : ¬12800 * (t.val % 8) + r.val < 100000 := by
      rw [gx] at hr; have := r.isLt; split at hr <;> omega
    unfold uT uz
    rw [win0_1.fill_of_not_moved _ _ _ hm, dif_neg hb]
    exact zf_zero

theorem pt_mod (n : ℕ) (h : n ≤ 7) : (pt n).val % 8 = n := by
  show n % 16 % 8 = n
  omega

/-- One tile's product, from the staged tiles. -/
theorem tile_full (c : Dev nD) (n : ℕ) (h : n ≤ 7) (k : Fin 64) (d : Fin 128) :
    (∑ r : Fin 12800, uT m c (pt n) (ix2 k r) * xT m c (pt n) (ix2 r d)) = tile (Xa m c) (Ua m c) 12800 n 12800 k d := by
  unfold tile
  exact Finset.sum_congr rfl fun r _ => by rw [uT_at, xT_at, pt_mod n h]

/-- The accumulator after point n is the zero word plus the products of tiles 0 .. n. -/
theorem acc_eq (c : Dev nD) (n : ℕ) (h : n ≤ 6) (k : Fin 64) (d : Fin 128) :
    acc m c n (ix2 k d) = accS (Xa m c) (Ua m c) 12800 n k d := by
  induction n with
  | zero =>
    show k0_pay2 (k0_pay1 (F := Ideal)) (uT m c (pt 0)) (xT m c (pt 0)) (ix2 k d) = _
    rw [pay2_apply, pay1_apply, tile_full m c 0 (by omega), accS]
  | succ n ih =>
    show k0_pay2 (acc m c n) (uT m c (pt (n + 1))) (xT m c (pt (n + 1))) (ix2 k d) = _
    rw [pay2_apply, ih (by omega), tile_full m c (n + 1) (by omega), accS]

/-- The last, partial tile's product, from the two loads of the staged tiles. -/
theorem tile_last (c : Dev nD) (k : Fin 64) (d : Fin 128) :
    (∑ r : Fin 10400, View.ld (Val := Elt Ideal) (e' := .f32) (uT m c (pt 7)) (Rect.unit (s := S64x12800) ![0, 0] S64x10400.size inb_S64x12800_S64x10400_0_0) (ix2 k r)
        * View.ld (Val := Elt Ideal) (e' := .f32) (xT m c (pt 7)) (Rect.unit (s := S12800x128) ![0, 0] S10400x128.size inb_S12800x128_S10400x128_0_0) (ix2 r d))
      = tile (Xa m c) (Ua m c) 12800 7 10400 k d := by
  unfold tile
  refine Finset.sum_congr rfl fun r _ => ?_
  have e1 : (Rect.unit (s := S64x12800) ![0, 0] S64x10400.size inb_S64x12800_S64x10400_0_0).idx (ix2 k r)
      = ix2 k (⟨r.val, by have := r.isLt; omega⟩ : Fin 12800) := funext fun a => Fin.ext (by
    match a with
    | ⟨0, _⟩ => show 0 + 1 * k.val = k.val; omega
    | ⟨1, _⟩ => show 0 + 1 * r.val = r.val; omega)
  have e0 : (Rect.unit (s := S12800x128) ![0, 0] S10400x128.size inb_S12800x128_S10400x128_0_0).idx (ix2 r d)
      = ix2 (⟨r.val, by have := r.isLt; omega⟩ : Fin 12800) d := funext fun a => Fin.ext (by
    match a with
    | ⟨0, _⟩ => show 0 + 1 * r.val = r.val; omega
    | ⟨1, _⟩ => show 0 + 1 * d.val = d.val; omega)
  show uT m c (pt 7) _ * xT m c (pt 7) _ = _
  rw [e1, e0, uT_at, xT_at, pt_mod 7 (by omega)]

/-- The eigenvalue column and W as staged are the arrays (their blocks are the whole arrays). -/
theorem vcol_at (c : Dev nD) (k : Fin 64) : vcol m c (ix2 k 0) = Vc m c (ix2 k 0) := by
  unfold vcol iblk Vc
  rw [View.read_apply]
  refine congrArg (V m c (Pipeline.arrRef spec0 2)) (funext fun a => Fin.ext ?_)
  match a with
  | ⟨0, _⟩ => show win0_2.index (pt 7) 0 * 64 + 1 * k.val = k.val; rw [show win0_2.index (pt 7) 0 = 0 from by decide +kernel]; ring
  | ⟨1, _⟩ => show win0_2.index (pt 7) 1 * 1 + 1 * 0 = 0; rw [show win0_2.index (pt 7) 1 = 0 from by decide +kernel]
theorem wmat_at (c : Dev nD) (e : Fin 128) (d : Fin 128) : wmat m c (ix2 e d) = Wa m c (ix2 e d) := by
  unfold wmat iblk Wa
  rw [View.read_apply]
  refine congrArg (V m c (Pipeline.arrRef spec0 3)) (funext fun a => Fin.ext ?_)
  match a with
  | ⟨0, _⟩ => show win0_3.index (pt 7) 0 * 128 + 1 * e.val = e.val; rw [show win0_3.index (pt 7) 0 = 0 from by decide +kernel]; ring
  | ⟨1, _⟩ => show win0_3.index (pt 7) 1 * 128 + 1 * d.val = d.val; rw [show win0_3.index (pt 7) 1 = 0 from by decide +kernel]; ring

/-- G and alpha * W as functions of the arrays. -/
theorem gmat_eq (c : Dev nD) (k : Fin 64) (e : Fin 128) : gmat m c (ix2 k e) = gOf (Xa m c) (Ua m c) (Vc m c) (Wa m c) k e := by
  unfold gmat gOf sAll
  rw [pay3_apply]
  refine Finset.sum_congr rfl fun d _ => ?_
  rw [pay6_apply, acc_eq m c 6 (by omega), tile_last, vcol_at, wmat_at]
theorem amat_eq (c : Dev nD) (e : Fin 128) (d : Fin 128) : amat m c (ix2 e d) = wAlpha * Wa m c (ix2 e d) := by
  unfold amat
  rw [pay4_apply, wmat_at]

/-- Where the result's tiles sit in phase 1. -/
theorem geom4 : ∀ t : Fin cfg0.N, 8 ≤ t.val →
    win0_4.index t 0 = t.val % 8 ∧ win0_4.index t 1 = 0
      ∧ win0_4.xsize (grid0.coords t) 0 = (if t.val % 8 = 7 then 10400 else 12800) ∧ win0_4.xsize (grid0.coords t) 1 = 128 :=
  (by decide +kernel : ∀ t : Fin grid0.N, 8 ≤ t.val →
    win0_4.index t 0 = t.val % 8 ∧ win0_4.index t 1 = 0
      ∧ win0_4.xsize (grid0.coords t) 0 = (if t.val % 8 = 7 then 10400 else 12800) ∧ win0_4.xsize (grid0.coords t) 1 = 128)

theorem uz_in (c : Dev nD) (n : Fin 100000) (k : Fin 64) : uz (Ua m c) n.val k = Ua m c (ix2 k n) := by
  unfold uz; rw [dif_pos n.isLt]
theorem xz_in (c : Dev nD) (n : Fin 100000) (q : Fin 128) : xz (Xa m c) n.val q = Xa m c (ix2 n q) := by
  unfold xz; rw [dif_pos n.isLt]

set_option maxHeartbeats 1000000 in
/-- What each point of phase 1 writes back is its block of the fused array. -/
theorem flushed_eq (c : Dev nD) (t : Fin cfg0.N) (ht : 8 ≤ t.val) :
    (vdats m 0 c).flushed 4 t = ((cfg0.win 4).blk t).view.read (Elt Ideal) (fusedOut (Xa m c) (Ua m c) (Vc m c) (Wa m c)) := by
  obtain ⟨g0, g1, gx, gy⟩ := geom4 t ht
  funext y
  have hy0 : (y 0).val < win0_4.xsize (grid0.coords t) 0 := (y 0).isLt
  have hy1 : (y 1).val < 128 := lt_of_lt_of_le (y 1).isLt (win0_4.xsize_le (grid0.coords t) 1)
  have hle : win0_4.xsize (grid0.coords t) 0 ≤ 12800 := win0_4.xsize_le (grid0.coords t) 0
  have h8 : t.val % 8 < 8 := Nat.mod_lt _ (by norm_num)
  have hb : 12800 * (t.val % 8) + (y 0).val < 100000 := by
    rw [gx] at hy0; split at hy0 <;> omega
  have e : win0_4.xinj (grid0.coords t) y = ix2 (⟨(y 0).val, by omega⟩ : Fin 12800) (⟨(y 1).val, hy1⟩ : Fin 128) :=
    funext fun a => Fin.ext (by
      match a with
      | ⟨0, _⟩ => rfl
      | ⟨1, _⟩ => rfl)
  have eo : ((cfg0.win 4).blk t).view.emb y = ix2 (⟨12800 * (t.val % 8) + (y 0).val, hb⟩ : Fin 100000) (⟨(y 1).val, hy1⟩ : Fin 128) :=
    funext fun a => Fin.ext (by
      match a with
      | ⟨0, _⟩ => show win0_4.index t 0 * 12800 + 1 * (y 0).val = 12800 * (t.val % 8) + (y 0).val; rw [g0]; ring
      | ⟨1, _⟩ => show win0_4.index t 1 * 128 + 1 * (y 1).val = (y 1).val; rw [g1]; ring)
  rw [View.read_apply, eo]
  show outTile m c t (win0_4.xinj (grid0.coords t) y) = fusedAt _ _ _ _ _ _
  rw [e]
  unfold outTile fusedAt
  rw [pay5_apply]
  congr 1
  · exact Finset.sum_congr rfl fun k _ =>
      congrArg₂ (· * ·) ((uT_at m c t k _).trans (uz_in m c ⟨12800 * (t.val % 8) + (y 0).val, hb⟩ k)) (gmat_eq m c k _)
  · exact Finset.sum_congr rfl fun d _ =>
      congrArg₂ (· * ·) ((xT_at m c t _ d).trans (xz_in m c ⟨12800 * (t.val % 8) + (y 0).val, hb⟩ d)) (amat_eq m c _ d)

/-- Every entry of the result lies in the block some point of phase 1 writes back. -/
theorem covered (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hq : (i 0).val / 12800 < 8 := by omega
  let t : Fin cfg0.N := ⟨8 + (i 0).val / 12800, by rw [N16]; omega⟩
  have ht : 8 ≤ t.val := Nat.le_add_right _ _
  obtain ⟨g0, g1, gx, gy⟩ := geom4 t ht
  have hmod : t.val % 8 = (i 0).val / 12800 := by show (8 + (i 0).val / 12800) % 8 = _; omega
  refine ⟨t, flush4 t ht, ?_⟩
  show i ∈ ((View.whole main_v0).slice (win0_4.rect t)).set
  rw [View.set_slice_whole, Rect.mem_set_unit]
  intro a
  match a with
  | ⟨0, _⟩ =>
    show win0_4.index t 0 * 12800 ≤ (i 0).val ∧ (i 0).val < win0_4.index t 0 * 12800 + win0_4.xsize (grid0.coords t) 0
    rw [g0, gx, hmod]
    have := Nat.div_add_mod (i 0).val 12800
    have := Nat.mod_lt (i 0).val (show 0 < 12800 by norm_num)
    split <;> omega
  | ⟨1, _⟩ =>
    show win0_4.index t 1 * 128 ≤ (i 1).val ∧ (i 1).val < win0_4.index t 1 * 128 + win0_4.xsize (grid0.coords t) 1
    rw [g1, gy]; omega

/-- After the run the result array holds the fused arrangement of the arrays the region found. -/
theorem final_out (c : Dev nD) : (vdats m 0 c).arrAt 4 cfg0.N = fusedOut (Xa m c) (Ua m c) (Vc m c) (Wa m c) :=
  (vdats m 0 c).arrAt_eq_of_cover 4 (fusedOut (Xa m c) (Ua m c) (Vc m c) (Wa m c))
    (fun t hf => flushed_eq m c t (by
      by_contra h
      have := noFlush4 t (by omega)
      rw [this] at hf; exact Bool.false_ne_true hf))
    covered

/-! ## The arrays the region finds, from the program's arguments -/

theorem Xa_eq (c : Dev nD) : Xa m c = m ((c : Thread nD τ).loc main_arg0) := V_main_arg0 m c
theorem Wa_eq (c : Dev nD) : Wa m c = m ((c : Thread nD τ).loc main_arg3) := V_main_arg3 m c

/-- U^T is written by a transposition of U before the region. -/
theorem ut_host (c : Dev nD) : (V m c main_call0_v1 : S64x100000.Idx → EReal)
    = transpose S64x100000 [1, 0] (m ((c : Thread nD τ).loc main_arg1)) transposes_S100000x64_S64x100000_1_0 := by
  dsimp only [V, hostOps0]
  after_results
  rfl

/-- The eigenvalue column is V recast to 64 x 1 before the region. -/
theorem vc_host (c : Dev nD) : (V m c main_call0_v0 : S64x1.Idx → EReal)
    = shapeCast S64x1 (m ((c : Thread nD τ).loc main_arg2)) shapeCasts_S64_S64x1 := by
  dsimp only [V, hostOps0]
  after_results
  rfl

theorem Ua_at (c : Dev nD) (k : Fin 64) (n : Fin 100000) : Ua m c (ix2 k n) = m ((c : Thread nD τ).loc main_arg1) (ix2 n k) := by
  unfold Ua
  show (V m c main_call0_v1 : S64x100000.Idx → EReal) (ix2 k n) = _
  rw [ut_host]
  exact transpose_apply [1, 0] _ transposes_S100000x64_S64x100000_1_0 (ix2 k n) (ix2 n k) (fun b => by
    match b with
    | ⟨0, _⟩ => rfl
    | ⟨1, _⟩ => rfl)

theorem Vc_at (c : Dev nD) (k : Fin 64) : Vc m c (ix2 k 0) = m ((c : Thread nD τ).loc main_arg2) (ix1 k) := by
  unfold Vc
  show (V m c main_call0_v0 : S64x1.Idx → EReal) (ix2 k 0) = _
  rw [vc_host]
  exact shapeCast_apply _ shapeCasts_S64_S64x1 (ix2 k 0) (ix1 k) (by
    rw [Shape.rowMajor_val_one, Shape.rowMajor_val_two]
    show k.val = k.val * 1 + 0
    omega)

end Cert.KernelIdeal.Gen

end
-- ==== Proof.LibFiniteEntries.lean ====
/-
  One conjunct of a finiteness precondition read back. The test `jnp.all(jnp.abs(x) < inf)` of a float array x prints
  as a reduction by `and`, down to a single truth value, of the comparison of |x| with a splat of the word of +inf.
  On the extended reals |x| is max x (-x), the word 0x7F800000 is +inf, and max x (-x) < +inf says x is neither
  infinity: a real number. So where the test's value is 1, every entry of x is the coercion of a real. Any shape, any
  reduced axes, any scalar shape for the splat.
-/
import Idealize.ShloMosaic.PureOps.Ideal
import Idealize.ShloMosaic.PureOps.Ideal.Laws
import Idealize.ShloMosaic.Lib.ReduceAll

noncomputable section

namespace Cert.Lib.FiniteEntries

open Idealize.ShloMosaic

/-- An extended real whose absolute value compares below +inf is a real number. -/
theorem real_of_abs_lt_top (x : EReal) (h : Ideal.cmp .olt (max x (-x)) ⊤ = 1#1) : ∃ r : ℝ, x = (r : EReal) := by
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

/-- The word of +inf in binary32 denotes the top element. -/
theorem ofBits_inf : Ideal.ofBits .f32 0x7F800000#32 = ⊤ := by simp [Ideal.ofBits, Ideal.ieee]

/-- Where `all(|x| < inf)` is 1, every entry of x is real. -/
theorem real_of_all {s z t u : Shape} {axes : List (Fin s.rank)} [Subsingleton t.Idx] (x : FVec Ideal s .f32)
    (dims : Fin z.rank → Fin s.rank) (hb : z.BroadcastsInDim s dims) (init : u.Idx → BitVec 1) (h : s.ReducesTo axes t)
    (hu : 0 < u.numel) (j : t.Idx)
    (e : Host.reduce IntOp.andi
      (cmpf (F := Ideal) .olt (Host.absf x) (broadcastInDim s dims hb (constant (F := Ideal) z .f32 0x7F800000#32))) init h hu j = 1#1)
    (i : s.Idx) : ∃ r : ℝ, x i = (r : EReal) := by
  have hi := Host.reduce_andi_all _ init h hu j e i
  refine real_of_abs_lt_top (x i) ?_
  rw [← ofBits_inf]
  exact hi

end Cert.Lib.FiniteEntries

end
-- ==== Proof.FiniteInputs.lean ====
/-
  The precondition read back: where the test "every float input is finite" is all ones, every entry of x, U, V and W
  is (the coercion of) a real number. The test is the conjunction of four all(|a| < inf) tests, one per array.
-/
import proofs.«120780_g1580547974323_cont_week2b_927_17_alg».proof.Pre_finite_inputs
import proofs.«120780_g1580547974323_cont_week2b_927_17_alg».proof.Proof.LibFiniteEntries
import Idealize.ShloMosaic.Lib.Affine
import Idealize.ShloMosaic.Lib.ValueIdx

noncomputable section

namespace Cert.Pre_finite_inputs.Decode

open Idealize.ShloMosaic Cert.Pre_finite_inputs Cert.Pre_finite_inputs.Facts

instance : Subsingleton S_.Idx := ⟨fun a b => funext fun d => d.elim0⟩

theorem all_real [Facts] (a0 : FVec Ideal S100000x128 .f32) (a1 : FVec Ideal S100000x64 .f32) (a2 : FVec Ideal S64 .f32) (a3 : FVec Ideal S128x128 .f32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨fun i => Cert.Lib.FiniteEntries.real_of_all a0 _ _ _ _ _ _ h0' i,
    fun i => Cert.Lib.FiniteEntries.real_of_all a1 _ _ _ _ _ _ h1 i,
    fun i => Cert.Lib.FiniteEntries.real_of_all a2 _ _ _ _ _ _ h2 i,
    fun i => Cert.Lib.FiniteEntries.real_of_all a3 _ _ _ _ _ _ h3 i⟩

end Cert.Pre_finite_inputs.Decode

end
-- ==== Proof.IdealBridge.lean ====
/-
  Under the precondition the kernel's result array is the convolution of its own arguments in the reference's
  arrangement: every entry of x, U, V, W is real, so the fused arrangement (what the run leaves) equals it.
-/
import proofs.«120780_g1580547974323_cont_week2b_927_17_alg».proof.Proof.IdealArray
import proofs.«120780_g1580547974323_cont_week2b_927_17_alg».proof.Proof.FiniteInputs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx Cert.SpectralConv

variable (m : (ℓ : Loc nD τ sig) → Buf (Elt Ideal) ℓ)

theorem fused_is_ref [Cert.Pre_finite_inputs.Facts] (c : Dev nD)
    (hp : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    fusedOut (Xa m c) (Ua m c) (Vc m c) (Wa m c)
      = refOut (m ((c.tc : Thread nD τ).loc main_arg0)) (m ((c.tc : Thread nD τ).loc main_arg1))
          (m ((c.tc : Thread nD τ).loc main_arg2)) (m ((c.tc : Thread nD τ).loc main_arg3)) := by
  obtain ⟨f0, f1, f2, f3⟩ := Cert.Pre_finite_inputs.Decode.all_real _ _ _ _ hp
  choose x hx using f0
  choose u hu using f1
  choose v hv using f2
  choose w hw using f3
  have h := fused_eq_ref x u v w (Xa m c) (m ((c.tc : Thread nD τ).loc main_arg1)) (m ((c.tc : Thread nD τ).loc main_arg2)) (Wa m c)
    (Ua m c) (Vc m c) (fun j => by rw [Xa_eq]; exact hx j) hu hv (fun j => by rw [Wa_eq]; exact hw j) (Ua_at m c) (Vc_at m c)
  rw [h, Xa_eq, Wa_eq]

end Cert.KernelIdeal.Gen

end
-- ==== Proof.RefValue.lean ====
/-
  The reference at the exact values is the convolution's formula, entry by entry: the two feature products and the
  node projection are plain sums, the transposes and broadcasts re-index, and the ten powers, the running sum and the
  division by ten are the filter as both programs compute it.
-/
import proofs.«120780_g1580547974323_cont_week2b_927_17_alg».proof.Proof.Gen.ReferenceIdeal.Read
import proofs.«120780_g1580547974323_cont_week2b_927_17_alg».proof.Proof.ConvSpec

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.SpectralFilter Cert.SpectralConv

/-- The reference's filtered eigenvalues. -/
theorem ref_filter (x2 : (⟨S64, .f32⟩ : BufTy).Contents (Elt Ideal)) (i : S64.Idx) :
    val_main_v45 (F := Ideal) x2 i = filt (x2 i) := by
  simp only [val_main_cst_apply, val_main_v2_apply, val_main_cst_0_apply, val_main_v3_apply, val_main_v4_apply, val_main_cst_1_apply, val_main_v5_apply, val_main_v6_apply, val_main_v7_apply, val_main_v8_apply, val_main_cst_2_apply, val_main_v9_apply, val_main_v10_apply, val_main_v11_apply, val_main_v12_apply, val_main_cst_3_apply, val_main_v13_apply, val_main_v14_apply, val_main_v15_apply, val_main_v16_apply, val_main_cst_4_apply, val_main_v17_apply, val_main_v18_apply, val_main_v19_apply, val_main_v20_apply, val_main_cst_5_apply, val_main_v21_apply, val_main_v22_apply, val_main_v23_apply, val_main_v24_apply, val_main_cst_6_apply, val_main_v25_apply, val_main_v26_apply, val_main_v27_apply, val_main_v28_apply, val_main_cst_7_apply, val_main_v29_apply, val_main_v30_apply, val_main_v31_apply, val_main_v32_apply, val_main_cst_8_apply, val_main_v33_apply, val_main_v34_apply, val_main_v35_apply, val_main_v36_apply, val_main_cst_9_apply, val_main_v37_apply, val_main_v38_apply, val_main_v39_apply, val_main_v40_apply, val_main_cst_10_apply, val_main_v41_apply, val_main_v42_apply, val_main_v43_apply, val_main_cst_11_apply, val_main_v44_apply, val_main_v45_apply]
  rfl

section
variable (i : S100000x128.Idx) (k : Fin 64) (n : Fin 100000) (d : Fin 128)

theorem e_l51 : lidx_main_v51 i k = ix2 (i 0) k := funext fun a => by
  match a with
  | ⟨0, _⟩ => rfl
  | ⟨1, _⟩ => rfl
theorem e_filt : idx_main_v46 (idx_main_v47 (lidx_main_v51 i k)) = ix1 k := funext fun a => by
  match a with
  | ⟨0, _⟩ => rfl
theorem e_u : idx_main_v49 (lidx_main_v50 (ridx_main_v51 i k) n) = ix2 n k := funext fun a => by
  match a with
  | ⟨0, _⟩ => rfl
  | ⟨1, _⟩ => rfl
theorem e_x : lidx_main_v1 (ridx_main_v50 (ridx_main_v51 i k) n) d = ix2 n d := funext fun a => by
  match a with
  | ⟨0, _⟩ => rfl
  | ⟨1, _⟩ => rfl
theorem e_w : idx_main_v0 (ridx_main_v1 (ridx_main_v50 (ridx_main_v51 i k) n) d) = ix2 (i 1) d := funext fun a => by
  match a with
  | ⟨0, _⟩ => rfl
  | ⟨1, _⟩ => rfl
theorem e_x2 : lidx_main_v1 i d = ix2 (i 0) d := funext fun a => by
  match a with
  | ⟨0, _⟩ => rfl
  | ⟨1, _⟩ => rfl
theorem e_w2 : idx_main_v0 (ridx_main_v1 i d) = ix2 (i 1) d := funext fun a => by
  match a with
  | ⟨0, _⟩ => rfl
  | ⟨1, _⟩ => rfl
end

theorem e_r50 (j : S64x128.Idx) (n : Fin 100000) : ridx_main_v50 j n 0 = n := rfl

/-- U scaled by the filtered eigenvalues. -/
theorem ref_scaled (x1 : (⟨S100000x64, .f32⟩ : BufTy).Contents (Elt Ideal)) (x2 : (⟨S64, .f32⟩ : BufTy).Contents (Elt Ideal)) (n : Fin 100000) (k : Fin 64) :
    val_main_v48 (F := Ideal) x1 x2 (ix2 n k) = x1 (ix2 n k) * filt (x2 (ix1 k)) := by
  rw [val_main_v48_apply, val_main_v47_apply, val_main_v46_apply, ref_filter]
  have e : idx_main_v46 (idx_main_v47 (ix2 n k)) = ix1 k := funext fun a => by
    match a with
    | ⟨0, _⟩ => rfl
  rw [e]
  rfl

/-- The reference's result is the convolution's formula. -/
theorem ref_eq (x0 : (⟨S100000x128, .f32⟩ : BufTy).Contents (Elt Ideal)) (x1 : (⟨S100000x64, .f32⟩ : BufTy).Contents (Elt Ideal))
    (x2 : (⟨S64, .f32⟩ : BufTy).Contents (Elt Ideal)) (x3 : (⟨S128x128, .f32⟩ : BufTy).Contents (Elt Ideal)) :
    val_main_v54 (F := Ideal) x0 x1 x2 x3 = refOut x0 x1 x2 x3 := by
  funext i
  simp only [val_main_v54_apply, val_main_v53_apply, val_main_v52_apply, val_main_cst_12_apply, val_main_v51_apply, val_main_v50_apply,
    val_main_v49_apply, val_main_v48_apply, val_main_v47_apply, val_main_v46_apply, ref_filter, val_main_v1_apply, val_main_v0_apply,
    e_l51, e_filt, e_u, e_x, e_w, e_x2, e_w2, e_r50]
  unfold refOut refAt mix
  refine congrArg₂ (· + ·) (Finset.sum_congr rfl fun k _ => ?_) rfl
  exact congrArg (fun z => z * ∑ n : Fin 100000, x1 (ix2 n k) * ∑ d : Fin 128, x0 (ix2 n d) * x3 (ix2 (i 1) d)) (ref_scaled x1 x2 (i 0) k)

end Cert.ReferenceIdeal.RefValue

end
-- ==== Proof.lean ====
/-
  The certificate of a fused spectral graph convolution against its plain reference, at the exact values.

  The reference computes h = x W^T, a degree-ten polynomial filter p of the eigenvalues V (the same ten powers and
  the same division by ten on both sides), and out = (U diag p) (U^T h) + alpha h. The kernel commutes the feature
  product past the node projection: over a grid of 2 x 8 points it first accumulates S = U^T x tile by tile (the
  last tile partial), forms G = diag(p) S W^T and alpha W once, then emits out = U G + x (alpha W)^T tile by tile.
  Over finite inputs the two are the same function by distributivity and exchange of finite sums of reals.

  Here: the three frames (every execution terminates, faults nowhere, leaves x, U, V, W unchanged) — the two
  kernels' by the four control cases over the grid, the reference's from its run read back —; the idealization
  rewrote nothing, so nothing is owed for it; and the equality of the results.
-/
import proofs.«120780_g1580547974323_cont_week2b_927_17_alg».proof.Defs
import proofs.«120780_g1580547974323_cont_week2b_927_17_alg».proof.Proof.Gen.Kernel
import proofs.«120780_g1580547974323_cont_week2b_927_17_alg».proof.Proof.Gen.KernelIdeal
import proofs.«120780_g1580547974323_cont_week2b_927_17_alg».proof.Proof.Gen.ReferenceIdeal
import proofs.«120780_g1580547974323_cont_week2b_927_17_alg».proof.Proof.Gen.ReferenceIdeal.Run
import proofs.«120780_g1580547974323_cont_week2b_927_17_alg».proof.Proof.Gen.Pre_finite_inputs
import proofs.«120780_g1580547974323_cont_week2b_927_17_alg».proof.Proof.WordFrame
import proofs.«120780_g1580547974323_cont_week2b_927_17_alg».proof.Proof.IdealFrame
import proofs.«120780_g1580547974323_cont_week2b_927_17_alg».proof.Proof.IdealBridge
import proofs.«120780_g1580547974323_cont_week2b_927_17_alg».proof.Proof.RefValue
import Idealize.ShloMosaic.Adequacy
import Idealize.ShloMosaic.Init

noncomputable section

namespace Cert.Proof

open Idealize.ShloMosaic Idealize.SL.Sem

theorem frame_word : Cert.frame_Kernel (hKernel := Cert.Kernel.Gen.facts) (hPre_finite_inputs := Cert.Pre_finite_inputs.Gen.facts) :=
  fun m ρ _ => Cert.Kernel.Gen.hand_frame (F := Bits) m ρ

theorem frame_ideal : Cert.frame_KernelIdeal (hKernelIdeal := Cert.KernelIdeal.Gen.facts) (hPre_finite_inputs := Cert.Pre_finite_inputs.Gen.facts) :=
  fun m ρ _ => Cert.KernelIdeal.Gen.hand_frame (F := Ideal) m ρ

/-- The reference's frame is its run with the result dropped. -/
theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.SpectralConv.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel: its run names the result array; the array is the fused arrangement; under the precondition that is the formula
    exact (θ_run Cert.KernelIdeal.defs _ _).mono (fun r h c =>
      ⟨((h c).1 4).trans ((Cert.KernelIdeal.Gen.final_out m c).trans (Cert.KernelIdeal.Gen.fused_is_ref m c (hpre c))),
        ((h c).1 0).trans (((Cert.KernelIdeal.Gen.vdats m 0 c).arrAt_in 0 rfl _).trans ((Cert.KernelIdeal.Gen.vA_eq m c 0).trans (Cert.KernelIdeal.Gen.V_main_arg0 m c))),
        ((h c).2 Cert.KernelIdeal.main_arg1 (Pipeline.mem_restRefs_of Cert.KernelIdeal.main_arg1 (by decide) (by decide))).trans (Cert.KernelIdeal.Gen.V_main_arg1 m c),
        ((h c).2 Cert.KernelIdeal.main_arg2 (Pipeline.mem_restRefs_of Cert.KernelIdeal.main_arg2 (by decide) (by decide))).trans (Cert.KernelIdeal.Gen.V_main_arg2 m c),
        ((h c).1 3).trans (((Cert.KernelIdeal.Gen.vdats m 0 c).arrAt_in 3 rfl _).trans ((Cert.KernelIdeal.Gen.vA_eq m c 3).trans (Cert.KernelIdeal.Gen.V_main_arg3 m c)))⟩)
      (Cert.KernelIdeal.Gen.vrun_main m ρ)
  · -- the reference: its run's term is the formula of its arguments, which agree with the kernel's
    refine (θ_run Cert.ReferenceIdeal.defs _ _).mono (fun r h c => ⟨?_, (h c).2⟩) (Cert.ReferenceIdeal.Value.run (F := Ideal) m' ρ')
    rw [(h c).1, Cert.ReferenceIdeal.Read.val_main_v54_eq, Cert.ReferenceIdeal.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
